-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_tau" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S262126 : Shape := ⟨1, ![262126]⟩
abbrev S8192 : Shape := ⟨1, ![8192]⟩
abbrev S400 : Shape := ⟨1, ![400]⟩
abbrev S500 : Shape := ⟨1, ![500]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel

variable [Facts]

def fn {F : FTy → Type} [FloatOps F] (main_arg0 : FVec F S200000x256 .f32) (main_arg1 : IVec S262126 32) (main_arg2 : IVec S262126 32) (main_arg3 : IVec S8192 32) (main_arg4 : IVec S400 32) (main_arg5 : IVec S500 32) (main_arg6 : IVec S500 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  main_v3
-- ==== Kernel.lean ====
abbrev S200000x256 : Shape := ⟨2, ![200000, 256]⟩
abbrev S262126 : Shape := ⟨1, ![262126]⟩
abbrev S8192 : Shape := ⟨1, ![8192]⟩
abbrev S400 : Shape := ⟨1, ![400]⟩
abbrev S500 : Shape := ⟨1, ![500]⟩
abbrev S_ : Shape := ⟨0, ![]⟩
abbrev S262126x1 : Shape := ⟨2, ![262126, 1]⟩
abbrev S262126x256 : Shape := ⟨2, ![262126, 256]⟩
abbrev S8192x256 : Shape := ⟨2, ![8192, 256]⟩
abbrev S8192x1 : Shape := ⟨2, ![8192, 1]⟩
abbrev S400x1 : Shape := ⟨2, ![400, 1]⟩
abbrev S1x8192 : Shape := ⟨2, ![1, 8192]⟩
abbrev S128x256 : Shape := ⟨2, ![128, 256]⟩
abbrev S1x128 : Shape := ⟨2, ![1, 128]⟩
abbrev S128x1 : Shape := ⟨2, ![128, 1]⟩
abbrev S128x8192 : Shape := ⟨2, ![128, 8192]⟩
abbrev S128 : Shape := ⟨1, ![128]⟩
abbrev S500x1 : Shape := ⟨2, ![500, 1]⟩
abbrev S500x256 : Shape := ⟨2, ![500, 256]⟩
abbrev S1 : Shape := ⟨1, ![1]⟩
abbrev S4 : Shape := ⟨1, ![4]⟩

abbrev nBuf : Space → Nat
  | .hbm => 125
  | .vmem => 10
  | .smem => 0
  | _ => 0

abbrev bufTy : (tb : Table) → Fin (tcTables nBuf tb) → BufTy
  | .hbm, ⟨0, _⟩ => ⟨S200000x256, .f32⟩
  | .hbm, ⟨1, _⟩ => ⟨S262126, .i32⟩
  | .hbm, ⟨2, _⟩ => ⟨S262126, .i32⟩
  | .hbm, ⟨3, _⟩ => ⟨S8192, .i32⟩
  | .hbm, ⟨4, _⟩ => ⟨S400, .i32⟩
  | .hbm, ⟨5, _⟩ => ⟨S500, .i32⟩
  | .hbm, ⟨6, _⟩ => ⟨S500, .i32⟩
  | .hbm, ⟨7, _⟩ => ⟨S_, .i32⟩
  | .hbm, ⟨8, _⟩ => ⟨S262126, .i32⟩
  | .hbm, ⟨9, _⟩ => ⟨S262126, .i1⟩
  | .hbm, ⟨10, _⟩ => ⟨S_, .i32⟩
  | .hbm, ⟨11, _⟩ => ⟨S262126, .i32⟩
  | .hbm, ⟨12, _⟩ => ⟨S262126, .i32⟩
  | .hbm, ⟨13, _⟩ => ⟨S262126, .i32⟩
  | .hbm, ⟨14, _⟩ => ⟨S262126x1, .i32⟩
  | .hbm, ⟨15, _⟩ => ⟨S262126x256, .f32⟩
  | .hbm, ⟨16, _⟩ => ⟨S_, .f32⟩
  | .hbm, ⟨17, _⟩ => ⟨S262126, .f32⟩
  | .hbm, ⟨18, _⟩ => ⟨S_, .f32⟩
  | .hbm, ⟨19, _⟩ => ⟨S8192, .f32⟩
  | .hbm, ⟨20, _⟩ => ⟨S262126x1, .i32⟩
  | .hbm, ⟨21, _⟩ => ⟨S8192, .f32⟩
  | .hbm, ⟨22, _⟩ => ⟨S_, .f32⟩
  | .hbm, ⟨23, _⟩ => ⟨S8192x256, .f32⟩
  | .hbm, ⟨24, _⟩ => ⟨S262126x1, .i32⟩
  | .hbm, ⟨25, _⟩ => ⟨S8192x256, .f32⟩
  | .hbm, ⟨26, _⟩ => ⟨S8192x1, .f32⟩
  | .hbm, ⟨27, _⟩ => ⟨S8192x256, .f32⟩
  | .hbm, ⟨28, _⟩ => ⟨S8192x256, .f32⟩
  | .hbm, ⟨29, _⟩ => ⟨S_, .i32⟩
  | .hbm, ⟨30, _⟩ => ⟨S262126, .i32⟩
  | .hbm, ⟨31, _⟩ => ⟨S262126, .i1⟩
  | .hbm, ⟨32, _⟩ => ⟨S_, .i32⟩
  | .hbm, ⟨33, _⟩ => ⟨S262126, .i32⟩
  | .hbm, ⟨34, _⟩ => ⟨S262126, .i32⟩
  | .hbm, ⟨35, _⟩ => ⟨S262126, .i32⟩
  | .hbm, ⟨36, _⟩ => ⟨S262126x1, .i32⟩
  | .hbm, ⟨37, _⟩ => ⟨S262126x256, .f32⟩
  | .hbm, ⟨38, _⟩ => ⟨S262126x256, .f32⟩
  | .hbm, ⟨39, _⟩ => ⟨S262126x256, .f32⟩
  | .hbm, ⟨40, _⟩ => ⟨S_, .f32⟩
  | .hbm, ⟨41, _⟩ => ⟨S262126, .f32⟩
  | .hbm, ⟨42, _⟩ => ⟨S_, .f32⟩
  | .hbm, ⟨43, _⟩ => ⟨S8192, .f32⟩
  | .hbm, ⟨44, _⟩ => ⟨S262126x1, .i32⟩
  | .hbm, ⟨45, _⟩ => ⟨S8192, .f32⟩
  | .hbm, ⟨46, _⟩ => ⟨S8192, .f32⟩
  | .hbm, ⟨47, _⟩ => ⟨S_, .i32⟩
  | .hbm, ⟨48, _⟩ => ⟨S400, .i32⟩
  | .hbm, ⟨49, _⟩ => ⟨S400, .i1⟩
  | .hbm, ⟨50, _⟩ => ⟨S_, .i32⟩
  | .hbm, ⟨51, _⟩ => ⟨S400, .i32⟩
  | .hbm, ⟨52, _⟩ => ⟨S400, .i32⟩
  | .hbm, ⟨53, _⟩ => ⟨S400, .i32⟩
  | .hbm, ⟨54, _⟩ => ⟨S400x1, .i32⟩
  | .hbm, ⟨55, _⟩ => ⟨S400, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S8192x256, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1, .f32⟩
  | .hbm, ⟨65, _⟩ => ⟨S8192x256, .f32⟩
  | .hbm, ⟨66, _⟩ => ⟨S8192x256, .f32⟩
  | .hbm, ⟨67, _⟩ => ⟨S8192x256, .bf16⟩
  | .hbm, ⟨68, _⟩ => ⟨S1x8192, .i32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .i32⟩
  | .hbm, ⟨79, _⟩ => ⟨S500, .i32⟩
  | .hbm, ⟨80, _⟩ => ⟨S500, .i1⟩
  | .hbm, ⟨81, _⟩ => ⟨S_, .i32⟩
  | .hbm, ⟨82, _⟩ => ⟨S500, .i32⟩
  | .hbm, ⟨83, _⟩ => ⟨S500, .i32⟩
  | .hbm, ⟨84, _⟩ => ⟨S500, .i32⟩
  | .hbm, ⟨85, _⟩ => ⟨S500x1, .i32⟩
  | .hbm, ⟨86, _⟩ => ⟨S500x256, .f32⟩
  | .hbm, ⟨87, _⟩ => ⟨S_, .i32⟩
  | .hbm, ⟨88, _⟩ => ⟨S500, .i32⟩
  | .hbm, ⟨89, _⟩ => ⟨S500, .i1⟩
  | .hbm, ⟨90, _⟩ => ⟨S_, .i32⟩
  | .hbm, ⟨91, _⟩ => ⟨S500, .i32⟩
  | .hbm, ⟨92, _⟩ => ⟨S500, .i32⟩
  | .hbm, ⟨93, _⟩ => ⟨S500, .i32⟩
  | .hbm, ⟨94, _⟩ => ⟨S500x1, .i32⟩
  | .hbm, ⟨95, _⟩ => ⟨S500x256, .f32⟩
  | .hbm, ⟨96, _⟩ => ⟨S500x256, .f32⟩
  | .hbm, ⟨97, _⟩ => ⟨S500x256, .f32⟩
  | .hbm, ⟨98, _⟩ => ⟨S_, .f32⟩
  | .hbm, ⟨99, _⟩ => ⟨S500, .f32⟩
  | .hbm, ⟨100, _⟩ => ⟨S500, .f32⟩
  | .hbm, ⟨101, _⟩ => ⟨S_, .f32⟩
  | .hbm, ⟨102, _⟩ => ⟨S500, .f32⟩
  | .hbm, ⟨103, _⟩ => ⟨S500, .f32⟩
  | .hbm, ⟨104, _⟩ => ⟨S_, .f32⟩
  | .hbm, ⟨105, _⟩ => ⟨S500, .f32⟩
  | .hbm, ⟨106, _⟩ => ⟨S500, .f32⟩
  | .hbm, ⟨107, _⟩ => ⟨S500, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S1, .f32⟩
  | .hbm, ⟨121, _⟩ => ⟨S1, .f32⟩
  | .hbm, ⟨122, _⟩ => ⟨S1, .f32⟩
  | .hbm, ⟨123, _⟩ => ⟨S1, .f32⟩
  | .hbm, ⟨124, _⟩ => ⟨S4, .f32⟩
  | .local _ .vmem, ⟨0, _⟩ => ⟨S128x256, .bf16⟩
  | .local _ .vmem, ⟨1, _⟩ => ⟨S128x256, .bf16⟩
  | .local _ .vmem, ⟨2, _⟩ => ⟨S8192x256, .bf16⟩
  | .local _ .vmem, ⟨3, _⟩ => ⟨S1x128, .i32⟩
  | .local _ .vmem, ⟨4, _⟩ => ⟨S1x128, .i32⟩
  | .local _ .vmem, ⟨5, _⟩ => ⟨S1x8192, .i32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_call0_v0 : Ref sig .tc := ⟨.hbm, 60, rfl⟩
abbrev main_call0_cst : Ref sig .tc := ⟨.hbm, 61, rfl⟩
abbrev main_call0_v1 : Ref sig .tc := ⟨.hbm, 62, rfl⟩
abbrev main_call0_v2 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45_0 : Ref sig .tc := ⟨.hbm, 69, rfl⟩
abbrev main_v45_1 : Ref sig .tc := ⟨.hbm, 70, rfl⟩
abbrev main_cst_11 : Ref sig .tc := ⟨.hbm, 71, rfl⟩
abbrev main_v46 : Ref sig .tc := ⟨.hbm, 72, rfl⟩
abbrev main_cst_12 : Ref sig .tc := ⟨.hbm, 73, rfl⟩
abbrev main_v47 : Ref sig .tc := ⟨.hbm, 74, rfl⟩
abbrev main_cst_13 : Ref sig .tc := ⟨.hbm, 75, rfl⟩
abbrev main_v48 : Ref sig .tc := ⟨.hbm, 76, rfl⟩
abbrev main_v49 : Ref sig .tc := ⟨.hbm, 77, rfl⟩
abbrev main_c_14 : Ref sig .tc := ⟨.hbm, 78, rfl⟩
abbrev main_v50 : Ref sig .tc := ⟨.hbm, 79, rfl⟩
abbrev main_v51 : Ref sig .tc := ⟨.hbm, 80, rfl⟩
abbrev main_c_15 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_16 : Ref sig .tc := ⟨.hbm, 87, rfl⟩
abbrev main_v57 : Ref sig .tc := ⟨.hbm, 88, rfl⟩
abbrev main_v58 : Ref sig .tc := ⟨.hbm, 89, rfl⟩
abbrev main_c_17 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_call1_v0 : Ref sig .tc := ⟨.hbm, 97, rfl⟩
abbrev main_call1_cst : Ref sig .tc := ⟨.hbm, 98, rfl⟩
abbrev main_call1_v1 : Ref sig .tc := ⟨.hbm, 99, rfl⟩
abbrev main_v65 : Ref sig .tc := ⟨.hbm, 100, rfl⟩
abbrev main_cst_18 : Ref sig .tc := ⟨.hbm, 101, rfl⟩
abbrev main_v66 : Ref sig .tc := ⟨.hbm, 102, rfl⟩
abbrev main_v67 : Ref sig .tc := ⟨.hbm, 103, rfl⟩
abbrev main_call2_cst : Ref sig .tc := ⟨.hbm, 104, rfl⟩
abbrev main_call2_v0 : Ref sig .tc := ⟨.hbm, 105, rfl⟩
abbrev main_v68 : Ref sig .tc := ⟨.hbm, 106, rfl⟩
abbrev main_v69 : Ref sig .tc := ⟨.hbm, 107, rfl⟩
abbrev main_cst_19 : Ref sig .tc := ⟨.hbm, 108, rfl⟩
abbrev main_v70 : Ref sig .tc := ⟨.hbm, 109, rfl⟩
abbrev main_cst_20 : Ref sig .tc := ⟨.hbm, 110, rfl⟩
abbrev main_v71 : Ref sig .tc := ⟨.hbm, 111, rfl⟩
abbrev main_cst_21 : Ref sig .tc := ⟨.hbm, 112, rfl⟩
abbrev main_v72 : Ref sig .tc := ⟨.hbm, 113, rfl⟩
abbrev main_cst_22 : Ref sig .tc := ⟨.hbm, 114, rfl⟩
abbrev main_v73 : Ref sig .tc := ⟨.hbm, 115, rfl⟩
abbrev main_v74 : Ref sig .tc := ⟨.hbm, 116, rfl⟩
abbrev main_cst_23 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S262126 : S_.BroadcastsInDim S262126 (![] : Fin 0 → Fin S262126.rank)
  bcast_S262126_S262126x1_0 : S262126.BroadcastsInDim S262126x1 (![0] : Fin 1 → Fin S262126x1.rank)
  bcast_S_S8192 : S_.BroadcastsInDim S8192 (![] : Fin 0 → Fin S8192.rank)
  bcast_S_S8192x256 : S_.BroadcastsInDim S8192x256 (![] : Fin 0 → Fin S8192x256.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  reducesTo_S262126x256_S262126_d1 : S262126x256.ReducesTo [1] S262126
  h_S_ : 0 < S_.numel
  bcast_S_S400 : S_.BroadcastsInDim S400 (![] : Fin 0 → Fin S400.rank)
  bcast_S400_S400x1_0 : S400.BroadcastsInDim S400x1 (![0] : Fin 1 → Fin S400x1.rank)
  reducesTo_S400_S_d0 : S400.ReducesTo [0] S_
  reducesTo_S8192x256_S8192_d1 : S8192x256.ReducesTo [1] S8192
  bitsLt_bf16_f32 : FTy.bits .bf16 < FTy.bits .f32
  shapeCasts_S8192_S1x8192 : S8192.ShapeCasts S1x8192
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  iota_S128x8192_d0_w32 : S128x8192.Iotas .tc 32 [0]
  iota_S128x8192_d1_w32 : S128x8192.Iotas .tc 32 [1]
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  transposes_S1x128_p1_0_S128x1 : S1x128.Transposes [1, 0] S128x1
  broadcasts_S128x1_S128x8192 : S128x1.Broadcasts S128x8192
  broadcasts_S1x8192_S128x8192 : S1x8192.Broadcasts S128x8192
  reduces_S128x8192_S128 : S128x8192.Reduces [1] S128
  shapeCasts_S128_S128x1 : S128.ShapeCasts S128x1
  natLt_1_32 : 1 < 32
  inb_S128x1_S128x1_0_0 : ∀ a, (![0, 0] : Fin 2 → Nat) a + S128x1.size a ≤ S128x1.size a
  h_S128x1 : 0 < S128x1.numel
  reducesTo_S8192x1_S_d0_1 : S8192x1.ReducesTo [0, 1] S_
  bcast_S_S500 : S_.BroadcastsInDim S500 (![] : Fin 0 → Fin S500.rank)
  bcast_S500_S500x1_0 : S500.BroadcastsInDim S500x1 (![0] : Fin 1 → Fin S500x1.rank)
  reducesTo_S500x256_S500_d1 : S500x256.ReducesTo [1] S500
  reducesTo_S500_S_d0 : S500.ReducesTo [0] S_
  bcast_S_S1 : S_.BroadcastsInDim S1 (![] : Fin 0 → Fin S1.rank)
  concatenates_S1_S1_S1_S1_S4_d0 : Shape.Concatenates [S1, S1, S1, S1] S4 0
  gather_S200000x256_S262126x1_S262126x256_1_0_n_n_0_1_1256_wf : GatherDims.WF S200000x256 S262126x1 S262126x256 [1] [0] [] [0] [] 1 ![1, 256]
  scatter_S8192_S262126x1_S262126_n_0_0_1_wf : ScatterDims.WF S8192 S262126x1 S262126 [] [0] [0] 1
  scatter_S8192x256_S262126x1_S262126x256_1_0_0_1_wf : ScatterDims.WF S8192x256 S262126x1 S262126x256 [1] [0] [0] 1
  gather_S8192x256_S262126x1_S262126x256_1_0_n_n_0_1_1256_wf : GatherDims.WF S8192x256 S262126x1 S262126x256 [1] [0] [] [0] [] 1 ![1, 256]
  gather_S8192_S400x1_S400_n_0_n_n_0_1_1_wf : GatherDims.WF S8192 S400x1 S400 [] [0] [] [0] [] 1 ![1]
  dot_S128x256_S8192x256_S128x8192_1_1_0_0_n_n_wf : DotDims.WF S128x256 S8192x256 S128x8192 [1] [1] [0] [0] [] []
  gather_S8192x256_S500x1_S500x256_1_0_n_n_0_1_1256_wf : GatherDims.WF S8192x256 S500x1 S500x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S8192x256.size a
  hwx0_0 : ∀ i : grid0.Coords, EltTy.bits .bf16 = 32 ∨ (Rect.block (s := S8192x256) S128x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x8192.size a
  hwx0_2 : ∀ i : grid0.Coords, EltTy.bits .i32 = 32 ∨ (Rect.block (s := S1x8192) S1x128.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S8192x1.size a
  hwx0_4 : ∀ i : grid0.Coords, EltTy.bits .f32 = 32 ∨ (Rect.block (s := S8192x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S8192x1.size a
  hwx0_5 : ∀ i : grid0.Coords, EltTy.bits .f32 = 32 ∨ (Rect.block (s := S8192x1) S128x1.size (cc0_transform_5 i) (hinb0_5 i)).WholeWords (EltTy.packing .f32)

variable [Facts₀]

def gather_S200000x256_S262126x1_S262126x256_1_0_n_n_0_1_1256 : GatherDims S200000x256 S262126x1 S262126x256 where
  offsetDims := [1]
  collapsedSliceDims := [0]
  operandBatchingDims := []
  startIndicesBatchingDims := []
  startIndexMap := [0]
  indexVectorDim := 1
  sliceSizes := ![1, 256]
  wf := gather_S200000x256_S262126x1_S262126x256_1_0_n_n_0_1_1256_wf
def scatter_S8192_S262126x1_S262126_n_0_0_1 : ScatterDims S8192 S262126x1 S262126 where
  updateWindowDims := []
  insertedWindowDims := [0]
  scatterDimsToOperandDims := [0]
  indexVectorDim := 1
  wf := scatter_S8192_S262126x1_S262126_n_0_0_1_wf
def scatter_S8192x256_S262126x1_S262126x256_1_0_0_1 : ScatterDims S8192x256 S262126x1 S262126x256 where
  updateWindowDims := [1]
  insertedWindowDims := [0]
  scatterDimsToOperandDims := [0]
  indexVectorDim := 1
  wf := scatter_S8192x256_S262126x1_S262126x256_1_0_0_1_wf
def gather_S8192x256_S262126x1_S262126x256_1_0_n_n_0_1_1256 : GatherDims S8192x256 S262126x1 S262126x256 where
  offsetDims := [1]
  collapsedSliceDims := [0]
  operandBatchingDims := []
  startIndicesBatchingDims := []
  startIndexMap := [0]
  indexVectorDim := 1
  sliceSizes := ![1, 256]
  wf := gather_S8192x256_S262126x1_S262126x256_1_0_n_n_0_1_1256_wf
def gather_S8192_S400x1_S400_n_0_n_n_0_1_1 : GatherDims S8192 S400x1 S400 where
  offsetDims := []
  collapsedSliceDims := [0]
  operandBatchingDims := []
  startIndicesBatchingDims := []
  startIndexMap := [0]
  indexVectorDim := 1
  sliceSizes := ![1]
  wf := gather_S8192_S400x1_S400_n_0_n_n_0_1_1_wf
def dot_S128x256_S8192x256_S128x8192_1_1_0_0_n_n : DotDims S128x256 S8192x256 S128x8192 where
  lhsContracting := [1]
  rhsContracting := [1]
  lhsNonContracting := [0]
  rhsNonContracting := [0]
  lhsBatch := []
  rhsBatch := []
  wf := dot_S128x256_S8192x256_S128x8192_1_1_0_0_n_n_wf
def gather_S8192x256_S500x1_S500x256_1_0_n_n_0_1_1256 : GatherDims S8192x256 S500x1 S500x256 where
  offsetDims := [1]
  collapsedSliceDims := [0]
  operandBatchingDims := []
  startIndicesBatchingDims := []
  startIndexMap := [0]
  indexVectorDim := 1
  sliceSizes := ![1, 256]
  wf := gather_S8192x256_S500x1_S500x256_1_0_n_n_0_1_1256_wf

abbrev win0_0 : Pipeline.Window sig grid0 :=
  Pipeline.Window.ofSpec (Memref.whole main_v43) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45_0) S128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v45_1) S128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S200000x256 : Shape := ⟨2, ![200000, 256]⟩
abbrev S262126 : Shape := ⟨1, ![262126]⟩
abbrev S8192 : Shape := ⟨1, ![8192]⟩
abbrev S400 : Shape := ⟨1, ![400]⟩
abbrev S500 : Shape := ⟨1, ![500]⟩
abbrev S_ : Shape := ⟨0, ![]⟩
abbrev S262126x1 : Shape := ⟨2, ![262126, 1]⟩
abbrev S262126x256 : Shape := ⟨2, ![262126, 256]⟩
abbrev S8192x256 : Shape := ⟨2, ![8192, 256]⟩
abbrev S8192x1 : Shape := ⟨2, ![8192, 1]⟩
abbrev S400x1 : Shape := ⟨2, ![400, 1]⟩
abbrev S256x8192 : Shape := ⟨2, ![256, 8192]⟩
abbrev S8192x8192 : Shape := ⟨2, ![8192, 8192]⟩
abbrev S1x8192 : Shape := ⟨2, ![1, 8192]⟩
abbrev S500x1 : Shape := ⟨2, ![500, 1]⟩
abbrev S500x256 : Shape := ⟨2, ![500, 256]⟩
abbrev S1 : Shape := ⟨1, ![1]⟩
abbrev S4 : Shape := ⟨1, ![4]⟩

abbrev nBuf : Space → Nat
  | .hbm => 170
  | .vmem => 0
  | .smem => 0
  | _ => 0

abbrev hbmTy0_0 (i : Nat) : BufTy := match i % 128 with
  | 0 => ⟨S200000x256, .f32⟩
  | 1 => ⟨S262126, .i32⟩
  | 2 => ⟨S262126, .i32⟩
  | 3 => ⟨S8192, .i32⟩
  | 4 => ⟨S400, .i32⟩
  | 5 => ⟨S500, .i32⟩
  | 6 => ⟨S500, .i32⟩
  | 7 => ⟨S_, .i32⟩
  | 8 => ⟨S262126, .i32⟩
  | 9 => ⟨S262126, .i1⟩
  | 10 => ⟨S_, .i32⟩
  | 11 => ⟨S262126, .i32⟩
  | 12 => ⟨S262126, .i32⟩
  | 13 => ⟨S262126, .i32⟩
  | 14 => ⟨S262126x1, .i32⟩
  | 15 => ⟨S262126x256, .f32⟩
  | 16 => ⟨S_, .f32⟩
  | 17 => ⟨S262126, .f32⟩
  | 18 => ⟨S_, .f32⟩
  | 19 => ⟨S8192, .f32⟩
  | 20 => ⟨S262126x1, .i32⟩
  | 21 => ⟨S8192, .f32⟩
  | 22 => ⟨S_, .f32⟩
  | 23 => ⟨S8192x256, .f32⟩
  | 24 => ⟨S262126x1, .i32⟩
  | 25 => ⟨S8192x256, .f32⟩
  | 26 => ⟨S8192x1, .f32⟩
  | 27 => ⟨S8192x256, .f32⟩
  | 28 => ⟨S8192x256, .f32⟩
  | 29 => ⟨S_, .i32⟩
  | 30 => ⟨S262126, .i32⟩
  | 31 => ⟨S262126, .i1⟩
  | 32 => ⟨S_, .i32⟩
  | 33 => ⟨S262126, .i32⟩
  | 34 => ⟨S262126, .i32⟩
  | 35 => ⟨S262126, .i32⟩
  | 36 => ⟨S262126x1, .i32⟩
  | 37 => ⟨S262126x256, .f32⟩
  | 38 => ⟨S262126x256, .f32⟩
  | 39 => ⟨S262126x256, .f32⟩
  | 40 => ⟨S_, .f32⟩
  | 41 => ⟨S262126, .f32⟩
  | 42 => ⟨S_, .f32⟩
  | 43 => ⟨S8192, .f32⟩
  | 44 => ⟨S262126x1, .i32⟩
  | 45 => ⟨S8192, .f32⟩
  | 46 => ⟨S8192, .f32⟩
  | 47 => ⟨S_, .i32⟩
  | 48 => ⟨S400, .i32⟩
  | 49 => ⟨S400, .i1⟩
  | 50 => ⟨S_, .i32⟩
  | 51 => ⟨S400, .i32⟩
  | 52 => ⟨S400, .i32⟩
  | 53 => ⟨S400, .i32⟩
  | 54 => ⟨S400x1, .i32⟩
  | 55 => ⟨S400, .f32⟩
  | 56 => ⟨S_, .f32⟩
  | 57 => ⟨S_, .f32⟩
  | 58 => ⟨S_, .f32⟩
  | 59 => ⟨S_, .f32⟩
  | 60 => ⟨S8192x256, .f32⟩
  | 61 => ⟨S_, .f32⟩
  | 62 => ⟨S8192, .f32⟩
  | 63 => ⟨S8192x1, .f32⟩
  | 64 => ⟨S8192x1, .f32⟩
  | 65 => ⟨S8192x256, .f32⟩
  | 66 => ⟨S8192x256, .f32⟩
  | 67 => ⟨S256x8192, .f32⟩
  | 68 => ⟨S8192x8192, .f32⟩
  | 69 => ⟨S_, .f32⟩
  | 70 => ⟨S8192x8192, .f32⟩
  | 71 => ⟨S8192x8192, .f32⟩
  | 72 => ⟨S8192x8192, .i32⟩
  | 73 => ⟨S8192x8192, .i32⟩
  | 74 => ⟨S_, .i32⟩
  | 75 => ⟨S8192x8192, .i32⟩
  | 76 => ⟨S8192x8192, .i32⟩
  | 77 => ⟨S8192x8192, .i1⟩
  | 78 => ⟨S8192x8192, .f32⟩
  | 79 => ⟨S8192x8192, .i1⟩
  | 80 => ⟨S8192x8192, .f32⟩
  | 81 => ⟨S8192x8192, .f32⟩
  | 82 => ⟨S_, .f32⟩
  | 83 => ⟨S8192, .f32⟩
  | 84 => ⟨S1x8192, .i32⟩
  | 85 => ⟨S8192x1, .i32⟩
  | 86 => ⟨S8192x8192, .i32⟩
  | 87 => ⟨S8192x8192, .i32⟩
  | 88 => ⟨S8192x8192, .i1⟩
  | 89 => ⟨S8192x8192, .i1⟩
  | 90 => ⟨S8192x8192, .i1⟩
  | 91 => ⟨S8192x8192, .f32⟩
  | 92 => ⟨S8192x8192, .f32⟩
  | 93 => ⟨S_, .f32⟩
  | 94 => ⟨S8192, .f32⟩
  | 95 => ⟨S_, .f32⟩
  | 96 => ⟨S8192, .f32⟩
  | 97 => ⟨S8192, .f32⟩
  | 98 => ⟨S_, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192x8192, .i32⟩
  | 105 => ⟨S_, .i32⟩
  | 106 => ⟨S8192, .i32⟩
  | 107 => ⟨S_, .i32⟩
  | 108 => ⟨S8192, .i32⟩
  | 109 => ⟨S8192, .i1⟩
  | 110 => ⟨S_, .f32⟩
  | 111 => ⟨S_, .f32⟩
  | 112 => ⟨S8192, .f32⟩
  | 113 => ⟨S8192, .f32⟩
  | 114 => ⟨S_, .f32⟩
  | 115 => ⟨S_, .f32⟩
  | 116 => ⟨S8192, .i32⟩
  | 117 => ⟨S_, .i32⟩
  | 118 => ⟨S_, .i32⟩
  | 119 => ⟨S_, .f32⟩
  | 120 => ⟨S_, .f32⟩
  | 121 => ⟨S_, .f32⟩
  | 122 => ⟨S_, .f32⟩
  | 123 => ⟨S_, .i32⟩
  | 124 => ⟨S500, .i32⟩
  | 125 => ⟨S500, .i1⟩
  | 126 => ⟨S_, .i32⟩
  | 127 => ⟨S500, .i32⟩
  | _ => ⟨S200000x256, .f32⟩

abbrev hbmTy0_1 (i : Nat) : BufTy := match i % 128 with
  | 0 => ⟨S500, .i32⟩
  | 1 => ⟨S500, .i32⟩
  | 2 => ⟨S500x1, .i32⟩
  | 3 => ⟨S500x256, .f32⟩
  | 4 => ⟨S_, .i32⟩
  | 5 => ⟨S500, .i32⟩
  | 6 => ⟨S500, .i1⟩
  | 7 => ⟨S_, .i32⟩
  | 8 => ⟨S500, .i32⟩
  | 9 => ⟨S500, .i32⟩
  | 10 => ⟨S500, .i32⟩
  | 11 => ⟨S500x1, .i32⟩
  | 12 => ⟨S500x256, .f32⟩
  | 13 => ⟨S500x256, .f32⟩
  | 14 => ⟨S500x256, .f32⟩
  | 15 => ⟨S_, .f32⟩
  | 16 => ⟨S500, .f32⟩
  | 17 => ⟨S500, .f32⟩
  | 18 => ⟨S_, .f32⟩
  | 19 => ⟨S500, .f32⟩
  | 20 => ⟨S500, .f32⟩
  | 21 => ⟨S_, .f32⟩
  | 22 => ⟨S500, .f32⟩
  | 23 => ⟨S500, .f32⟩
  | 24 => ⟨S500, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S1, .f32⟩
  | 38 => ⟨S1, .f32⟩
  | 39 => ⟨S1, .f32⟩
  | 40 => ⟨S1, .f32⟩
  | 41 => ⟨S4, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_call0_v0 : Ref sig .tc := ⟨.hbm, 60, rfl⟩
abbrev main_call0_cst : Ref sig .tc := ⟨.hbm, 61, rfl⟩
abbrev main_call0_v1 : Ref sig .tc := ⟨.hbm, 62, rfl⟩
abbrev main_call0_v2 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_12 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_13 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_cst_15 : Ref sig .tc := ⟨.hbm, 95, rfl⟩
abbrev main_v67 : Ref sig .tc := ⟨.hbm, 96, rfl⟩
abbrev main_v68 : Ref sig .tc := ⟨.hbm, 97, rfl⟩
abbrev main_cst_16 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_17 : Ref sig .tc := ⟨.hbm, 105, rfl⟩
abbrev main_v75 : Ref sig .tc := ⟨.hbm, 106, rfl⟩
abbrev main_c_18 : Ref sig .tc := ⟨.hbm, 107, rfl⟩
abbrev main_v76 : Ref sig .tc := ⟨.hbm, 108, rfl⟩
abbrev main_v77 : Ref sig .tc := ⟨.hbm, 109, rfl⟩
abbrev main_cst_19 : Ref sig .tc := ⟨.hbm, 110, rfl⟩
abbrev main_call1_v0 : Ref sig .tc := ⟨.hbm, 111, rfl⟩
abbrev main_call1_v1 : Ref sig .tc := ⟨.hbm, 112, rfl⟩
abbrev main_v78 : Ref sig .tc := ⟨.hbm, 113, rfl⟩
abbrev main_cst_20 : Ref sig .tc := ⟨.hbm, 114, rfl⟩
abbrev main_v79 : Ref sig .tc := ⟨.hbm, 115, rfl⟩
abbrev main_v80 : Ref sig .tc := ⟨.hbm, 116, rfl⟩
abbrev main_c_21 : Ref sig .tc := ⟨.hbm, 117, rfl⟩
abbrev main_v81 : Ref sig .tc := ⟨.hbm, 118, rfl⟩
abbrev main_v82 : Ref sig .tc := ⟨.hbm, 119, rfl⟩
abbrev main_cst_22 : Ref sig .tc := ⟨.hbm, 120, rfl⟩
abbrev main_v83 : Ref sig .tc := ⟨.hbm, 121, rfl⟩
abbrev main_v84 : Ref sig .tc := ⟨.hbm, 122, rfl⟩
abbrev main_c_23 : Ref sig .tc := ⟨.hbm, 123, rfl⟩
abbrev main_v85 : Ref sig .tc := ⟨.hbm, 124, rfl⟩
abbrev main_v86 : Ref sig .tc := ⟨.hbm, 125, rfl⟩
abbrev main_c_24 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_c_25 : Ref sig .tc := ⟨.hbm, 132, rfl⟩
abbrev main_v92 : Ref sig .tc := ⟨.hbm, 133, rfl⟩
abbrev main_v93 : Ref sig .tc := ⟨.hbm, 134, rfl⟩
abbrev main_c_26 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_call2_v0 : Ref sig .tc := ⟨.hbm, 142, rfl⟩
abbrev main_call2_cst : Ref sig .tc := ⟨.hbm, 143, rfl⟩
abbrev main_call2_v1 : Ref sig .tc := ⟨.hbm, 144, rfl⟩
abbrev main_v100 : Ref sig .tc := ⟨.hbm, 145, rfl⟩
abbrev main_cst_27 : Ref sig .tc := ⟨.hbm, 146, rfl⟩
abbrev main_v101 : Ref sig .tc := ⟨.hbm, 147, rfl⟩
abbrev main_v102 : Ref sig .tc := ⟨.hbm, 148, rfl⟩
abbrev main_call3_cst : Ref sig .tc := ⟨.hbm, 149, rfl⟩
abbrev main_call3_v0 : Ref sig .tc := ⟨.hbm, 150, rfl⟩
abbrev main_v103 : Ref sig .tc := ⟨.hbm, 151, rfl⟩
abbrev main_v104 : Ref sig .tc := ⟨.hbm, 152, rfl⟩
abbrev main_cst_28 : Ref sig .tc := ⟨.hbm, 153, rfl⟩
abbrev main_v105 : Ref sig .tc := ⟨.hbm, 154, rfl⟩
abbrev main_cst_29 : Ref sig .tc := ⟨.hbm, 155, rfl⟩
abbrev main_v106 : Ref sig .tc := ⟨.hbm, 156, rfl⟩
abbrev main_cst_30 : Ref sig .tc := ⟨.hbm, 157, rfl⟩
abbrev main_v107 : Ref sig .tc := ⟨.hbm, 158, rfl⟩
abbrev main_cst_31 : Ref sig .tc := ⟨.hbm, 159, rfl⟩
abbrev main_v108 : Ref sig .tc := ⟨.hbm, 160, rfl⟩
abbrev main_v109 : Ref sig .tc := ⟨.hbm, 161, rfl⟩
abbrev main_cst_32 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩

abbrev nD : Nat := 1
abbrev τ : Topo := Topo.v7x

variable {F : FTy → Type} [FloatOps F]

class Facts₀ : Prop where
  bcast_S_S262126 : S_.BroadcastsInDim S262126 (![] : Fin 0 → Fin S262126.rank)
  bcast_S262126_S262126x1_0 : S262126.BroadcastsInDim S262126x1 (![0] : Fin 1 → Fin S262126x1.rank)
  bcast_S_S8192 : S_.BroadcastsInDim S8192 (![] : Fin 0 → Fin S8192.rank)
  bcast_S_S8192x256 : S_.BroadcastsInDim S8192x256 (![] : Fin 0 → Fin S8192x256.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  reducesTo_S262126x256_S262126_d1 : S262126x256.ReducesTo [1] S262126
  h_S_ : 0 < S_.numel
  bcast_S_S400 : S_.BroadcastsInDim S400 (![] : Fin 0 → Fin S400.rank)
  bcast_S400_S400x1_0 : S400.BroadcastsInDim S400x1 (![0] : Fin 1 → Fin S400x1.rank)
  reducesTo_S400_S_d0 : S400.ReducesTo [0] S_
  reducesTo_S8192x256_S8192_d1 : S8192x256.ReducesTo [1] S8192
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  bcast_S8192x1_S8192x8192_0_1 : S8192x1.BroadcastsInDim S8192x8192 (![0, 1] : Fin 2 → Fin S8192x8192.rank)
  natLt_1_32 : 1 < 32
  reducesTo_S8192_S_d0 : S8192.ReducesTo [0] S_
  bcast_S_S500 : S_.BroadcastsInDim S500 (![] : Fin 0 → Fin S500.rank)
  bcast_S500_S500x1_0 : S500.BroadcastsInDim S500x1 (![0] : Fin 1 → Fin S500x1.rank)
  reducesTo_S500x256_S500_d1 : S500x256.ReducesTo [1] S500
  reducesTo_S500_S_d0 : S500.ReducesTo [0] S_
  bcast_S_S1 : S_.BroadcastsInDim S1 (![] : Fin 0 → Fin S1.rank)
  concatenates_S1_S1_S1_S1_S4_d0 : Shape.Concatenates [S1, S1, S1, S1] S4 0
  gather_S200000x256_S262126x1_S262126x256_1_0_n_n_0_1_1256_wf : GatherDims.WF S200000x256 S262126x1 S262126x256 [1] [0] [] [0] [] 1 ![1, 256]
  scatter_S8192_S262126x1_S262126_n_0_0_1_wf : ScatterDims.WF S8192 S262126x1 S262126 [] [0] [0] 1
  scatter_S8192x256_S262126x1_S262126x256_1_0_0_1_wf : ScatterDims.WF S8192x256 S262126x1 S262126x256 [1] [0] [0] 1
  gather_S8192x256_S262126x1_S262126x256_1_0_n_n_0_1_1256_wf : GatherDims.WF S8192x256 S262126x1 S262126x256 [1] [0] [] [0] [] 1 ![1, 256]
  gather_S8192_S400x1_S400_n_0_n_n_0_1_1_wf : GatherDims.WF S8192 S400x1 S400 [] [0] [] [0] [] 1 ![1]
  dot_S8192x256_S256x8192_S8192x8192_1_0_0_1_n_n_wf : DotDims.WF S8192x256 S256x8192 S8192x8192 [1] [0] [0] [1] [] []
  gather_S8192x256_S500x1_S500x256_1_0_n_n_0_1_1256_wf : GatherDims.WF S8192x256 S500x1 S500x256 [1] [0] [] [0] [] 1 ![1, 256]

variable [Facts₀]

def gather_S200000x256_S262126x1_S262126x256_1_0_n_n_0_1_1256 : GatherDims S200000x256 S262126x1 S262126x256 where
  offsetDims := [1]
  collapsedSliceDims := [0]
  operandBatchingDims := []
  startIndicesBatchingDims := []
  startIndexMap := [0]
  indexVectorDim := 1
  sliceSizes := ![1, 256]
  wf := gather_S200000x256_S262126x1_S262126x256_1_0_n_n_0_1_1256_wf
def scatter_S8192_S262126x1_S262126_n_0_0_1 : ScatterDims S8192 S262126x1 S262126 where
  updateWindowDims := []
  insertedWindowDims := [0]
  scatterDimsToOperandDims := [0]
  indexVectorDim := 1
  wf := scatter_S8192_S262126x1_S262126_n_0_0_1_wf
def scatter_S8192x256_S262126x1_S262126x256_1_0_0_1 : ScatterDims S8192x256 S262126x1 S262126x256 where
  updateWindowDims := [1]
  insertedWindowDims := [0]
  scatterDimsToOperandDims := [0]
  indexVectorDim := 1
  wf := scatter_S8192x256_S262126x1_S262126x256_1_0_0_1_wf
def gather_S8192x256_S262126x1_S262126x256_1_0_n_n_0_1_1256 : GatherDims S8192x256 S262126x1 S262126x256 where
  offsetDims := [1]
  collapsedSliceDims := [0]
  operandBatchingDims := []
  startIndicesBatchingDims := []
  startIndexMap := [0]
  indexVectorDim := 1
  sliceSizes := ![1, 256]
  wf := gather_S8192x256_S262126x1_S262126x256_1_0_n_n_0_1_1256_wf
def gather_S8192_S400x1_S400_n_0_n_n_0_1_1 : GatherDims S8192 S400x1 S400 where
  offsetDims := []
  collapsedSliceDims := [0]
  operandBatchingDims := []
  startIndicesBatchingDims := []
  startIndexMap := [0]
  indexVectorDim := 1
  sliceSizes := ![1]
  wf := gather_S8192_S400x1_S400_n_0_n_n_0_1_1_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x256_S500x1_S500x256_1_0_n_n_0_1_1256 : GatherDims S8192x256 S500x1 S500x256 where
  offsetDims := [1]
  collapsedSliceDims := [0]
  operandBatchingDims := []
  startIndicesBatchingDims := []
  startIndexMap := [0]
  indexVectorDim := 1
  sliceSizes := ![1, 256]
  wf := gather_S8192x256_S500x1_S500x256_1_0_n_n_0_1_1256_wf

class Facts : Prop extends Facts₀ where

variable [Facts]
-- ==== Proof.KRunVals.lean ====
/- The contents of a core's unscoped buffers at each boundary between the items of the program (three host stretches, the
   kernel region, five host stretches), as a fold of `StableHlo.after` through the stretches with the region's two output
   arrays replaced by given contents; and the fact that a reference which is the result of no host operation and is not
   one of the two output arrays holds at the end what the memory held at launch (so every argument array is unchanged). -/
import proofs.«135812_j48799418417343_1_alg».proof.Proof.Gen.KernelIdeal.Launch
import Idealize.ShloMosaic.Lib.Pipeline.Frame
import Idealize.ShloMosaic.Lib.Pipeline.Regions

set_option maxRecDepth 1052

noncomputable section

namespace Cert.KernelIdeal.Hand.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F] [Named F]

/-! ## What the host stretches write

Each host operation writes exactly one buffer, its result. Per stretch: the list of the result references, that every
operation's written set lies within it, and that no operation allocates. -/

/-- One listed reference, as a device buffer, lies among the listed references' device buffers. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The results of `hostOps0`, in order. -/
abbrev wr0 : List (Ref sig .tc) := [main_c, main_v0, main_v1, main_c_0, main_v2, main_v3, main_v4, main_v5, main_v6, main_cst, main_v7, main_cst_1, main_v8, main_v9, main_v10, main_cst_2, main_v11, main_v12, main_v13, main_v14, main_v15, main_v16, main_c_3, main_v17, main_v18, main_c_4, main_v19, main_v20, main_v21, main_v22, main_v23, main_v24, main_v25, main_cst_5, main_v26, main_cst_6, main_v27, main_v28, main_v29, main_v30, main_c_7, main_v31, main_v32, main_c_8, main_v33, main_v34, main_v35, main_v36, main_v37, main_cst_9, main_v38, main_cst_10, main_v39]
theorem wr0_covers : (hostOps0 : List (HloOp τ sig (Elt F))).Forall fun op => op.writes ⊆ (wr0.map (Proc.devRef (τ := τ) .tc)).toFinset :=
  ⟨single_sub (y := main_c) (by decide), single_sub (y := main_v0) (by decide), single_sub (y := main_v1) (by decide), single_sub (y := main_c_0) (by decide), single_sub (y := main_v2) (by decide), single_sub (y := main_v3) (by decide), single_sub (y := main_v4) (by decide), single_sub (y := main_v5) (by decide), single_sub (y := main_v6) (by decide), single_sub (y := main_cst) (by decide), single_sub (y := main_v7) (by decide), single_sub (y := main_cst_1) (by decide), single_sub (y := main_v8) (by decide), single_sub (y := main_v9) (by decide), single_sub (y := main_v10) (by decide), single_sub (y := main_cst_2) (by decide), single_sub (y := main_v11) (by decide), single_sub (y := main_v12) (by decide), single_sub (y := main_v13) (by decide), single_sub (y := main_v14) (by decide), single_sub (y := main_v15) (by decide), single_sub (y := main_v16) (by decide), single_sub (y := main_c_3) (by decide), single_sub (y := main_v17) (by decide), single_sub (y := main_v18) (by decide), single_sub (y := main_c_4) (by decide), single_sub (y := main_v19) (by decide), single_sub (y := main_v20) (by decide), single_sub (y := main_v21) (by decide), single_sub (y := main_v22) (by decide), single_sub (y := main_v23) (by decide), single_sub (y := main_v24) (by decide), single_sub (y := main_v25) (by decide), single_sub (y := main_cst_5) (by decide), single_sub (y := main_v26) (by decide), single_sub (y := main_cst_6) (by decide), single_sub (y := main_v27) (by decide), single_sub (y := main_v28) (by decide), single_sub (y := main_v29) (by decide), single_sub (y := main_v30) (by decide), single_sub (y := main_c_7) (by decide), single_sub (y := main_v31) (by decide), single_sub (y := main_v32) (by decide), single_sub (y := main_c_8) (by decide), single_sub (y := main_v33) (by decide), single_sub (y := main_v34) (by decide), single_sub (y := main_v35) (by decide), single_sub (y := main_v36) (by decide), single_sub (y := main_v37) (by decide), single_sub (y := main_cst_9) (by decide), single_sub (y := main_v38) (by decide), single_sub (y := main_cst_10) (by decide), single_sub (y := main_v39) (by decide)⟩
theorem wr0_noalloc : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The results of `hostOps0_1`, in order. -/
abbrev wr0_1 : List (Ref sig .tc) := [main_call0_v0, main_call0_cst, main_call0_v1, main_call0_v2, main_v40]
theorem wr0_1_covers : (hostOps0_1 : List (HloOp τ sig (Elt F))).Forall fun op => op.writes ⊆ (wr0_1.map (Proc.devRef (τ := τ) .tc)).toFinset :=
  ⟨single_sub (y := main_call0_v0) (by decide), single_sub (y := main_call0_cst) (by decide), single_sub (y := main_call0_v1) (by decide), single_sub (y := main_call0_v2) (by decide), single_sub (y := main_v40) (by decide)⟩
theorem wr0_1_noalloc : (hostOps0_1 : List (HloOp τ sig (Elt F))).Forall fun op => op.fresh = ∅ :=
  ⟨rfl, rfl, rfl, rfl, rfl⟩

/-- The results of `hostOps0_2`, in order. -/
abbrev wr0_2 : List (Ref sig .tc) := [main_v41, main_v42, main_v43, main_v44]
theorem wr0_2_covers : (hostOps0_2 : List (HloOp τ sig (Elt F))).Forall fun op => op.writes ⊆ (wr0_2.map (Proc.devRef (τ := τ) .tc)).toFinset :=
  ⟨single_sub (y := main_v41) (by decide), single_sub (y := main_v42) (by decide), single_sub (y := main_v43) (by decide), single_sub (y := main_v44) (by decide)⟩
theorem wr0_2_noalloc : (hostOps0_2 : List (HloOp τ sig (Elt F))).Forall fun op => op.fresh = ∅ :=
  ⟨rfl, rfl, rfl, rfl⟩

/-- The results of `hostOps1`, in order. -/
abbrev wr1 : List (Ref sig .tc) := [main_cst_11, main_v46, main_cst_12, main_v47, main_cst_13, main_v48, main_v49, main_c_14, main_v50, main_v51, main_c_15, main_v52, main_v53, main_v54, main_v55, main_v56, main_c_16, main_v57, main_v58, main_c_17, main_v59, main_v60, main_v61, main_v62, main_v63, main_v64]
theorem wr1_covers : (hostOps1 : List (HloOp τ sig (Elt F))).Forall fun op => op.writes ⊆ (wr1.map (Proc.devRef (τ := τ) .tc)).toFinset :=
  ⟨single_sub (y := main_cst_11) (by decide), single_sub (y := main_v46) (by decide), single_sub (y := main_cst_12) (by decide), single_sub (y := main_v47) (by decide), single_sub (y := main_cst_13) (by decide), single_sub (y := main_v48) (by decide), single_sub (y := main_v49) (by decide), single_sub (y := main_c_14) (by decide), single_sub (y := main_v50) (by decide), single_sub (y := main_v51) (by decide), single_sub (y := main_c_15) (by decide), single_sub (y := main_v52) (by decide), single_sub (y := main_v53) (by decide), single_sub (y := main_v54) (by decide), single_sub (y := main_v55) (by decide), single_sub (y := main_v56) (by decide), single_sub (y := main_c_16) (by decide), single_sub (y := main_v57) (by decide), single_sub (y := main_v58) (by decide), single_sub (y := main_c_17) (by decide), single_sub (y := main_v59) (by decide), single_sub (y := main_v60) (by decide), single_sub (y := main_v61) (by decide), single_sub (y := main_v62) (by decide), single_sub (y := main_v63) (by decide), single_sub (y := main_v64) (by decide)⟩
theorem wr1_noalloc : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The results of `hostOps1_1`, in order. -/
abbrev wr1_1 : List (Ref sig .tc) := [main_call1_v0, main_call1_cst, main_call1_v1, main_v65]
theorem wr1_1_covers : (hostOps1_1 : List (HloOp τ sig (Elt F))).Forall fun op => op.writes ⊆ (wr1_1.map (Proc.devRef (τ := τ) .tc)).toFinset :=
  ⟨single_sub (y := main_call1_v0) (by decide), single_sub (y := main_call1_cst) (by decide), single_sub (y := main_call1_v1) (by decide), single_sub (y := main_v65) (by decide)⟩
theorem wr1_1_noalloc : (hostOps1_1 : List (HloOp τ sig (Elt F))).Forall fun op => op.fresh = ∅ :=
  ⟨rfl, rfl, rfl, rfl⟩

/-- The results of `hostOps1_2`, in order. -/
abbrev wr1_2 : List (Ref sig .tc) := [main_cst_18, main_v66, main_v67]
theorem wr1_2_covers : (hostOps1_2 : List (HloOp τ sig (Elt F))).Forall fun op => op.writes ⊆ (wr1_2.map (Proc.devRef (τ := τ) .tc)).toFinset :=
  ⟨single_sub (y := main_cst_18) (by decide), single_sub (y := main_v66) (by decide), single_sub (y := main_v67) (by decide)⟩
theorem wr1_2_noalloc : (hostOps1_2 : List (HloOp τ sig (Elt F))).Forall fun op => op.fresh = ∅ :=
  ⟨rfl, rfl, rfl⟩

/-- The results of `hostOps1_3`, in order. -/
abbrev wr1_3 : List (Ref sig .tc) := [main_call2_cst, main_call2_v0, main_v68]
theorem wr1_3_covers : (hostOps1_3 : List (HloOp τ sig (Elt F))).Forall fun op => op.writes ⊆ (wr1_3.map (Proc.devRef (τ := τ) .tc)).toFinset :=
  ⟨single_sub (y := main_call2_cst) (by decide), single_sub (y := main_call2_v0) (by decide), single_sub (y := main_v68) (by decide)⟩
theorem wr1_3_noalloc : (hostOps1_3 : List (HloOp τ sig (Elt F))).Forall fun op => op.fresh = ∅ :=
  ⟨rfl, rfl, rfl⟩

/-- The results of `hostOps1_4`, in order. -/
abbrev wr1_4 : List (Ref sig .tc) := [main_v69, main_cst_19, main_v70, main_cst_20, main_v71, main_cst_21, main_v72, main_cst_22, main_v73, main_v74, main_cst_23, main_v75, main_v76, main_v77, main_v78, main_v79, main_v80, main_v81]
theorem wr1_4_covers : (hostOps1_4 : List (HloOp τ sig (Elt F))).Forall fun op => op.writes ⊆ (wr1_4.map (Proc.devRef (τ := τ) .tc)).toFinset :=
  ⟨single_sub (y := main_v69) (by decide), single_sub (y := main_cst_19) (by decide), single_sub (y := main_v70) (by decide), single_sub (y := main_cst_20) (by decide), single_sub (y := main_v71) (by decide), single_sub (y := main_cst_21) (by decide), single_sub (y := main_v72) (by decide), single_sub (y := main_cst_22) (by decide), single_sub (y := main_v73) (by decide), single_sub (y := main_v74) (by decide), single_sub (y := main_cst_23) (by decide), single_sub (y := main_v75) (by decide), single_sub (y := main_v76) (by decide), single_sub (y := main_v77) (by decide), single_sub (y := main_v78) (by decide), single_sub (y := main_v79) (by decide), single_sub (y := main_v80) (by decide), single_sub (y := main_v81) (by decide)⟩
theorem wr1_4_noalloc : (hostOps1_4 : List (HloOp τ sig (Elt F))).Forall fun op => op.fresh = ∅ :=
  ⟨rfl, rfl, rfl, rfl, rfl, rfl, rfl, rfl, rfl, rfl, rfl, rfl, rfl, rfl, rfl, rfl, rfl, rfl⟩

/-! ## The buffers' contents between the items

Core `c`'s unscoped buffers hold: at launch the memory's; after each host stretch what `StableHlo.after` computes from
the contents before it; after the kernel region the contents before it except in the two output arrays, which hold the
region's results (left as parameters `outs0`, `outs1` here). -/

variable (m : (ℓ : Loc nD τ sig) → Buf (Elt F) ℓ)
variable (outs0 : (c : Dev nD) → Buf (Elt F) ((c : Thread nD τ).loc main_v45_0))
variable (outs1 : (c : Dev nD) → Buf (Elt F) ((c : Thread nD τ).loc main_v45_1))

/-- at launch -/
abbrev V0 (c : Dev nD) : Valuation τ sig (Elt F) := fun b => m (c, b)
/-- after `hostOps0` -/
abbrev V1 (c : Dev nD) : Valuation τ sig (Elt F) := StableHlo.after hostOps0 (V0 m c)
/-- after `hostOps0_1` -/
abbrev V2 (c : Dev nD) : Valuation τ sig (Elt F) := StableHlo.after hostOps0_1 (V1 m c)
/-- after `hostOps0_2`: what the kernel region is entered with -/
abbrev V3 (c : Dev nD) : Valuation τ sig (Elt F) := StableHlo.after hostOps0_2 (V2 m c)
/-- after the kernel region: the two output arrays replaced -/
abbrev V4 (c : Dev nD) : Valuation τ sig (Elt F) :=
  Function.update (Function.update (V3 m c) main_v45_0 (outs0 c)) main_v45_1 (outs1 c)
/-- after `hostOps1` -/
abbrev V5 (c : Dev nD) : Valuation τ sig (Elt F) := StableHlo.after hostOps1 (V4 m outs0 outs1 c)
/-- after `hostOps1_1` -/
abbrev V6 (c : Dev nD) : Valuation τ sig (Elt F) := StableHlo.after hostOps1_1 (V5 m outs0 outs1 c)
/-- after `hostOps1_2` -/
abbrev V7 (c : Dev nD) : Valuation τ sig (Elt F) := StableHlo.after hostOps1_2 (V6 m outs0 outs1 c)
/-- after `hostOps1_3` -/
abbrev V8 (c : Dev nD) : Valuation τ sig (Elt F) := StableHlo.after hostOps1_3 (V7 m outs0 outs1 c)
/-- after `hostOps1_4`: the end -/
abbrev V9 (c : Dev nD) : Valuation τ sig (Elt F) := StableHlo.after hostOps1_4 (V8 m outs0 outs1 c)

/-! ## A reference nothing writes keeps its launch contents -/

/-- Every reference some item may change: the host stretches' results and the region's two output arrays. -/
abbrev touched : List (Ref sig .tc) :=
  wr0 ++ wr0_1 ++ wr0_2 ++ [main_v45_0, main_v45_1] ++ wr1 ++ wr1_1 ++ wr1_2 ++ wr1_3 ++ wr1_4

/-- The region's replacement of the two output arrays leaves every other reference alone. -/
theorem V4_other (c : Dev nD) (r : Ref sig .tc) (h0 : r ≠ main_v45_0) (h1 : r ≠ main_v45_1) :
    V4 m outs0 outs1 c r = V3 m c r := by
  show Function.update (Function.update (V3 m c) (Proc.devRef .tc main_v45_0) (outs0 c)) (Proc.devRef .tc main_v45_1) (outs1 c) (Proc.devRef .tc r) = _
  rw [Function.update_of_ne (StableHlo.devRef_ne_of_ne h1), Function.update_of_ne (StableHlo.devRef_ne_of_ne h0)]

/-- A reference no item may change holds at the end what the memory held at launch. -/
theorem V9_untouched (c : Dev nD) (r : Ref sig .tc) (h : r ∉ touched) :
    V9 m outs0 outs1 c r = m ((c : Thread nD τ).loc r) := by
  simp only [touched, List.mem_append, not_or] at h
  obtain ⟨⟨⟨⟨⟨⟨⟨⟨h0, h01⟩, h02⟩, hout⟩, h1⟩, h11⟩, h12⟩, h13⟩, h14⟩ := h
  have ho0 : r ≠ main_v45_0 := fun e => hout (e ▸ List.mem_cons_self)
  have ho1 : r ≠ main_v45_1 := fun e => hout (e ▸ List.mem_cons_of_mem _ List.mem_cons_self)
  calc V9 m outs0 outs1 c r
      = V8 m outs0 outs1 c r := StableHlo.after_of_writes_sub hostOps1_4 _ wr1_4_covers h14
    _ = V7 m outs0 outs1 c r := StableHlo.after_of_writes_sub hostOps1_3 _ wr1_3_covers h13
    _ = V6 m outs0 outs1 c r := StableHlo.after_of_writes_sub hostOps1_2 _ wr1_2_covers h12
    _ = V5 m outs0 outs1 c r := StableHlo.after_of_writes_sub hostOps1_1 _ wr1_1_covers h11
    _ = V4 m outs0 outs1 c r := StableHlo.after_of_writes_sub hostOps1 _ wr1_covers h1
    _ = V3 m c r := V4_other m outs0 outs1 c r ho0 ho1
    _ = V2 m c r := StableHlo.after_of_writes_sub hostOps0_2 _ wr0_2_covers h02
    _ = V1 m c r := StableHlo.after_of_writes_sub hostOps0_1 _ wr0_1_covers h01
    _ = V0 m c r := StableHlo.after_of_writes_sub hostOps0 _ wr0_covers h0
    _ = m ((c : Thread nD τ).loc r) := rfl

end Cert.KernelIdeal.Hand.Run

end
-- ==== Proof.KRun.lean ====
/- The run of the whole program, conditional on a record of its one kernel region. The program is a chain of nine items:
   three host stretches, the kernel region, five host stretches. Each host stretch runs over the core's unscoped buffers held
   whole at the contents of `KRunVals`; the region is entered from the contents after the third stretch and left with its two
   output arrays replaced. From the segment record of the region (with its entry and exit thread states pinned to those
   contents) the library's theorem on programs of host stretches and kernel regions gives: every weakly fair execution
   terminates, the result array ends holding the last contents, and every argument array ends as launched. -/
import proofs.«135812_j48799418417343_1_alg».proof.Proof.KRunVals
import Idealize.ShloMosaic.Lib.Pipeline.Frame
import Idealize.ShloMosaic.Lib.Pipeline.Regions

noncomputable section

namespace Cert.KernelIdeal.Hand.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F] [Named F]

/-- No pallas_call of this program has a prefetched table: the only admissible table contents. -/
abbrev adm : (p : Fin 1) → (pcfgs (F := F) p).Adm := fun p => (cfgs p).toPCfg_adm

/-! ## The items as segments -/

section Segs

variable {Ix : Type} [DecidableEq Ix] {UA : Type} [URA UA] {Lvl : Type} [Preorder Lvl]
variable (𝒱₀ : Variants) (L : GSem nD τ sig → Finset Ix) (lv : GSem nD τ sig → Ix → Lvl)

/-- A host stretch as a segment: a line of operations over the core's unscoped buffers held whole at the contents `V c`,
    a rest `R c` untouched beside them; it ends with the buffers at `StableHlo.after ops (V c)` beside the same rest. -/
abbrev stretch (ops : List (HloOp τ sig (Elt F))) (hsub : ops.Forall fun op => op.bufs ⊆ StableHlo.tcRefs τ sig)
    (hna : ops.Forall fun op => op.fresh = ∅) (V : Dev nD → Valuation τ sig (Elt F))
    (R : Dev nD → sProp (MT nD τ sig Ix (Elt F) ℕ UA Lvl)) :
    HostSeg (Ix := Ix) (Name := ℕ) (U := UA) (Lvl := Lvl) (pcfgs (F := F)) defs₀ 𝒱₀ L lv :=
  HostSeg.ofOps _ _ _ _ _ (Pipeline.ucRefs τ sig) ops
    (fun op h => Pipeline.sub_ucRefs op (List.forall_iff_forall_mem.mp hsub op h))
    (List.forall_iff_forall_mem.mp hna) V R

variable (m : (ℓ : Loc nD τ sig) → Buf (Elt F) ℓ)
variable (outs0 : (c : Dev nD) → Buf (Elt F) ((c : Thread nD τ).loc main_v45_0))
variable (outs1 : (c : Dev nD) → Buf (Elt F) ((c : Thread nD τ).loc main_v45_1))

/-- The program's nine items in order (the same on every core): three host stretches from the launch contents, the kernel
    region (a given record), five host stretches from the contents the region leaves. The rest beside the buffers is
    `E 0` up to the region and `E 1` after it. -/
abbrev items (E : Fin 2 → Dev nD → sProp (MT nD τ sig Ix (Elt F) ℕ UA Lvl)) (ι : Ix)
    (pdats : (p : Fin 1) → (c : Dev nD) → Dat τ (Elt F) Ix ℕ UA Lvl (cfgs p) c)
    (R0 : RegionSeg (pcfgs (F := F)) adm pdats ι defs₀ 𝒱₀ L lv 0) (c : Dev nD) :
    List (Seg (pcfgs (F := F)) adm pdats ι defs₀ 𝒱₀ L lv) :=
  [ .host (stretch 𝒱₀ L lv hostOps0 hostOps0_sub wr0_noalloc (V0 m) (E 0)),
    .host (stretch 𝒱₀ L lv hostOps0_1 hostOps0_1_sub wr0_1_noalloc (V1 m) (E 0)),
    .host (stretch 𝒱₀ L lv hostOps0_2 hostOps0_2_sub wr0_2_noalloc (V2 m) (E 0)),
    .region R0,
    .host (stretch 𝒱₀ L lv hostOps1 hostOps1_sub wr1_noalloc (V4 m outs0 outs1) (E 1)),
    .host (stretch 𝒱₀ L lv hostOps1_1 hostOps1_1_sub wr1_1_noalloc (V5 m outs0 outs1) (E 1)),
    .host (stretch 𝒱₀ L lv hostOps1_2 hostOps1_2_sub wr1_2_noalloc (V6 m outs0 outs1) (E 1)),
    .host (stretch 𝒱₀ L lv hostOps1_3 hostOps1_3_sub wr1_3_noalloc (V7 m outs0 outs1) (E 1)),
    .host (stretch 𝒱₀ L lv hostOps1_4 hostOps1_4_sub wr1_4_noalloc (V8 m outs0 outs1) (E 1)) ]

end Segs

/-! ## The first and the last thread state -/

section Ends

variable {Ix : Type} [DecidableEq Ix] {UA : Type} [URA UA] {Lvl : Type} [Preorder Lvl]
variable (m : (ℓ : Loc nD τ sig) → Buf (Elt F) ℓ)

/-- An unscoped TensorCore reference is one of the buffers the thread state holds. -/
theorem mem_held (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- THE LAUNCH. On every core the unscoped buffers the launch deals are the held set at the launch contents; if the rest
    of what the launch deals makes `E0` on every core at once, the whole makes every core's first thread state. -/
theorem launch_state (ρ : Dev nD → PrngReg) (L : GSem nD τ sig → Finset Ix) (lv : GSem nD τ sig → Ix → Lvl)
    (O₀ : Dev nD → CellTallies nD τ sig Ix) (G E0 : Dev nD → sProp (MT nD τ sig Ix (Elt F) ℕ UA Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ E0 : sProp (MT nD τ sig Ix (Elt F) ℕ UA Lvl))) :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ fun c : Dev nD =>
          iprop(StableHlo.held (c : Thread nD τ) (Pipeline.ucRefs τ sig) (V0 m c) ∗ E0 c) : sProp (MT nD τ sig Ix (Elt F) ℕ UA Lvl)) := by
  have hbufs : ∀ c : Dev nD,
      (unscopedBufs c (fun b => m ((c.tc : Thread nD τ).loc b)) : sProp (MT nD τ sig Ix (Elt F) ℕ UA Lvl))
        = StableHlo.held (c : Thread nD τ) (Pipeline.ucRefs τ sig) (V0 m c) :=
    fun c => Pipeline.unscopedBufs_held (Ix := Ix) (Name := ℕ) (U := UA) (Lvl := Lvl) c (V0 m c)
  simp only [hbufs]
  rw [bigSep_sep' Finset.univ (fun c : Dev nD => StableHlo.held (c : Thread nD τ) (Pipeline.ucRefs τ sig) (V0 m c)) E0,
    bigSep_sep' Finset.univ (fun c : Dev nD => StableHlo.held (c : Thread nD τ) (Pipeline.ucRefs τ sig) (V0 m c))]
  iintro ⟨⟨Hheld, Hrest⟩, Hlev⟩
  imod hE0 $$ [Hrest Hlev] with HE
  · isplitl [Hrest]
    · iexact Hrest
    · iexact Hlev
  imodintro
  isplitl [Hheld]
  · iexact Hheld
  · iexact HE

variable (outs0 : (c : Dev nD) → Buf (Elt F) ((c : Thread nD τ).loc main_v45_0))
variable (outs1 : (c : Dev nD) → Buf (Elt F) ((c : Thread nD τ).loc main_v45_1))

/-- THE END. The buffers held at the last contents, read against a final state: the result array holds the last contents,
    each argument array the launch contents (nothing writes an argument). -/
theorem final_read (c : Dev nD) (s' : Phys nD τ sig (Elt F)) :
    iprop(StableHlo.held (c : Thread nD τ) (Pipeline.ucRefs τ sig) (V9 m outs0 outs1 c) ∗ SI s')
      ⊢ (|={Set.univ}=> iprop(⌜s'.mem.mem ((c.tc : Thread nD τ).loc main_v81) = V9 m outs0 outs1 c main_v81
          ∧ s'.mem.mem ((c.tc : Thread nD τ).loc main_arg0) = m ((c.tc : Thread nD τ).loc main_arg0)
          ∧ s'.mem.mem ((c.tc : Thread nD τ).loc main_arg1) = m ((c.tc : Thread nD τ).loc main_arg1)
          ∧ s'.mem.mem ((c.tc : Thread nD τ).loc main_arg2) = m ((c.tc : Thread nD τ).loc main_arg2)
          ∧ s'.mem.mem ((c.tc : Thread nD τ).loc main_arg3) = m ((c.tc : Thread nD τ).loc main_arg3)
          ∧ s'.mem.mem ((c.tc : Thread nD τ).loc main_arg4) = m ((c.tc : Thread nD τ).loc main_arg4)
          ∧ s'.mem.mem ((c.tc : Thread nD τ).loc main_arg5) = m ((c.tc : Thread nD τ).loc main_arg5)
          ∧ s'.mem.mem ((c.tc : Thread nD τ).loc main_arg6) = m ((c.tc : Thread nD τ).loc main_arg6)⌝ ∗ SI s')
        : sProp (MT nD τ sig Ix (Elt F) ℕ UA Lvl)) := by
  have hread := pointsTo_read_all (Ix := Ix) (Name := ℕ) (U := UA) (Lvl := Lvl) (Pipeline.ucRefs τ sig)
    (fun b => ((c : Thread nD τ).1, b)) (V9 m outs0 outs1 c) s'
  refine BIBase.Entails.trans (show _ ⊢ _ from hread) ?_
  iintro ⟨%h, HSI⟩
  imodintro
  isplitr
  · ipureintro
    exact ⟨h _ (mem_held main_v81 (by decide)),
      (h _ (mem_held main_arg0 (by decide))).trans (V9_untouched m outs0 outs1 c main_arg0 (by decide)),
      (h _ (mem_held main_arg1 (by decide))).trans (V9_untouched m outs0 outs1 c main_arg1 (by decide)),
      (h _ (mem_held main_arg2 (by decide))).trans (V9_untouched m outs0 outs1 c main_arg2 (by decide)),
      (h _ (mem_held main_arg3 (by decide))).trans (V9_untouched m outs0 outs1 c main_arg3 (by decide)),
      (h _ (mem_held main_arg4 (by decide))).trans (V9_untouched m outs0 outs1 c main_arg4 (by decide)),
      (h _ (mem_held main_arg5 (by decide))).trans (V9_untouched m outs0 outs1 c main_arg5 (by decide)),
      (h _ (mem_held main_arg6 (by decide))).trans (V9_untouched m outs0 outs1 c main_arg6 (by decide))⟩
  · iexact HSI

end Ends

/-! ## The run, given the region's record -/

-- the kit theorem's implicit arguments are found by unifying its conclusion with this statement's, which needs plain
-- definitions unfolded inside a metavariable's type
set_option backward.isDefEq.respectTransparency.types false in
/-- THE RUN, CONDITIONALLY. For any user algebra, levels, launch dues and ghost resources, any rests `E 0`, `E 1` such that
    the launch makes `E 0` on every core at once and `E 1` ends owing nothing, and any contents `outs0`, `outs1`: GIVEN a
    record of the kernel region entered from the buffers at `V3 m c` beside `E 0 c` and left with them at
    `V4 m outs0 outs1 c` beside `E 1 c`, every weakly fair execution of the program from memory `m` with all counters zero
    terminates, and in every final memory the result array holds `V9 m outs0 outs1 c main_v81` and each of the seven
    argument arrays holds what it held at launch. -/
theorem run_cond {Ix : Type} [DecidableEq Ix] {UA : Type} [URA UA] {Lvl : Type} [Preorder Lvl]
    (EP : Emb (URounds (GSem nD τ sig) Unit) (MT nD τ sig Ix (Elt F) ℕ UA Lvl)) [EP.LandsIn (upEmb : UEmb _ (MT nD τ sig Ix (Elt F) ℕ UA Lvl))]
    (ι : Ix) (𝒱₀ : Variants) (L : GSem nD τ sig → Finset Ix) (lv : GSem nD τ sig → Ix → Lvl)
    (hL : ∀ g : GSem nD τ sig, g.1.2 ≠ .tc → L g = ∅)
    (m : (ℓ : Loc nD τ sig) → Buf (Elt F) ℓ) (ρ : Dev nD → PrngReg)
    (outs0 : (c : Dev nD) → Buf (Elt F) ((c : Thread nD τ).loc main_v45_0))
    (outs1 : (c : Dev nD) → Buf (Elt F) ((c : Thread nD τ).loc main_v45_1))
    (pdats : (p : Fin 1) → (c : Dev nD) → Dat τ (Elt F) Ix ℕ UA Lvl (cfgs p) c)
    (O₀ : Dev nD → CellTallies nD τ sig Ix) (G : Dev nD → sProp (MT nD τ sig Ix (Elt F) ℕ UA Lvl)) (u₀ : UA)
    (hu₀ : (ownU u₀ : sProp (MT nD τ sig Ix (Elt F) ℕ UA Lvl)) ⊢ |={Set.univ}=> iprop(BI.own (EP (initOf (Pipeline.cells cfgs cellOf_inj) (Pipeline.launchToks cfgs cellOf_inj))) ∗ bigSep Finset.univ G))
    (E : Fin 2 → Dev nD → sProp (MT nD τ sig Ix (Elt F) ℕ UA Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ UA Lvl)))
    (hE1 : ∀ c : Dev nD, E 1 c ⊢ (iprop(∃ W, owes (c : Thread nD τ) (0 : CellTallies nD τ sig Ix) W) : sProp (MT nD τ sig Ix (Elt F) ℕ UA Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs0 outs1 c) ∗ E 1 c)) :
    θ_run defs (onTc (τ := τ) (main (F := F))) ⟨m, fun _ => 0, ρ⟩ (fun r => ∀ c : Dev nD,
      r.2.mem ((c.tc : Thread nD τ).loc main_v81) = V9 m outs0 outs1 c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm pdats ι cellOf_inj EP defs₀ 𝒱₀ L lv m ρ main
    (items 𝒱₀ L lv m outs0 outs1 E ι pdats R0) ?hmain ?hnd O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs0 outs1 c))
    (hch := ?hch) (hinit := launch_state m ρ L lv O₀ G (E 0) hE0)
    (QY := fun c s => s.mem ((c.tc : Thread nD τ).loc main_v81) = V9 m outs0 outs1 c main_v81
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => final_read m outs0 outs1 c s') (hQ := fun _ h => h)
  case hmain =>
    -- the program is the chain of its nine items, and so is the run of the nine segments
    intro c Q
    rw [main_chain c, Seg.run_eq_chain]
    exact .rfl
  case hnd =>
    -- one region, entered once
    intro c
    exact List.nodup_singleton (0 : Fin 1)
  case hch =>
    -- a stretch ends where the next begins; the region is entered and left by hypothesis; the last rest owes nothing
    intro c
    exact ⟨.rfl, .rfl, .rfl, hpre0 c, hpost0 c, .rfl, .rfl, .rfl, .rfl, sep_mono .rfl (hE1 c)⟩

end Cert.KernelIdeal.Hand.Run

end
-- ==== Proof.KRunAlg.lean ====
/- The run of the whole program from a record of its kernel region, with the proof's resource algebra fixed: the
   one-component algebra of the pipeline library's rounds, no levels, nothing owed at launch, no ghost resources. What stays
   beside the buffers is the core's generator register and its empty dues; the launch makes that state on each core. -/
import proofs.«135812_j48799418417343_1_alg».proof.Proof.KRun
import Idealize.ShloMosaic.Lib.Pipeline.Kit

noncomputable section

namespace Cert.KernelIdeal.Hand.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F] [Named F]

/-! ## The algebra fixed, the launch discharged -/

/-- What stays beside the buffers through every item: the core's generator register at some state, and the core owing
    nothing. -/
abbrev rest (c : Dev nD) : sProp (MT nD τ sig Unit (Elt F) ℕ (UR sig nD τ) ℕ) :=
  iprop((∃ r, prngReg c r) ∗ ∃ W, owes (c : Thread nD τ) (0 : CellTallies nD τ sig Unit) W)

/-- THE RUN FROM THE REGION'S RECORD. Over the one-component algebra of the pipeline library's rounds, with no levels, no
    dues at launch and no ghost resources: a record of the kernel region entered from the buffers at `V3 m c` beside
    `rest c` and left with them at `V4 m outs0 outs1 c` beside `rest c` gives the run of the whole program. The launch
    makes `rest` on each core from the generator register and the empty dues it deals. -/
theorem run_of_region (m : (ℓ : Loc nD τ sig) → Buf (Elt F) ℓ) (ρ : Dev nD → PrngReg)
    (outs0 : (c : Dev nD) → Buf (Elt F) ((c : Thread nD τ).loc main_v45_0))
    (outs1 : (c : Dev nD) → Buf (Elt F) ((c : Thread nD τ).loc main_v45_1))
    (pdats : (p : Fin 1) → (c : Dev nD) → Dat τ (Elt F) Unit ℕ (UR sig nD τ) ℕ (cfgs p) c)
    (R0 : RegionSeg (pcfgs (F := F)) adm pdats () defs₀ Variants.none (fun _ => ∅) (fun _ _ => 0) 0)
    (hpre0 : ∀ c : Dev nD, iprop(StableHlo.held (c : Thread nD τ) (Pipeline.ucRefs τ sig) (V3 m c) ∗ rest c) ⊢ R0.pre c)
    (hpost0 : ∀ c : Dev nD, R0.post c ⊢ iprop(StableHlo.held (c : Thread nD τ) (Pipeline.ucRefs τ sig) (V4 m outs0 outs1 c) ∗ rest c)) :
    θ_run defs (onTc (τ := τ) (main (F := F))) ⟨m, fun _ => 0, ρ⟩ (fun r => ∀ c : Dev nD,
      r.2.mem ((c.tc : Thread nD τ).loc main_v81) = V9 m outs0 outs1 c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine run_cond (Ix := Unit) (UA := UR sig nD τ) (Lvl := ℕ) emb₁ () Variants.none (fun _ => ∅) (fun _ _ => 0)
    (fun _ _ => rfl) m ρ outs0 outs1 pdats (fun _ => 0) (fun _ => (BI.emp : sProp (MT nD τ sig Unit (Elt F) ℕ (UR sig nD τ) ℕ)))
    (initOf (Pipeline.cells cfgs cellOf_inj) (Pipeline.launchToks cfgs cellOf_inj))
    ?hu (fun _ => rest) ?hE0 ?hE1 R0 hpre0 hpost0
  case hu =>
    -- the launch element is the pipeline library's own; there is no ghost resource to make
    rw [BI.bigSep_emp_const, ownU_emb₁]
    iintro Hu
    imodintro
    isplitl [Hu]
    · iexact Hu
    · iempintro
  case hE0 =>
    -- core by core: the register is at the launch state, the dues are none
    refine Pipeline.initEach (fun _ => ∅) (fun _ _ => 0) fun c => ?_
    iintro ⟨⟨-, Howes, -, Hprng, -⟩, -⟩
    imodintro
    isplitl [Hprng]
    · iexists _; iexact Hprng
    · iexists ∅; iexact Howes
  case hE1 =>
    intro c
    iintro ⟨-, Howes⟩
    iexact Howes

end Cert.KernelIdeal.Hand.Run

end
-- ==== Proof.KPay.lean ====
/-
  The two values the kernel body stores at a grid point, as functions of the four blocks it reads: the per-row
  loss term (the negated log-ratio where the row has a positive, zero elsewhere) and the per-row indicator
  "this row has a positive" as a float. Both are the generated payloads composed; nothing is proved here.
-/
import proofs.«135812_j48799418417343_1_alg».proof.Proof.Gen.KernelIdeal.Skeleton

noncomputable section

namespace Cert.KernelIdeal.Hand

open Idealize.ShloMosaic Idealize.SL.Sem
open Cert.KernelIdeal Cert.KernelIdeal.Gen

variable {F : FTy → Type} [FloatOps F] [Named F]

/-- The loss column stored for the rows of grid point `i`: from the row block `f0`, the whole table `f1`, the
    row block's labels `f2` and all labels `f3`. -/
def outLoss (i : grid0.Coords) (f0 : Vec F S128x256 .bf16) (f1 : Vec F S8192x256 .bf16) (f2 : Vec F S1x128 .i32)
    (f3 : Vec F S1x8192 .i32) : FVec F S128x1 .f32 :=
  Gen.k0_pay2 (Gen.k0_pay5 i f2 f3) (Gen.k0_pay6 i f0 f1 f2 f3)

/-- The indicator column stored for the rows of grid point `i`: whether each row has another row with its label. -/
def outHas (i : grid0.Coords) (f2 : Vec F S1x128 .i32) (f3 : Vec F S1x8192 .i32) : FVec F S128x1 .f32 :=
  Gen.k0_pay3 (F := F) (Gen.k0_pay5 i f2 f3)

end Cert.KernelIdeal.Hand

end
-- ==== Proof.KData.lean ====
/-
  The proof data of the program's one kernel region (pipeline 0: a grid of 64 points over six windows).

  When the region is entered, core `c`'s buffers hold `Vin m c`: the launch memory `m` after the three host
  stretches that precede the call. Windows 0 and 1 read one array (the normalised table, in rows of 128 and whole),
  windows 2 and 3 read one array (the labels, in columns of 128 and whole), windows 4 and 5 are the two result
  columns, written back in rows of 128 at every point.

  `dat m c` says: the arrays start at `Vin m c`; after the body at point `t` every input's staging buffer still
  holds the block it was handed (`iblk`), result 4's holds `outLoss` of the four input blocks and result 5's holds
  `outHas` of the two label blocks; the invariant is the core's scoped buffers no window stages; nothing is owed.
  The two windows on one array hold it at the two halves of the full share.

  Proved here: what every input's staging buffer holds when the body runs at a point is the window's block there,
  whether the pipeline fetched it at that point or at an earlier one (`before_in`).
-/
import proofs.«135812_j48799418417343_1_alg».proof.Proof.Gen.KernelIdeal.Launch
import proofs.«135812_j48799418417343_1_alg».proof.Proof.Gen.KernelIdeal.Points
import proofs.«135812_j48799418417343_1_alg».proof.Proof.KPay
import Idealize.ShloMosaic.Lib.Pipeline.FrameBody
import Idealize.ShloMosaic.Lib.Pipeline.Frame
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

/-- No pipeline of this program has a prefetched table. -/
abbrev adm : (p : Fin 1) → (pcfgs (F := F) p).Adm := fun p => (cfgs p).toPCfg_adm

variable (m : (ℓ : Loc nD τ sig) → Buf (Elt F) ℓ)

/-- Core `c`'s TensorCore buffers when the region is entered: the launch memory after the three host stretches. -/
abbrev Vin (c : Dev nD) : Valuation τ sig (Elt F) :=
  StableHlo.after hostOps0_2 (StableHlo.after hostOps0_1 (StableHlo.after hostOps0 (fun b => m (c, b))))

/-- Window `w`'s block at point `t`, read off its array as the region finds it. -/
abbrev iblk (c : Dev nD) (w : Fin cfg0.W) (t : Fin cfg0.N) : ((cfg0.win w).xblock (cfg0.grid.coords t)).Idx → Elt F (cfg0.win w).elt :=
  ((cfg0.win w).blk t).view.read (Elt F) (Vin m c (Pipeline.arrRef spec0 w))

section Data

variable {Ix : Type} [DecidableEq Ix] {UA : Type} [URA UA] {Lvl : Type} [Preorder Lvl]

/-- The proof data of the region on core `c`. -/
def dat (c : Dev nD) : Dat τ (Elt F) Ix ℕ UA Lvl cfg0 c where
  A w := Vin m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outLoss (grid0.coords t) (iblk m c 0 t) (iblk m c 1 t) (iblk m c 2 t) (iblk m c 3 t)
    | ⟨5, _⟩ => outHas (grid0.coords t) (iblk m c 2 t) (iblk m c 3 t)
    | ⟨_ + 6, h⟩ => absurd h (Nat.not_lt.2 (Nat.le_add_left _ _))
  Φ _ := Pipeline.scopedRest (Ix := Ix) (Name := ℕ) (U := UA) (Lvl := Lvl) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨_ + 6, h⟩ => absurd h (Nat.not_lt.2 (Nat.le_add_left _ _))
  owed _ := 0

/-- The one pipeline's proof data, as the family the region kit takes. -/
def pdats : (p : Fin 1) → (c : Dev nD) → Dat τ (Elt F) Ix ℕ UA Lvl (cfgs p) c
  | ⟨0, _⟩ => fun c => dat m c

local notation "𝔇" => dat (Ix := Ix) (UA := UA) (Lvl := Lvl) m

/-! ## The proof data's fields, projected -/

theorem A_eq (c : Dev nD) (w : Fin cfg0.W) : (𝔇 c).A w = Vin m c (Pipeline.arrRef spec0 w) := by
  dsimp only [dat]

theorem after_0 (c : Dev nD) (t : Fin cfg0.N) : (𝔇 c).after 0 t = iblk m c 0 t := by dsimp only [dat]
theorem after_1 (c : Dev nD) (t : Fin cfg0.N) : (𝔇 c).after 1 t = iblk m c 1 t := by dsimp only [dat]
theorem after_2 (c : Dev nD) (t : Fin cfg0.N) : (𝔇 c).after 2 t = iblk m c 2 t := by dsimp only [dat]
theorem after_3 (c : Dev nD) (t : Fin cfg0.N) : (𝔇 c).after 3 t = iblk m c 3 t := by dsimp only [dat]
theorem after_4 (c : Dev nD) (t : Fin cfg0.N) :
    (𝔇 c).after 4 t = outLoss (grid0.coords t) (iblk m c 0 t) (iblk m c 1 t) (iblk m c 2 t) (iblk m c 3 t) := by
  dsimp only [dat]
theorem after_5 (c : Dev nD) (t : Fin cfg0.N) :
    (𝔇 c).after 5 t = outHas (grid0.coords t) (iblk m c 2 t) (iblk m c 3 t) := by dsimp only [dat]

/-! ## What an input's staging buffer holds when the body runs

A fetch reads the window's block off the array, and the array is the entry contents; the windows are uncut, so a fetch
fills the whole buffer. An input not fetched at a point has kept the block of the point before, whose index is the same
(windows 1 and 3 read the whole array at every point). -/

/-- The block a fetch reads is the window's block of the entry contents. -/
theorem blockOf_eq (c : Dev nD) (w : Fin cfg0.W) (t : Fin cfg0.N) : (𝔇 c).blockOf w t = iblk m c w t := by
  unfold Dat.blockOf; rw [A_eq]

theorem before_0 (c : Dev nD) (t : Fin cfg0.N) (d) : (𝔇 c).before 0 t d = iblk m c 0 t := by
  rw [(𝔇 c).before_in_eq_fetched 0 rfl (fun _ => rfl) (fun _ _ _ => rfl)
    (fun u => by rw [after_0, blockOf_eq] <;> rfl) t d]
  unfold Dat.fetched; rw [blockOf_eq] <;> rfl

theorem before_1 (c : Dev nD) (t : Fin cfg0.N) (d) : (𝔇 c).before 1 t d = iblk m c 1 t := by
  rw [(𝔇 c).before_in_eq_fetched 1 rfl (fun _ => rfl) (fun _ _ _ => rfl)
    (fun u => by rw [after_1, blockOf_eq] <;> rfl) t d]
  unfold Dat.fetched; rw [blockOf_eq] <;> rfl

theorem before_2 (c : Dev nD) (t : Fin cfg0.N) (d) : (𝔇 c).before 2 t d = iblk m c 2 t := by
  rw [(𝔇 c).before_in_eq_fetched 2 rfl (fun _ => rfl) (fun _ _ _ => rfl)
    (fun u => by rw [after_2, blockOf_eq] <;> rfl) t d]
  unfold Dat.fetched; rw [blockOf_eq] <;> rfl

theorem before_3 (c : Dev nD) (t : Fin cfg0.N) (d) : (𝔇 c).before 3 t d = iblk m c 3 t := by
  rw [(𝔇 c).before_in_eq_fetched 3 rfl (fun _ => rfl) (fun _ _ _ => rfl)
    (fun u => by rw [after_3, blockOf_eq] <;> rfl) t d]
  unfold Dat.fetched; rw [blockOf_eq] <;> rfl

end Data

/-! ## The contents the region leaves -/

/-- What the write-backs leave in an array does not depend on the algebra parameters of the proof data: it is computed
    from the entry contents and the bodies' results alone. -/
theorem arrAt_indep {Ix : Type} [DecidableEq Ix] {UA : Type} [URA UA] {Lvl : Type} (c : Dev nD) (w : Fin cfg0.W) :
    ∀ n, (dat (Ix := Ix) (UA := UA) (Lvl := Lvl) m c).arrAt w n = (dat (Ix := Unit) (UA := UR sig nD τ) (Lvl := ℕ) m c).arrAt w n
  | 0 => rfl
  | n + 1 => by
    unfold Dat.arrAt
    rw [arrAt_indep c w n]
    rfl

/-- Core `c`'s TensorCore buffers when the region is left: the two result arrays at what the 64 write-backs leave,
    every other buffer as entered. -/
abbrev Vout (c : Dev nD) : Valuation τ sig (Elt F) :=
  Function.update (Function.update (Vin m c) main_v45_0 ((dat (Ix := Unit) (UA := UR sig nD τ) (Lvl := ℕ) m c).arrAt 4 cfg0.N))
    main_v45_1 ((dat (Ix := Unit) (UA := UR sig nD τ) (Lvl := ℕ) m c).arrAt 5 cfg0.N)

end Cert.KernelIdeal.Hand

end
-- ==== Proof.KBody.lean ====
/-
  The kernel body's run, at any float instance.

  At a grid point the body reads four staging buffers whole — the block of 128 embedding rows, the whole table of
  8192 embedding rows, the block's 128 labels and all 8192 labels —, computes, and overwrites two staging buffers
  whole, each with one column of 128 values: the per-row loss term and the per-row indicator that the row has a
  positive. Each output buffer is also read once before it is overwritten; nothing depends on what is read.

  `bodyRun` is the separation-logic triple of that body over SYMBOLIC whole memrefs: from the four inputs owned at
  the contents they read (`x0 … x3`) and the two outputs owned at anything, the body runs to its return handing back
  the inputs as they were and the outputs at `outLoss i x0 x1 x2 x3` and `outHas i x2 x3` — the two stored payloads
  as functions of what the inputs read. Two facts carry the values through: a load through the whole-shape rectangle
  at zero offsets reads what the view reads of the buffer (`readAt_whole`), and one store through that rectangle
  leaves a buffer that reads the stored vector whatever it held before (`read_store_whole`). The payloads stay
  folded throughout.
-/
import proofs.«135812_j48799418417343_1_alg».proof.Proof.KPay
import Idealize.ShloMosaic.Lib.Pipeline.RegionsLoop
import Idealize.ShloMosaic.Lib.Pipeline.Value
import Idealize.ShloMosaic.Lib.Tactic

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] {UA : Type} [URA UA]

local notation "𝕄" => MT nD τ sig Unit (Elt F) ℕ UA ℕ

/-- The offsets of a whole-buffer access of a rank-2 buffer are all zero. -/
theorem zeros2 : (![0, 0] : Fin 2 → ℕ) = fun _ => 0 := funext fun a => by fin_cases a <;> rfl

/-- A load through the whole-shape rectangle at zero offsets reads what the view reads of the buffer. -/
theorem readAt_whole {sp : Space} {S : Shape} {e : EltTy} (v : View sig .tc sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f := by
  rw [View.readAt_eq_ld]; exact View.ld_unit_zero h inb _

/-- One store through the whole-shape rectangle at zero offsets, over any prior contents, leaves a buffer that
    reads the stored vector. -/
theorem read_store_whole {sp : Space} {S : Shape} {e : EltTy} (v : View sig .tc sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h inb]

/-- The body on whole staging memrefs: the four inputs owned at read contents `x0 … x3`, the two outputs at anything; it
    returns holding the inputs as they were, the first output at the loss column and the second at the indicator column of
    those contents. -/
theorem bodyRun (c : Dev nD) (E : Set ℕ) (i : grid0.Coords)
    (M0 : Memref sig .tc .vmem S128x256 .bf16) (h0 : M0.IsWhole) (M1 : Memref sig .tc .vmem S8192x256 .bf16) (h1 : M1.IsWhole)
    (M2 : Memref sig .tc .vmem S1x128 .i32) (h2 : M2.IsWhole) (M3 : Memref sig .tc .vmem S1x8192 .i32) (h3 : M3.IsWhole)
    (M4 : Memref sig .tc .vmem S128x1 .f32) (h4 : M4.IsWhole) (M5 : Memref sig .tc .vmem S128x1 .f32) (h5 : M5.IsWhole)
    (x0 : Vec F S128x256 .bf16) (x1 : Vec F S8192x256 .bf16) (x2 : Vec F S1x128 .i32) (x3 : Vec F S1x8192 .i32)
    (K : PUnit → sProp 𝕄) :
    iprop(owns (c : Thread nD τ) M0 fullShare x0 ∗ owns (c : Thread nD τ) M1 fullShare x1 ∗ owns (c : Thread nD τ) M2 fullShare x2
        ∗ owns (c : Thread nD τ) M3 fullShare x3 ∗ (∃ d, owns (c : Thread nD τ) M4 fullShare d) ∗ (∃ d, owns (c : Thread nD τ) M5 fullShare d)
        ∗ (iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare (outLoss i x0 x1 x2 x3)
            ∗ owns (c : Thread nD τ) M5 fullShare (outHas i x2 x3)) -∗ K ⟨⟩))
      ⊢ wp frame (wpE (defs₀ (F := F)) Variants.none c none) E (cc0__infonce_kernel i M0 h0 M1 h1 M2 h2 M3 h3 M4 h4 M5 h5) K := by
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_store_whole _ _ zeros2]
    sl_unfold_run_names
    rw [readAt_whole _ f0 zeros2, readAt_whole _ f1 zeros2, readAt_whole _ f2 zeros2, readAt_whole _ f3 zeros2]
    rfl
  iexists _; isplitr
  swap; · iexact H5
  ipureintro
  rw [read_store_whole _ _ zeros2]
  sl_unfold_run_names
  rw [readAt_whole _ f2 zeros2, readAt_whole _ f3 zeros2]
  rfl

end Cert.KernelIdeal.Hand

end
-- ==== Proof.KRegion.lean ====
/-
  The kernel region of the program as a segment over the thread state.

  The body obligation: at every grid point the four input staging buffers hold the windows' blocks of the entry
  contents (fetched at that point, or — for the two whole-array windows, fetched once — kept since), the two result
  buffers hold anything; the body's run then leaves the inputs as they were and the results at `outLoss` / `outHas` of the
  blocks, which is what the proof data says.

  The arrays: six windows stand on four buffers. On entry each input buffer's full share is split in two halves, one per
  window on it; on exit the halves are put together again. An input array is never written, so only the two result
  arrays change: they end at what the 64 write-backs leave, which is `Vout`.
-/
import proofs.«135812_j48799418417343_1_alg».proof.Proof.KData
import proofs.«135812_j48799418417343_1_alg».proof.Proof.KBody
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable {UA : Type} [URA UA]

local notation "𝕄" => MT nD τ sig Unit (Elt F) ℕ UA ℕ

variable (m : (ℓ : Loc nD τ sig) → Buf (Elt F) ℓ)

local notation "𝔇" => dat (Ix := Unit) (UA := UA) (Lvl := ℕ) m

/-! ## The body obligation -/

/-- The body at point `t`. -/
theorem body_at (c : Dev nD) (t : Fin cfg0.N) :
    (iprop((𝔇 c).Φ t.castSucc ∗ (𝔇 c).owesAt () t.castSucc
        ∗ (∃ d, owns (c : Thread nD τ) (st0_0 t) fullShare ((𝔇 c).before 0 t d))
        ∗ (∃ d, owns (c : Thread nD τ) (st0_1 t) fullShare ((𝔇 c).before 1 t d))
        ∗ (∃ d, owns (c : Thread nD τ) (st0_2 t) fullShare ((𝔇 c).before 2 t d))
        ∗ (∃ d, owns (c : Thread nD τ) (st0_3 t) fullShare ((𝔇 c).before 3 t d))
        ∗ (∃ d, owns (c : Thread nD τ) (st0_4 t) fullShare ((𝔇 c).before 4 t d))
        ∗ (∃ d, owns (c : Thread nD τ) (st0_5 t) fullShare ((𝔇 c).before 5 t d))) : sProp 𝕄)
      ⊢ wp frame (wpE (defs₀ (F := F)) Variants.none c none) Set.univ (bodyAt0 t) (fun _ =>
          iprop((𝔇 c).Φ t.succ ∗ (𝔇 c).owesAt () t.succ
            ∗ owns (c : Thread nD τ) (st0_0 t) fullShare ((𝔇 c).after 0 t)
            ∗ owns (c : Thread nD τ) (st0_1 t) fullShare ((𝔇 c).after 1 t)
            ∗ owns (c : Thread nD τ) (st0_2 t) fullShare ((𝔇 c).after 2 t)
            ∗ owns (c : Thread nD τ) (st0_3 t) fullShare ((𝔇 c).after 3 t)
            ∗ owns (c : Thread nD τ) (st0_4 t) fullShare ((𝔇 c).after 4 t)
            ∗ owns (c : Thread nD τ) (st0_5 t) fullShare ((𝔇 c).after 5 t))) := by
  simp only [before_0, before_1, before_2, before_3]
  rw [after_0, after_1, after_2, after_3, after_4, after_5,
    show (𝔇 c).Φ t.succ = (𝔇 c).Φ t.castSucc from rfl,
    show (𝔇 c).owesAt () t.succ = (𝔇 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (bodyRun c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation. -/
theorem body_obligation (c : Dev nD) : BodyObligation (𝔇 c) (defs₀ (F := F)) Variants.none () Set.univ := fun t => by
  rw [bigSep_W0, bigSep_W0]
  exact body_at m c t

/-! ## The arrays: four buffers behind six windows -/

/-- The buffers behind the windows' arrays, one by one. -/
theorem arrBufs_list (c : Dev nD) (V : (b : Ref sig .tc) → Buf (Elt F) ((c.tc : Thread nD τ).loc b)) :
    (Pipeline.arrBufs spec0 c V : sProp 𝕄)
      = iprop((((c.tc : Thread nD τ).loc main_v43) ↦{fullShare} V main_v43) ∗ (((c.tc : Thread nD τ).loc main_v44) ↦{fullShare} V main_v44)
          ∗ (((c.tc : Thread nD τ).loc main_v45_0) ↦{fullShare} V main_v45_0) ∗ (((c.tc : Thread nD τ).loc main_v45_1) ↦{fullShare} V main_v45_1)) := by
  unfold Pipeline.arrBufs
  exact bigSep_eq_bigSepL_of_eq [main_v43, main_v44, main_v45_0, main_v45_1] (by decide) (by decide) _

/-- A window's array is a whole buffer: held on its element set is held whole. -/
theorem win_arr (c : Dev nD) (w : Fin cfg0.W) (q : PosShare TreeShare) (g : Buf (Elt F) ((cfg0.win w).arr.view.loc (c.tc : Thread nD τ))) :
    ((cfg0.win w).arr.view.loc (c.tc : Thread nD τ) ↦[(cfg0.win w).arr.view.set]{q} g : sProp 𝕄)
      = ((cfg0.win w).arr.view.loc (c.tc : Thread nD τ) ↦{q} g) := by
  rw [show (cfg0.win w).arr.view.set = Finset.univ from (arr_whole0 w).set_eq_univ]

/-- Each window's array as a whole buffer at the window's share. -/
theorem pt_0 (c : Dev nD) (g : Buf (Elt F) ((cfg0.win 0).arr.view.loc (c.tc : Thread nD τ))) :
    ((cfg0.win 0).arr.view.loc (c.tc : Thread nD τ) ↦[(cfg0.win 0).arr.view.set]{(𝔇 c).share 0} g : sProp 𝕄)
      = (((c.tc : Thread nD τ).loc main_v43) ↦{fullShare.left} g) := (win_arr c 0 _ _).trans rfl
theorem pt_1 (c : Dev nD) (g : Buf (Elt F) ((cfg0.win 1).arr.view.loc (c.tc : Thread nD τ))) :
    ((cfg0.win 1).arr.view.loc (c.tc : Thread nD τ) ↦[(cfg0.win 1).arr.view.set]{(𝔇 c).share 1} g : sProp 𝕄)
      = (((c.tc : Thread nD τ).loc main_v43) ↦{fullShare.right} g) := (win_arr c 1 _ _).trans rfl
theorem pt_2 (c : Dev nD) (g : Buf (Elt F) ((cfg0.win 2).arr.view.loc (c.tc : Thread nD τ))) :
    ((cfg0.win 2).arr.view.loc (c.tc : Thread nD τ) ↦[(cfg0.win 2).arr.view.set]{(𝔇 c).share 2} g : sProp 𝕄)
      = (((c.tc : Thread nD τ).loc main_v44) ↦{fullShare.left} g) := (win_arr c 2 _ _).trans rfl
theorem pt_3 (c : Dev nD) (g : Buf (Elt F) ((cfg0.win 3).arr.view.loc (c.tc : Thread nD τ))) :
    ((cfg0.win 3).arr.view.loc (c.tc : Thread nD τ) ↦[(cfg0.win 3).arr.view.set]{(𝔇 c).share 3} g : sProp 𝕄)
      = (((c.tc : Thread nD τ).loc main_v44) ↦{fullShare.right} g) := (win_arr c 3 _ _).trans rfl
theorem pt_4 (c : Dev nD) (g : Buf (Elt F) ((cfg0.win 4).arr.view.loc (c.tc : Thread nD τ))) :
    ((cfg0.win 4).arr.view.loc (c.tc : Thread nD τ) ↦[(cfg0.win 4).arr.view.set]{(𝔇 c).share 4} g : sProp 𝕄)
      = (((c.tc : Thread nD τ).loc main_v45_0) ↦{fullShare} g) := (win_arr c 4 _ _).trans rfl
theorem pt_5 (c : Dev nD) (g : Buf (Elt F) ((cfg0.win 5).arr.view.loc (c.tc : Thread nD τ))) :
    ((cfg0.win 5).arr.view.loc (c.tc : Thread nD τ) ↦[(cfg0.win 5).arr.view.set]{(𝔇 c).share 5} g : sProp 𝕄)
      = (((c.tc : Thread nD τ).loc main_v45_1) ↦{fullShare} g) := (win_arr c 5 _ _).trans rfl

/-- The windows' arrays, one by one, each a whole buffer. -/
theorem arrays_list (c : Dev nD) (G : (w : Fin cfg0.W) → Buf (Elt F) ((cfg0.win w).arr.view.loc (c.tc : Thread nD τ))) :
    ((𝔇 c).arrays G : sProp 𝕄)
      = iprop((((c.tc : Thread nD τ).loc main_v43) ↦{fullShare.left} G 0) ∗ (((c.tc : Thread nD τ).loc main_v43) ↦{fullShare.right} G 1)
          ∗ (((c.tc : Thread nD τ).loc main_v44) ↦{fullShare.left} G 2) ∗ (((c.tc : Thread nD τ).loc main_v44) ↦{fullShare.right} G 3)
          ∗ (((c.tc : Thread nD τ).loc main_v45_0) ↦{fullShare} G 4) ∗ (((c.tc : Thread nD τ).loc main_v45_1) ↦{fullShare} G 5)) := by
  unfold Dat.arrays
  rw [bigSep_W0]
  exact congrArg₂ BI.sep (pt_0 m c _) (congrArg₂ BI.sep (pt_1 m c _) (congrArg₂ BI.sep (pt_2 m c _)
    (congrArg₂ BI.sep (pt_3 m c _) (congrArg₂ BI.sep (pt_4 m c _) (pt_5 m c _)))))

/-- A full share of a buffer is its two halves. -/
theorem halves {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-- The four buffers, each whole at the full share, are the six windows' arrays at the same contents: each input
    array's two windows take its two halves. -/
theorem arrays_of_bufs (c : Dev nD) (V : (b : Ref sig .tc) → Buf (Elt F) ((c.tc : Thread nD τ).loc b))
    (G : (w : Fin cfg0.W) → Buf (Elt F) ((cfg0.win w).arr.view.loc (c.tc : Thread nD τ)))
    (h0 : G 0 = V main_v43) (h1 : G 1 = V main_v43) (h2 : G 2 = V main_v44) (h3 : G 3 = V main_v44)
    (h4 : G 4 = V main_v45_0) (h5 : G 5 = V main_v45_1) :
    (Pipeline.arrBufs spec0 c V : sProp 𝕄) ⊢ (𝔇 c).arrays G := by
  rw [arrBufs_list, arrays_list, h0, h1, h2, h3, h4, h5]
  iintro ⟨Ha, Hb, Hc, Hd⟩
  ihave Ha := (halves (V main_v43)).1 $$ Ha
  ihave Hb := (halves (V main_v44)).1 $$ Hb
  icases Ha with ⟨Ha1, Ha2⟩
  icases Hb with ⟨Hb1, Hb2⟩
  isplitl [Ha1]; · iexact Ha1
  isplitl [Ha2]; · iexact Ha2
  isplitl [Hb1]; · iexact Hb1
  isplitl [Hb2]; · iexact Hb2
  isplitl [Hc]; · iexact Hc
  iexact Hd

/-- and back. -/
theorem bufs_of_arrays (c : Dev nD) (V : (b : Ref sig .tc) → Buf (Elt F) ((c.tc : Thread nD τ).loc b))
    (G : (w : Fin cfg0.W) → Buf (Elt F) ((cfg0.win w).arr.view.loc (c.tc : Thread nD τ)))
    (h0 : G 0 = V main_v43) (h1 : G 1 = V main_v43) (h2 : G 2 = V main_v44) (h3 : G 3 = V main_v44)
    (h4 : G 4 = V main_v45_0) (h5 : G 5 = V main_v45_1) :
    (𝔇 c).arrays G ⊢ (Pipeline.arrBufs spec0 c V : sProp 𝕄) := by
  rw [arrBufs_list, arrays_list, h0, h1, h2, h3, h4, h5]
  iintro ⟨Ha1, Ha2, Hb1, Hb2, Hc, Hd⟩
  isplitl [Ha1 Ha2]
  · iapply (halves (V main_v43)).2; isplitl [Ha1]; · iexact Ha1
    iexact Ha2
  isplitl [Hb1 Hb2]
  · iapply (halves (V main_v44)).2; isplitl [Hb1]; · iexact Hb1
    iexact Hb2
  isplitl [Hc]; · iexact Hc
  iexact Hd

/-- A core's unscoped buffers at a valuation: the four buffers behind the windows and the rest. -/
theorem held_split (c : Dev nD) (V : Valuation τ sig (Elt F)) :
    (StableHlo.held (c : Thread nD τ) (Pipeline.ucRefs τ sig) V : sProp 𝕄)
      = iprop(Pipeline.arrBufs spec0 c (fun b => V b) ∗ Pipeline.unscopedRest spec0 c (fun b => V b)) := by
  rw [← Pipeline.unscopedBufs_held c V]
  exact Pipeline.unscopedBufs_split₀ cfgs 0 winFacts₀0.arr_unscoped c _

/-! ## The contents the region leaves, array by array -/

/-- Off the two result arrays the region changes nothing. -/
theorem Vout_of_ne (c : Dev nD) (b : Ref sig .tc) (h0 : b ≠ main_v45_0) (h1 : b ≠ main_v45_1) : Vout m c b = Vin m c b := by
  show Function.update (Function.update (Vin m c) _ _) _ _ _ = _
  rw [Function.update_of_ne (StableHlo.devRef_ne_of_ne h1), Function.update_of_ne (StableHlo.devRef_ne_of_ne h0)]

theorem Vout_4 (c : Dev nD) : Vout m c main_v45_0 = (dat (Ix := Unit) (UA := UR sig nD τ) (Lvl := ℕ) m c).arrAt 4 cfg0.N := by
  show Function.update (Function.update (Vin m c) _ _) _ _ _ = _
  rw [Function.update_of_ne (StableHlo.devRef_ne_of_ne (by decide : main_v45_0 ≠ main_v45_1)), Function.update_self]

theorem Vout_5 (c : Dev nD) : Vout m c main_v45_1 = (dat (Ix := Unit) (UA := UR sig nD τ) (Lvl := ℕ) m c).arrAt 5 cfg0.N := by
  show Function.update (Function.update (Vin m c) _ _) _ _ _ = _
  rw [Function.update_self]

/-- After the last point every window's array holds the exit contents: an input array is never written, a result
    array holds what its 64 write-backs leave. -/
theorem last_0 (c : Dev nD) : (𝔇 c).arrAt 0 cfg0.N = Vout m c main_v43 :=
  (((𝔇 c).arrAt_in 0 rfl _).trans (A_eq m c 0)).trans (Vout_of_ne m c main_v43 (by decide) (by decide)).symm
theorem last_1 (c : Dev nD) : (𝔇 c).arrAt 1 cfg0.N = Vout m c main_v43 :=
  (((𝔇 c).arrAt_in 1 rfl _).trans (A_eq m c 1)).trans (Vout_of_ne m c main_v43 (by decide) (by decide)).symm
theorem last_2 (c : Dev nD) : (𝔇 c).arrAt 2 cfg0.N = Vout m c main_v44 :=
  (((𝔇 c).arrAt_in 2 rfl _).trans (A_eq m c 2)).trans (Vout_of_ne m c main_v44 (by decide) (by decide)).symm
theorem last_3 (c : Dev nD) : (𝔇 c).arrAt 3 cfg0.N = Vout m c main_v44 :=
  (((𝔇 c).arrAt_in 3 rfl _).trans (A_eq m c 3)).trans (Vout_of_ne m c main_v44 (by decide) (by decide)).symm
theorem last_4 (c : Dev nD) : (𝔇 c).arrAt 4 cfg0.N = Vout m c main_v45_0 :=
  (arrAt_indep m c 4 cfg0.N).trans (Vout_4 m c).symm
theorem last_5 (c : Dev nD) : (𝔇 c).arrAt 5 cfg0.N = Vout m c main_v45_1 :=
  (arrAt_indep m c 5 cfg0.N).trans (Vout_5 m c).symm

/-- The unscoped buffers that are no window's array are as entered. -/
theorem rest_eq (c : Dev nD) :
    (Pipeline.unscopedRest spec0 c (fun b => Vout m c b) : sProp 𝕄) = Pipeline.unscopedRest spec0 c (fun b => Vin m c b) := by
  unfold Pipeline.unscopedRest
  refine bigSep_congr fun b hb => ?_
  have hb' := (Finset.mem_sdiff.mp hb).2
  exact congrArg (fun f => (((c.tc : Thread nD τ).loc b) ↦{fullShare} f : sProp 𝕄))
    (Vout_of_ne m c b (fun h => hb' (by subst h; exact Finset.mem_image.mpr ⟨4, Finset.mem_univ _, rfl⟩))
      (fun h => hb' (by subst h; exact Finset.mem_image.mpr ⟨5, Finset.mem_univ _, rfl⟩)))

/-! ## The region's protocol -/

/-- Nothing owed, stated as the pipeline holds it at a point. -/
theorem owesAt_of (c : Dev nD) (t : Fin (cfg0.N + 1)) :
    (iprop(∃ W, owes (c : Thread nD τ) (0 : CellTallies nD τ sig Unit) W) : sProp 𝕄) ⊢ (𝔇 c).owesAt () t := by
  iintro ⟨%W, H⟩
  iexists W
  isplitr
  · ipureintro; exact Set.subset_union_of_subset_left (Set.subset_univ _) _
  iexact H

theorem of_owesAt (c : Dev nD) (t : Fin (cfg0.N + 1)) :
    (𝔇 c).owesAt () t ⊢ (iprop(∃ W, owes (c : Thread nD τ) (0 : CellTallies nD τ sig Unit) W) : sProp 𝕄) := by
  iintro ⟨%W, -, H⟩
  iexists W
  iexact H

/-- ENTRY: the unscoped buffers at the entry contents are the windows' arrays — each input array's full share dealt to
    its two windows — and the rest. -/
theorem entry_arrays (c : Dev nD) :
    (StableHlo.held (c : Thread nD τ) (Pipeline.ucRefs τ sig) (Vin m c) : sProp 𝕄)
      ⊢ iprop((𝔇 c).arrays ((𝔇 c).arrAt · 0) ∗ Pipeline.unscopedRest spec0 c (fun b => Vin m c b)) := by
  rw [held_split]
  exact sep_mono (arrays_of_bufs m c _ _ (A_eq m c 0) (A_eq m c 1) (A_eq m c 2) (A_eq m c 3) (A_eq m c 4) (A_eq m c 5)) .rfl

/-- EXIT: the windows' arrays after the last point and the rest as entered are the unscoped buffers at the exit contents. -/
theorem exit_arrays (c : Dev nD) :
    iprop((𝔇 c).arrays ((𝔇 c).arrAt · cfg0.N) ∗ Pipeline.unscopedRest spec0 c (fun b => Vin m c b))
      ⊢ (StableHlo.held (c : Thread nD τ) (Pipeline.ucRefs τ sig) (Vout m c) : sProp 𝕄) := by
  rw [held_split, rest_eq]
  exact sep_mono (bufs_of_arrays m c _ _ (last_0 m c) (last_1 m c) (last_2 m c) (last_3 m c) (last_4 m c) (last_5 m c)) .rfl

/-- ENTRY of the region. -/
theorem reg_hentry (L : GSem nD τ sig → Finset Unit) (lv : GSem nD τ sig → Unit → ℕ) (R : Dev nD → sProp 𝕄) (c : Dev nD) :
    (iprop((StableHlo.held (c : Thread nD τ) (Pipeline.ucRefs τ sig) (Vin m c) ∗ R c
          ∗ ∃ W, owes (c : Thread nD τ) (0 : CellTallies nD τ sig Unit) W)
        ∗ Pipeline.ownSems0 (fun k : PEmpty => k.elim) c ∗ levAts L lv) : sProp 𝕄)
      ⊢ |={Set.univ}=> iprop((𝔇 c).arrays ((𝔇 c).arrAt · 0)
          ∗ Pipeline.prefHeld (pcfgs (F := F) 0).pre c (fun _ => fullShare) (adm (F := F) 0).1
          ∗ (𝔇 c).owesAt () 0 ∗ (BI.emp : sProp 𝕄)
          ∗ iprop(Pipeline.unscopedRest (Ix := Unit) (Name := ℕ) (U := UA) (Lvl := ℕ) spec0 c (fun b => Vin m c b) ∗ R c)) := by
  iintro ⟨⟨Hh, HR, HO⟩, -, -⟩
  ihave Ha := (entry_arrays (UA := UA) m c) $$ Hh
  icases Ha with ⟨Ha, Hrest⟩
  ihave HO := (owesAt_of (UA := UA) m c 0) $$ HO
  imodintro
  isplitl [Ha]; · iexact Ha
  isplitr
  · unfold Pipeline.prefHeld
    rw [Finset.univ_eq_empty, BI.bigSep_empty]
    iempintro
  isplitl [HO]; · iexact HO
  isplitr; · iempintro
  isplitl [Hrest]; · iexact Hrest
  iexact HR

/-- EXIT of the region. -/
theorem reg_hexit (R : Dev nD → sProp 𝕄) (c : Dev nD) :
    (iprop((𝔇 c).arrays ((𝔇 c).arrAt · cfg0.N) ∗ (𝔇 c).owesAt () (Fin.last cfg0.N) ∗ (BI.emp : sProp 𝕄)
        ∗ iprop(Pipeline.unscopedRest (Ix := Unit) (Name := ℕ) (U := UA) (Lvl := ℕ) spec0 c (fun b => Vin m c b) ∗ R c)) : sProp 𝕄)
      ⊢ |={Set.univ}=> iprop(StableHlo.held (c : Thread nD τ) (Pipeline.ucRefs τ sig) (Vout m c) ∗ R c
          ∗ ∃ W, owes (c : Thread nD τ) (0 : CellTallies nD τ sig Unit) W) := by
  iintro ⟨Ha, HO, -, Hrest, HR⟩
  ihave Hh := (exit_arrays (UA := UA) m c) $$ [Ha Hrest]
  · isplitl [Ha]; · iexact Ha
    iexact Hrest
  ihave HO := (of_owesAt (UA := UA) m c (Fin.last cfg0.N)) $$ HO
  imodintro
  isplitl [Hh]; · iexact Hh
  isplitl [HR]; · iexact HR
  iexact HO

set_option backward.isDefEq.respectTransparency.types false in
/-- The kernel region as a segment of the program: entered from every unscoped buffer at `Vin` beside a rest `R` and
    the core owing nothing; left with the buffers at `Vout`, the rest and the core's dues as they were. Nothing but the
    scoped buffers no window stages enters the invariant; the kernel has no semaphore of its own. -/
def reg (L : GSem nD τ sig → Finset Unit) (lv : GSem nD τ sig → Unit → ℕ) (R : Dev nD → sProp 𝕄) :
    Pipeline.RegionSeg (pcfgs (F := F)) adm (pdats (Ix := Unit) (UA := UA) (Lvl := ℕ) m) () defs₀ Variants.none L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (Vin m c) ∗ R c
    ∗ ∃ W, owes (c : Thread nD τ) (0 : CellTallies nD τ sig Unit) W)
  post c := iprop(StableHlo.held (c : Thread nD τ) (Pipeline.ucRefs τ sig) (Vout m c) ∗ R c
    ∗ ∃ W, owes (c : Thread nD τ) (0 : CellTallies nD τ sig Unit) W)
  X _ := BI.emp
  Y _ := BI.emp
  Z c := iprop(Pipeline.unscopedRest (Ix := Unit) (Name := ℕ) (U := UA) (Lvl := ℕ) spec0 c (fun b => Vin m c b) ∗ R c)
  hentry c := reg_hentry (UA := UA) m L lv R c
  hin c := by
    rw [show (pdats (Ix := Unit) (UA := UA) (Lvl := ℕ) m 0 c).Φ 0
      = Pipeline.scopedRest (Ix := Unit) (Name := ℕ) (U := UA) (Lvl := ℕ) (Val := Elt F) spec0 c from rfl]
    iintro ⟨-, -, Hs⟩
    iexact Hs
  hout c := by
    rw [Pipeline.ownSems0_none, show (pdats (Ix := Unit) (UA := UA) (Lvl := ℕ) m 0 c).Φ (Fin.last _)
      = Pipeline.scopedRest (Ix := Unit) (Name := ℕ) (U := UA) (Lvl := ℕ) (Val := Elt F) spec0 c from rfl]
    iintro Hs
    isplitr; · iempintro
    isplitr; · iempintro
    iexact Hs
  hexit c := reg_hexit (UA := UA) m R c

end Cert.KernelIdeal.Hand

end
-- ==== Proof.KRunMain.lean ====
/- THE RUN OF THE PROGRAM. From any memory with all counters zero, every weakly fair execution of the program on the
   TensorCores terminates; in every final memory the result array holds `Vfin m c main_v81` — the launch memory pushed
   through the three host stretches, the kernel region (its two result arrays at what the 64 write-backs leave) and the five
   host stretches — and each of the seven argument arrays holds what it held at launch. It is the run from the region's
   record at the record of the kernel region, whose entry and exit thread states are the ones the run pins. -/
import proofs.«135812_j48799418417343_1_alg».proof.Proof.KRunAlg
import proofs.«135812_j48799418417343_1_alg».proof.Proof.KRegion

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RegionSeg)

variable {F : FTy → Type} [FloatOps F] [Named F]

variable (m : (ℓ : Loc nD τ sig) → Buf (Elt F) ℓ)

/-- Core `c`'s TensorCore buffers at the end: what the region leaves, after the five host stretches that follow it. -/
abbrev Vfin (c : Dev nD) : Valuation τ sig (Elt F) :=
  StableHlo.after hostOps1_4 (StableHlo.after hostOps1_3 (StableHlo.after hostOps1_2 (StableHlo.after hostOps1_1
    (StableHlo.after hostOps1 (Vout m c)))))

theorem run_main (ρ : Dev nD → PrngReg) :
    θ_run (defs (F := F)) (onTc (τ := τ) (main (F := F))) ⟨m, fun _ => 0, ρ⟩ (fun r => ∀ c : Dev nD,
      r.2.mem ((c.tc : Thread nD τ).loc main_v81) = Vfin m c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Run.run_of_region m ρ
    (fun c => (dat (Ix := Unit) (UA := UR sig nD τ) (Lvl := ℕ) m c).arrAt 4 cfg0.N)
    (fun c => (dat (Ix := Unit) (UA := UR sig nD τ) (Lvl := ℕ) m c).arrAt 5 cfg0.N)
    (pdats (Ix := Unit) (UA := UR sig nD τ) (Lvl := ℕ) m)
    (reg m (fun _ => ∅) (fun _ _ => 0) (fun c => iprop(∃ r, prngReg c r))) (fun _ => .rfl) (fun _ => .rfl)

end Cert.KernelIdeal.Hand

end
-- ==== Proof.KRunValsBits.lean ====
/- The contents of a core's unscoped buffers at each boundary between the items of the program (three host stretches, the
   kernel region, five host stretches), as a fold of `StableHlo.after` through the stretches with the region's two output
   arrays replaced by given contents; and the fact that a reference which is the result of no host operation and is not
   one of the two output arrays holds at the end what the memory held at launch (so every argument array is unchanged). -/
import proofs.«135812_j48799418417343_1_alg».proof.Proof.Gen.Kernel.Launch
import Idealize.ShloMosaic.Lib.Pipeline.Frame
import Idealize.ShloMosaic.Lib.Pipeline.Regions

set_option maxRecDepth 1052

noncomputable section

namespace Cert.Kernel.Hand.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

/-! ## What the host stretches write

Each host operation writes exactly one buffer, its result. Per stretch: the list of the result references, that every
operation's written set lies within it, and that no operation allocates. -/

/-- One listed reference, as a device buffer, lies among the listed references' device buffers. -/
theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The results of `hostOps0`, in order. -/
abbrev wr0 : List (Ref sig .tc) := [main_c, main_v0, main_v1, main_c_0, main_v2, main_v3, main_v4, main_v5, main_v6, main_cst, main_v7, main_cst_1, main_v8, main_v9, main_v10, main_cst_2, main_v11, main_v12, main_v13, main_v14, main_v15, main_v16, main_c_3, main_v17, main_v18, main_c_4, main_v19, main_v20, main_v21, main_v22, main_v23, main_v24, main_v25, main_cst_5, main_v26, main_cst_6, main_v27, main_v28, main_v29, main_v30, main_c_7, main_v31, main_v32, main_c_8, main_v33, main_v34, main_v35, main_v36, main_v37, main_cst_9, main_v38, main_cst_10, main_v39]
theorem wr0_covers : (hostOps0 : List (HloOp τ sig (Elt F))).Forall fun op => op.writes ⊆ (wr0.map (Proc.devRef (τ := τ) .tc)).toFinset :=
  ⟨single_sub (y := main_c) (by decide), single_sub (y := main_v0) (by decide), single_sub (y := main_v1) (by decide), single_sub (y := main_c_0) (by decide), single_sub (y := main_v2) (by decide), single_sub (y := main_v3) (by decide), single_sub (y := main_v4) (by decide), single_sub (y := main_v5) (by decide), single_sub (y := main_v6) (by decide), single_sub (y := main_cst) (by decide), single_sub (y := main_v7) (by decide), single_sub (y := main_cst_1) (by decide), single_sub (y := main_v8) (by decide), single_sub (y := main_v9) (by decide), single_sub (y := main_v10) (by decide), single_sub (y := main_cst_2) (by decide), single_sub (y := main_v11) (by decide), single_sub (y := main_v12) (by decide), single_sub (y := main_v13) (by decide), single_sub (y := main_v14) (by decide), single_sub (y := main_v15) (by decide), single_sub (y := main_v16) (by decide), single_sub (y := main_c_3) (by decide), single_sub (y := main_v17) (by decide), single_sub (y := main_v18) (by decide), single_sub (y := main_c_4) (by decide), single_sub (y := main_v19) (by decide), single_sub (y := main_v20) (by decide), single_sub (y := main_v21) (by decide), single_sub (y := main_v22) (by decide), single_sub (y := main_v23) (by decide), single_sub (y := main_v24) (by decide), single_sub (y := main_v25) (by decide), single_sub (y := main_cst_5) (by decide), single_sub (y := main_v26) (by decide), single_sub (y := main_cst_6) (by decide), single_sub (y := main_v27) (by decide), single_sub (y := main_v28) (by decide), single_sub (y := main_v29) (by decide), single_sub (y := main_v30) (by decide), single_sub (y := main_c_7) (by decide), single_sub (y := main_v31) (by decide), single_sub (y := main_v32) (by decide), single_sub (y := main_c_8) (by decide), single_sub (y := main_v33) (by decide), single_sub (y := main_v34) (by decide), single_sub (y := main_v35) (by decide), single_sub (y := main_v36) (by decide), single_sub (y := main_v37) (by decide), single_sub (y := main_cst_9) (by decide), single_sub (y := main_v38) (by decide), single_sub (y := main_cst_10) (by decide), single_sub (y := main_v39) (by decide)⟩
theorem wr0_noalloc : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The results of `hostOps0_1`, in order. -/
abbrev wr0_1 : List (Ref sig .tc) := [main_call0_v0, main_call0_cst, main_call0_v1, main_call0_v2, main_v40]
theorem wr0_1_covers : (hostOps0_1 : List (HloOp τ sig (Elt F))).Forall fun op => op.writes ⊆ (wr0_1.map (Proc.devRef (τ := τ) .tc)).toFinset :=
  ⟨single_sub (y := main_call0_v0) (by decide), single_sub (y := main_call0_cst) (by decide), single_sub (y := main_call0_v1) (by decide), single_sub (y := main_call0_v2) (by decide), single_sub (y := main_v40) (by decide)⟩
theorem wr0_1_noalloc : (hostOps0_1 : List (HloOp τ sig (Elt F))).Forall fun op => op.fresh = ∅ :=
  ⟨rfl, rfl, rfl, rfl, rfl⟩

/-- The results of `hostOps0_2`, in order. -/
abbrev wr0_2 : List (Ref sig .tc) := [main_v41, main_v42, main_v43, main_v44]
theorem wr0_2_covers : (hostOps0_2 : List (HloOp τ sig (Elt F))).Forall fun op => op.writes ⊆ (wr0_2.map (Proc.devRef (τ := τ) .tc)).toFinset :=
  ⟨single_sub (y := main_v41) (by decide), single_sub (y := main_v42) (by decide), single_sub (y := main_v43) (by decide), single_sub (y := main_v44) (by decide)⟩
theorem wr0_2_noalloc : (hostOps0_2 : List (HloOp τ sig (Elt F))).Forall fun op => op.fresh = ∅ :=
  ⟨rfl, rfl, rfl, rfl⟩

/-- The results of `hostOps1`, in order. -/
abbrev wr1 : List (Ref sig .tc) := [main_cst_11, main_v46, main_cst_12, main_v47, main_cst_13, main_v48, main_v49, main_c_14, main_v50, main_v51, main_c_15, main_v52, main_v53, main_v54, main_v55, main_v56, main_c_16, main_v57, main_v58, main_c_17, main_v59, main_v60, main_v61, main_v62, main_v63, main_v64]
theorem wr1_covers : (hostOps1 : List (HloOp τ sig (Elt F))).Forall fun op => op.writes ⊆ (wr1.map (Proc.devRef (τ := τ) .tc)).toFinset :=
  ⟨single_sub (y := main_cst_11) (by decide), single_sub (y := main_v46) (by decide), single_sub (y := main_cst_12) (by decide), single_sub (y := main_v47) (by decide), single_sub (y := main_cst_13) (by decide), single_sub (y := main_v48) (by decide), single_sub (y := main_v49) (by decide), single_sub (y := main_c_14) (by decide), single_sub (y := main_v50) (by decide), single_sub (y := main_v51) (by decide), single_sub (y := main_c_15) (by decide), single_sub (y := main_v52) (by decide), single_sub (y := main_v53) (by decide), single_sub (y := main_v54) (by decide), single_sub (y := main_v55) (by decide), single_sub (y := main_v56) (by decide), single_sub (y := main_c_16) (by decide), single_sub (y := main_v57) (by decide), single_sub (y := main_v58) (by decide), single_sub (y := main_c_17) (by decide), single_sub (y := main_v59) (by decide), single_sub (y := main_v60) (by decide), single_sub (y := main_v61) (by decide), single_sub (y := main_v62) (by decide), single_sub (y := main_v63) (by decide), single_sub (y := main_v64) (by decide)⟩
theorem wr1_noalloc : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

/-- The results of `hostOps1_1`, in order. -/
abbrev wr1_1 : List (Ref sig .tc) := [main_call1_v0, main_call1_cst, main_call1_v1, main_v65]
theorem wr1_1_covers : (hostOps1_1 : List (HloOp τ sig (Elt F))).Forall fun op => op.writes ⊆ (wr1_1.map (Proc.devRef (τ := τ) .tc)).toFinset :=
  ⟨single_sub (y := main_call1_v0) (by decide), single_sub (y := main_call1_cst) (by decide), single_sub (y := main_call1_v1) (by decide), single_sub (y := main_v65) (by decide)⟩
theorem wr1_1_noalloc : (hostOps1_1 : List (HloOp τ sig (Elt F))).Forall fun op => op.fresh = ∅ :=
  ⟨rfl, rfl, rfl, rfl⟩

/-- The results of `hostOps1_2`, in order. -/
abbrev wr1_2 : List (Ref sig .tc) := [main_cst_18, main_v66, main_v67]
theorem wr1_2_covers : (hostOps1_2 : List (HloOp τ sig (Elt F))).Forall fun op => op.writes ⊆ (wr1_2.map (Proc.devRef (τ := τ) .tc)).toFinset :=
  ⟨single_sub (y := main_cst_18) (by decide), single_sub (y := main_v66) (by decide), single_sub (y := main_v67) (by decide)⟩
theorem wr1_2_noalloc : (hostOps1_2 : List (HloOp τ sig (Elt F))).Forall fun op => op.fresh = ∅ :=
  ⟨rfl, rfl, rfl⟩

/-- The results of `hostOps1_3`, in order. -/
abbrev wr1_3 : List (Ref sig .tc) := [main_call2_cst, main_call2_v0, main_v68]
theorem wr1_3_covers : (hostOps1_3 : List (HloOp τ sig (Elt F))).Forall fun op => op.writes ⊆ (wr1_3.map (Proc.devRef (τ := τ) .tc)).toFinset :=
  ⟨single_sub (y := main_call2_cst) (by decide), single_sub (y := main_call2_v0) (by decide), single_sub (y := main_v68) (by decide)⟩
theorem wr1_3_noalloc : (hostOps1_3 : List (HloOp τ sig (Elt F))).Forall fun op => op.fresh = ∅ :=
  ⟨rfl, rfl, rfl⟩

/-- The results of `hostOps1_4`, in order. -/
abbrev wr1_4 : List (Ref sig .tc) := [main_v69, main_cst_19, main_v70, main_cst_20, main_v71, main_cst_21, main_v72, main_cst_22, main_v73, main_v74, main_cst_23, main_v75, main_v76, main_v77, main_v78, main_v79, main_v80, main_v81]
theorem wr1_4_covers : (hostOps1_4 : List (HloOp τ sig (Elt F))).Forall fun op => op.writes ⊆ (wr1_4.map (Proc.devRef (τ := τ) .tc)).toFinset :=
  ⟨single_sub (y := main_v69) (by decide), single_sub (y := main_cst_19) (by decide), single_sub (y := main_v70) (by decide), single_sub (y := main_cst_20) (by decide), single_sub (y := main_v71) (by decide), single_sub (y := main_cst_21) (by decide), single_sub (y := main_v72) (by decide), single_sub (y := main_cst_22) (by decide), single_sub (y := main_v73) (by decide), single_sub (y := main_v74) (by decide), single_sub (y := main_cst_23) (by decide), single_sub (y := main_v75) (by decide), single_sub (y := main_v76) (by decide), single_sub (y := main_v77) (by decide), single_sub (y := main_v78) (by decide), single_sub (y := main_v79) (by decide), single_sub (y := main_v80) (by decide), single_sub (y := main_v81) (by decide)⟩
theorem wr1_4_noalloc : (hostOps1_4 : List (HloOp τ sig (Elt F))).Forall fun op => op.fresh = ∅ :=
  ⟨rfl, rfl, rfl, rfl, rfl, rfl, rfl, rfl, rfl, rfl, rfl, rfl, rfl, rfl, rfl, rfl, rfl, rfl⟩

/-! ## The buffers' contents between the items

Core `c`'s unscoped buffers hold: at launch the memory's; after each host stretch what `StableHlo.after` computes from
the contents before it; after the kernel region the contents before it except in the two output arrays, which hold the
region's results (left as parameters `outs0`, `outs1` here). -/

variable (m : (ℓ : Loc nD τ sig) → Buf (Elt F) ℓ)
variable (outs0 : (c : Dev nD) → Buf (Elt F) ((c : Thread nD τ).loc main_v45_0))
variable (outs1 : (c : Dev nD) → Buf (Elt F) ((c : Thread nD τ).loc main_v45_1))

/-- at launch -/
abbrev V0 (c : Dev nD) : Valuation τ sig (Elt F) := fun b => m (c, b)
/-- after `hostOps0` -/
abbrev V1 (c : Dev nD) : Valuation τ sig (Elt F) := StableHlo.after hostOps0 (V0 m c)
/-- after `hostOps0_1` -/
abbrev V2 (c : Dev nD) : Valuation τ sig (Elt F) := StableHlo.after hostOps0_1 (V1 m c)
/-- after `hostOps0_2`: what the kernel region is entered with -/
abbrev V3 (c : Dev nD) : Valuation τ sig (Elt F) := StableHlo.after hostOps0_2 (V2 m c)
/-- after the kernel region: the two output arrays replaced -/
abbrev V4 (c : Dev nD) : Valuation τ sig (Elt F) :=
  Function.update (Function.update (V3 m c) main_v45_0 (outs0 c)) main_v45_1 (outs1 c)
/-- after `hostOps1` -/
abbrev V5 (c : Dev nD) : Valuation τ sig (Elt F) := StableHlo.after hostOps1 (V4 m outs0 outs1 c)
/-- after `hostOps1_1` -/
abbrev V6 (c : Dev nD) : Valuation τ sig (Elt F) := StableHlo.after hostOps1_1 (V5 m outs0 outs1 c)
/-- after `hostOps1_2` -/
abbrev V7 (c : Dev nD) : Valuation τ sig (Elt F) := StableHlo.after hostOps1_2 (V6 m outs0 outs1 c)
/-- after `hostOps1_3` -/
abbrev V8 (c : Dev nD) : Valuation τ sig (Elt F) := StableHlo.after hostOps1_3 (V7 m outs0 outs1 c)
/-- after `hostOps1_4`: the end -/
abbrev V9 (c : Dev nD) : Valuation τ sig (Elt F) := StableHlo.after hostOps1_4 (V8 m outs0 outs1 c)

/-! ## A reference nothing writes keeps its launch contents -/

/-- Every reference some item may change: the host stretches' results and the region's two output arrays. -/
abbrev touched : List (Ref sig .tc) :=
  wr0 ++ wr0_1 ++ wr0_2 ++ [main_v45_0, main_v45_1] ++ wr1 ++ wr1_1 ++ wr1_2 ++ wr1_3 ++ wr1_4

/-- The region's replacement of the two output arrays leaves every other reference alone. -/
theorem V4_other (c : Dev nD) (r : Ref sig .tc) (h0 : r ≠ main_v45_0) (h1 : r ≠ main_v45_1) :
    V4 m outs0 outs1 c r = V3 m c r := by
  show Function.update (Function.update (V3 m c) (Proc.devRef .tc main_v45_0) (outs0 c)) (Proc.devRef .tc main_v45_1) (outs1 c) (Proc.devRef .tc r) = _
  rw [Function.update_of_ne (StableHlo.devRef_ne_of_ne h1), Function.update_of_ne (StableHlo.devRef_ne_of_ne h0)]

/-- A reference no item may change holds at the end what the memory held at launch. -/
theorem V9_untouched (c : Dev nD) (r : Ref sig .tc) (h : r ∉ touched) :
    V9 m outs0 outs1 c r = m ((c : Thread nD τ).loc r) := by
  simp only [touched, List.mem_append, not_or] at h
  obtain ⟨⟨⟨⟨⟨⟨⟨⟨h0, h01⟩, h02⟩, hout⟩, h1⟩, h11⟩, h12⟩, h13⟩, h14⟩ := h
  have ho0 : r ≠ main_v45_0 := fun e => hout (e ▸ List.mem_cons_self)
  have ho1 : r ≠ main_v45_1 := fun e => hout (e ▸ List.mem_cons_of_mem _ List.mem_cons_self)
  calc V9 m outs0 outs1 c r
      = V8 m outs0 outs1 c r := StableHlo.after_of_writes_sub hostOps1_4 _ wr1_4_covers h14
    _ = V7 m outs0 outs1 c r := StableHlo.after_of_writes_sub hostOps1_3 _ wr1_3_covers h13
    _ = V6 m outs0 outs1 c r := StableHlo.after_of_writes_sub hostOps1_2 _ wr1_2_covers h12
    _ = V5 m outs0 outs1 c r := StableHlo.after_of_writes_sub hostOps1_1 _ wr1_1_covers h11
    _ = V4 m outs0 outs1 c r := StableHlo.after_of_writes_sub hostOps1 _ wr1_covers h1
    _ = V3 m c r := V4_other m outs0 outs1 c r ho0 ho1
    _ = V2 m c r := StableHlo.after_of_writes_sub hostOps0_2 _ wr0_2_covers h02
    _ = V1 m c r := StableHlo.after_of_writes_sub hostOps0_1 _ wr0_1_covers h01
    _ = V0 m c r := StableHlo.after_of_writes_sub hostOps0 _ wr0_covers h0
    _ = m ((c : Thread nD τ).loc r) := rfl

end Cert.Kernel.Hand.Run

end
-- ==== Proof.KRunBits.lean ====
/- The run of the whole program, conditional on a record of its one kernel region. The program is a chain of nine items:
   three host stretches, the kernel region, five host stretches. Each host stretch runs over the core's unscoped buffers held
   whole at the contents of `KRunValsBits`; the region is entered from the contents after the third stretch and left with its two
   output arrays replaced. From the segment record of the region (with its entry and exit thread states pinned to those
   contents) the library's theorem on programs of host stretches and kernel regions gives: every weakly fair execution
   terminates, the result array ends holding the last contents, and every argument array ends as launched. -/
import proofs.«135812_j48799418417343_1_alg».proof.Proof.KRunValsBits
import Idealize.ShloMosaic.Lib.Pipeline.Frame
import Idealize.ShloMosaic.Lib.Pipeline.Regions

noncomputable section

namespace Cert.Kernel.Hand.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

/-- No pallas_call of this program has a prefetched table: the only admissible table contents. -/
abbrev adm : (p : Fin 1) → (pcfgs (F := F) p).Adm := fun p => (cfgs p).toPCfg_adm

/-! ## The items as segments -/

section Segs

variable {Ix : Type} [DecidableEq Ix] {UA : Type} [URA UA] {Lvl : Type} [Preorder Lvl]
variable (𝒱₀ : Variants) (L : GSem nD τ sig → Finset Ix) (lv : GSem nD τ sig → Ix → Lvl)

/-- A host stretch as a segment: a line of operations over the core's unscoped buffers held whole at the contents `V c`,
    a rest `R c` untouched beside them; it ends with the buffers at `StableHlo.after ops (V c)` beside the same rest. -/
abbrev stretch (ops : List (HloOp τ sig (Elt F))) (hsub : ops.Forall fun op => op.bufs ⊆ StableHlo.tcRefs τ sig)
    (hna : ops.Forall fun op => op.fresh = ∅) (V : Dev nD → Valuation τ sig (Elt F))
    (R : Dev nD → sProp (MT nD τ sig Ix (Elt F) ℕ UA Lvl)) :
    HostSeg (Ix := Ix) (Name := ℕ) (U := UA) (Lvl := Lvl) (pcfgs (F := F)) defs₀ 𝒱₀ L lv :=
  HostSeg.ofOps _ _ _ _ _ (Pipeline.ucRefs τ sig) ops
    (fun op h => Pipeline.sub_ucRefs op (List.forall_iff_forall_mem.mp hsub op h))
    (List.forall_iff_forall_mem.mp hna) V R

variable (m : (ℓ : Loc nD τ sig) → Buf (Elt F) ℓ)
variable (outs0 : (c : Dev nD) → Buf (Elt F) ((c : Thread nD τ).loc main_v45_0))
variable (outs1 : (c : Dev nD) → Buf (Elt F) ((c : Thread nD τ).loc main_v45_1))

/-- The program's nine items in order (the same on every core): three host stretches from the launch contents, the kernel
    region (a given record), five host stretches from the contents the region leaves. The rest beside the buffers is
    `E 0` up to the region and `E 1` after it. -/
abbrev items (E : Fin 2 → Dev nD → sProp (MT nD τ sig Ix (Elt F) ℕ UA Lvl)) (ι : Ix)
    (pdats : (p : Fin 1) → (c : Dev nD) → Dat τ (Elt F) Ix ℕ UA Lvl (cfgs p) c)
    (R0 : RegionSeg (pcfgs (F := F)) adm pdats ι defs₀ 𝒱₀ L lv 0) (c : Dev nD) :
    List (Seg (pcfgs (F := F)) adm pdats ι defs₀ 𝒱₀ L lv) :=
  [ .host (stretch 𝒱₀ L lv hostOps0 hostOps0_sub wr0_noalloc (V0 m) (E 0)),
    .host (stretch 𝒱₀ L lv hostOps0_1 hostOps0_1_sub wr0_1_noalloc (V1 m) (E 0)),
    .host (stretch 𝒱₀ L lv hostOps0_2 hostOps0_2_sub wr0_2_noalloc (V2 m) (E 0)),
    .region R0,
    .host (stretch 𝒱₀ L lv hostOps1 hostOps1_sub wr1_noalloc (V4 m outs0 outs1) (E 1)),
    .host (stretch 𝒱₀ L lv hostOps1_1 hostOps1_1_sub wr1_1_noalloc (V5 m outs0 outs1) (E 1)),
    .host (stretch 𝒱₀ L lv hostOps1_2 hostOps1_2_sub wr1_2_noalloc (V6 m outs0 outs1) (E 1)),
    .host (stretch 𝒱₀ L lv hostOps1_3 hostOps1_3_sub wr1_3_noalloc (V7 m outs0 outs1) (E 1)),
    .host (stretch 𝒱₀ L lv hostOps1_4 hostOps1_4_sub wr1_4_noalloc (V8 m outs0 outs1) (E 1)) ]

end Segs

/-! ## The first and the last thread state -/

section Ends

variable {Ix : Type} [DecidableEq Ix] {UA : Type} [URA UA] {Lvl : Type} [Preorder Lvl]
variable (m : (ℓ : Loc nD τ sig) → Buf (Elt F) ℓ)

/-- An unscoped TensorCore reference is one of the buffers the thread state holds. -/
theorem mem_held (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- THE LAUNCH. On every core the unscoped buffers the launch deals are the held set at the launch contents; if the rest
    of what the launch deals makes `E0` on every core at once, the whole makes every core's first thread state. -/
theorem launch_state (ρ : Dev nD → PrngReg) (L : GSem nD τ sig → Finset Ix) (lv : GSem nD τ sig → Ix → Lvl)
    (O₀ : Dev nD → CellTallies nD τ sig Ix) (G E0 : Dev nD → sProp (MT nD τ sig Ix (Elt F) ℕ UA Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ E0 : sProp (MT nD τ sig Ix (Elt F) ℕ UA Lvl))) :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ fun c : Dev nD =>
          iprop(StableHlo.held (c : Thread nD τ) (Pipeline.ucRefs τ sig) (V0 m c) ∗ E0 c) : sProp (MT nD τ sig Ix (Elt F) ℕ UA Lvl)) := by
  have hbufs : ∀ c : Dev nD,
      (unscopedBufs c (fun b => m ((c.tc : Thread nD τ).loc b)) : sProp (MT nD τ sig Ix (Elt F) ℕ UA Lvl))
        = StableHlo.held (c : Thread nD τ) (Pipeline.ucRefs τ sig) (V0 m c) :=
    fun c => Pipeline.unscopedBufs_held (Ix := Ix) (Name := ℕ) (U := UA) (Lvl := Lvl) c (V0 m c)
  simp only [hbufs]
  rw [bigSep_sep' Finset.univ (fun c : Dev nD => StableHlo.held (c : Thread nD τ) (Pipeline.ucRefs τ sig) (V0 m c)) E0,
    bigSep_sep' Finset.univ (fun c : Dev nD => StableHlo.held (c : Thread nD τ) (Pipeline.ucRefs τ sig) (V0 m c))]
  iintro ⟨⟨Hheld, Hrest⟩, Hlev⟩
  imod hE0 $$ [Hrest Hlev] with HE
  · isplitl [Hrest]
    · iexact Hrest
    · iexact Hlev
  imodintro
  isplitl [Hheld]
  · iexact Hheld
  · iexact HE

variable (outs0 : (c : Dev nD) → Buf (Elt F) ((c : Thread nD τ).loc main_v45_0))
variable (outs1 : (c : Dev nD) → Buf (Elt F) ((c : Thread nD τ).loc main_v45_1))

/-- THE END. The buffers held at the last contents, read against a final state: the result array holds the last contents,
    each argument array the launch contents (nothing writes an argument). -/
theorem final_read (c : Dev nD) (s' : Phys nD τ sig (Elt F)) :
    iprop(StableHlo.held (c : Thread nD τ) (Pipeline.ucRefs τ sig) (V9 m outs0 outs1 c) ∗ SI s')
      ⊢ (|={Set.univ}=> iprop(⌜s'.mem.mem ((c.tc : Thread nD τ).loc main_v81) = V9 m outs0 outs1 c main_v81
          ∧ s'.mem.mem ((c.tc : Thread nD τ).loc main_arg0) = m ((c.tc : Thread nD τ).loc main_arg0)
          ∧ s'.mem.mem ((c.tc : Thread nD τ).loc main_arg1) = m ((c.tc : Thread nD τ).loc main_arg1)
          ∧ s'.mem.mem ((c.tc : Thread nD τ).loc main_arg2) = m ((c.tc : Thread nD τ).loc main_arg2)
          ∧ s'.mem.mem ((c.tc : Thread nD τ).loc main_arg3) = m ((c.tc : Thread nD τ).loc main_arg3)
          ∧ s'.mem.mem ((c.tc : Thread nD τ).loc main_arg4) = m ((c.tc : Thread nD τ).loc main_arg4)
          ∧ s'.mem.mem ((c.tc : Thread nD τ).loc main_arg5) = m ((c.tc : Thread nD τ).loc main_arg5)
          ∧ s'.mem.mem ((c.tc : Thread nD τ).loc main_arg6) = m ((c.tc : Thread nD τ).loc main_arg6)⌝ ∗ SI s')
        : sProp (MT nD τ sig Ix (Elt F) ℕ UA Lvl)) := by
  have hread := pointsTo_read_all (Ix := Ix) (Name := ℕ) (U := UA) (Lvl := Lvl) (Pipeline.ucRefs τ sig)
    (fun b => ((c : Thread nD τ).1, b)) (V9 m outs0 outs1 c) s'
  refine BIBase.Entails.trans (show _ ⊢ _ from hread) ?_
  iintro ⟨%h, HSI⟩
  imodintro
  isplitr
  · ipureintro
    exact ⟨h _ (mem_held main_v81 (by decide)),
      (h _ (mem_held main_arg0 (by decide))).trans (V9_untouched m outs0 outs1 c main_arg0 (by decide)),
      (h _ (mem_held main_arg1 (by decide))).trans (V9_untouched m outs0 outs1 c main_arg1 (by decide)),
      (h _ (mem_held main_arg2 (by decide))).trans (V9_untouched m outs0 outs1 c main_arg2 (by decide)),
      (h _ (mem_held main_arg3 (by decide))).trans (V9_untouched m outs0 outs1 c main_arg3 (by decide)),
      (h _ (mem_held main_arg4 (by decide))).trans (V9_untouched m outs0 outs1 c main_arg4 (by decide)),
      (h _ (mem_held main_arg5 (by decide))).trans (V9_untouched m outs0 outs1 c main_arg5 (by decide)),
      (h _ (mem_held main_arg6 (by decide))).trans (V9_untouched m outs0 outs1 c main_arg6 (by decide))⟩
  · iexact HSI

end Ends

/-! ## The run, given the region's record -/

-- the kit theorem's implicit arguments are found by unifying its conclusion with this statement's, which needs plain
-- definitions unfolded inside a metavariable's type
set_option backward.isDefEq.respectTransparency.types false in
/-- THE RUN, CONDITIONALLY. For any user algebra, levels, launch dues and ghost resources, any rests `E 0`, `E 1` such that
    the launch makes `E 0` on every core at once and `E 1` ends owing nothing, and any contents `outs0`, `outs1`: GIVEN a
    record of the kernel region entered from the buffers at `V3 m c` beside `E 0 c` and left with them at
    `V4 m outs0 outs1 c` beside `E 1 c`, every weakly fair execution of the program from memory `m` with all counters zero
    terminates, and in every final memory the result array holds `V9 m outs0 outs1 c main_v81` and each of the seven
    argument arrays holds what it held at launch. -/
theorem run_cond {Ix : Type} [DecidableEq Ix] {UA : Type} [URA UA] {Lvl : Type} [Preorder Lvl]
    (EP : Emb (URounds (GSem nD τ sig) Unit) (MT nD τ sig Ix (Elt F) ℕ UA Lvl)) [EP.LandsIn (upEmb : UEmb _ (MT nD τ sig Ix (Elt F) ℕ UA Lvl))]
    (ι : Ix) (𝒱₀ : Variants) (L : GSem nD τ sig → Finset Ix) (lv : GSem nD τ sig → Ix → Lvl)
    (hL : ∀ g : GSem nD τ sig, g.1.2 ≠ .tc → L g = ∅)
    (m : (ℓ : Loc nD τ sig) → Buf (Elt F) ℓ) (ρ : Dev nD → PrngReg)
    (outs0 : (c : Dev nD) → Buf (Elt F) ((c : Thread nD τ).loc main_v45_0))
    (outs1 : (c : Dev nD) → Buf (Elt F) ((c : Thread nD τ).loc main_v45_1))
    (pdats : (p : Fin 1) → (c : Dev nD) → Dat τ (Elt F) Ix ℕ UA Lvl (cfgs p) c)
    (O₀ : Dev nD → CellTallies nD τ sig Ix) (G : Dev nD → sProp (MT nD τ sig Ix (Elt F) ℕ UA Lvl)) (u₀ : UA)
    (hu₀ : (ownU u₀ : sProp (MT nD τ sig Ix (Elt F) ℕ UA Lvl)) ⊢ |={Set.univ}=> iprop(BI.own (EP (initOf (Pipeline.cells cfgs cellOf_inj) (Pipeline.launchToks cfgs cellOf_inj))) ∗ bigSep Finset.univ G))
    (E : Fin 2 → Dev nD → sProp (MT nD τ sig Ix (Elt F) ℕ UA Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ UA Lvl)))
    (hE1 : ∀ c : Dev nD, E 1 c ⊢ (iprop(∃ W, owes (c : Thread nD τ) (0 : CellTallies nD τ sig Ix) W) : sProp (MT nD τ sig Ix (Elt F) ℕ UA Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs0 outs1 c) ∗ E 1 c)) :
    θ_run defs (onTc (τ := τ) (main (F := F))) ⟨m, fun _ => 0, ρ⟩ (fun r => ∀ c : Dev nD,
      r.2.mem ((c.tc : Thread nD τ).loc main_v81) = V9 m outs0 outs1 c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm pdats ι cellOf_inj EP defs₀ 𝒱₀ L lv m ρ main
    (items 𝒱₀ L lv m outs0 outs1 E ι pdats R0) ?hmain ?hnd O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V9 m outs0 outs1 c))
    (hch := ?hch) (hinit := launch_state m ρ L lv O₀ G (E 0) hE0)
    (QY := fun c s => s.mem ((c.tc : Thread nD τ).loc main_v81) = V9 m outs0 outs1 c main_v81
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6))
    (hfin := fun c s' => final_read m outs0 outs1 c s') (hQ := fun _ h => h)
  case hmain =>
    -- the program is the chain of its nine items, and so is the run of the nine segments
    intro c Q
    rw [main_chain c, Seg.run_eq_chain]
    exact .rfl
  case hnd =>
    -- one region, entered once
    intro c
    exact List.nodup_singleton (0 : Fin 1)
  case hch =>
    -- a stretch ends where the next begins; the region is entered and left by hypothesis; the last rest owes nothing
    intro c
    exact ⟨.rfl, .rfl, .rfl, hpre0 c, hpost0 c, .rfl, .rfl, .rfl, .rfl, sep_mono .rfl (hE1 c)⟩

end Cert.Kernel.Hand.Run

end
-- ==== Proof.KRunAlgBits.lean ====
/- The run of the whole program from a record of its kernel region, with the proof's resource algebra fixed: the
   one-component algebra of the pipeline library's rounds, no levels, nothing owed at launch, no ghost resources. What stays
   beside the buffers is the core's generator register and its empty dues; the launch makes that state on each core. -/
import proofs.«135812_j48799418417343_1_alg».proof.Proof.KRunBits
import Idealize.ShloMosaic.Lib.Pipeline.Kit

noncomputable section

namespace Cert.Kernel.Hand.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

/-! ## The algebra fixed, the launch discharged -/

/-- What stays beside the buffers through every item: the core's generator register at some state, and the core owing
    nothing. -/
abbrev rest (c : Dev nD) : sProp (MT nD τ sig Unit (Elt F) ℕ (UR sig nD τ) ℕ) :=
  iprop((∃ r, prngReg c r) ∗ ∃ W, owes (c : Thread nD τ) (0 : CellTallies nD τ sig Unit) W)

/-- THE RUN FROM THE REGION'S RECORD. Over the one-component algebra of the pipeline library's rounds, with no levels, no
    dues at launch and no ghost resources: a record of the kernel region entered from the buffers at `V3 m c` beside
    `rest c` and left with them at `V4 m outs0 outs1 c` beside `rest c` gives the run of the whole program. The launch
    makes `rest` on each core from the generator register and the empty dues it deals. -/
theorem run_of_region (m : (ℓ : Loc nD τ sig) → Buf (Elt F) ℓ) (ρ : Dev nD → PrngReg)
    (outs0 : (c : Dev nD) → Buf (Elt F) ((c : Thread nD τ).loc main_v45_0))
    (outs1 : (c : Dev nD) → Buf (Elt F) ((c : Thread nD τ).loc main_v45_1))
    (pdats : (p : Fin 1) → (c : Dev nD) → Dat τ (Elt F) Unit ℕ (UR sig nD τ) ℕ (cfgs p) c)
    (R0 : RegionSeg (pcfgs (F := F)) adm pdats () defs₀ Variants.none (fun _ => ∅) (fun _ _ => 0) 0)
    (hpre0 : ∀ c : Dev nD, iprop(StableHlo.held (c : Thread nD τ) (Pipeline.ucRefs τ sig) (V3 m c) ∗ rest c) ⊢ R0.pre c)
    (hpost0 : ∀ c : Dev nD, R0.post c ⊢ iprop(StableHlo.held (c : Thread nD τ) (Pipeline.ucRefs τ sig) (V4 m outs0 outs1 c) ∗ rest c)) :
    θ_run defs (onTc (τ := τ) (main (F := F))) ⟨m, fun _ => 0, ρ⟩ (fun r => ∀ c : Dev nD,
      r.2.mem ((c.tc : Thread nD τ).loc main_v81) = V9 m outs0 outs1 c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine run_cond (Ix := Unit) (UA := UR sig nD τ) (Lvl := ℕ) emb₁ () Variants.none (fun _ => ∅) (fun _ _ => 0)
    (fun _ _ => rfl) m ρ outs0 outs1 pdats (fun _ => 0) (fun _ => (BI.emp : sProp (MT nD τ sig Unit (Elt F) ℕ (UR sig nD τ) ℕ)))
    (initOf (Pipeline.cells cfgs cellOf_inj) (Pipeline.launchToks cfgs cellOf_inj))
    ?hu (fun _ => rest) ?hE0 ?hE1 R0 hpre0 hpost0
  case hu =>
    -- the launch element is the pipeline library's own; there is no ghost resource to make
    rw [BI.bigSep_emp_const, ownU_emb₁]
    iintro Hu
    imodintro
    isplitl [Hu]
    · iexact Hu
    · iempintro
  case hE0 =>
    -- core by core: the register is at the launch state, the dues are none
    refine Pipeline.initEach (fun _ => ∅) (fun _ _ => 0) fun c => ?_
    iintro ⟨⟨-, Howes, -, Hprng, -⟩, -⟩
    imodintro
    isplitl [Hprng]
    · iexists _; iexact Hprng
    · iexists ∅; iexact Howes
  case hE1 =>
    intro c
    iintro ⟨-, Howes⟩
    iexact Howes

end Cert.Kernel.Hand.Run

end
-- ==== Proof.KPayBits.lean ====
/-
  The two values the word-level kernel body stores at a grid point, as functions of the four blocks it reads: the
  per-row loss term (the negated log-ratio where the row has a positive, zero elsewhere) and the per-row indicator
  "this row has a positive" as a float. Both are the generated payloads composed; nothing is proved here.
-/
import proofs.«135812_j48799418417343_1_alg».proof.Proof.Gen.Kernel.Skeleton

noncomputable section

namespace Cert.Kernel.Hand

open Idealize.ShloMosaic Idealize.SL.Sem
open Cert.Kernel Cert.Kernel.Gen

variable {F : FTy → Type} [FloatOps F]

/-- The loss column stored for the rows of grid point `i`: from the row block `f0`, the whole table `f1`, the
    row block's labels `f2` and all labels `f3`. -/
def outLoss (i : grid0.Coords) (f0 : Vec F S128x256 .bf16) (f1 : Vec F S8192x256 .bf16) (f2 : Vec F S1x128 .i32)
    (f3 : Vec F S1x8192 .i32) : FVec F S128x1 .f32 :=
  Gen.k0_pay2 (Gen.k0_pay5 i f2 f3) (Gen.k0_pay6 i f0 f1 f2 f3)

/-- The indicator column stored for the rows of grid point `i`: whether each row has another row with its label. -/
def outHas (i : grid0.Coords) (f2 : Vec F S1x128 .i32) (f3 : Vec F S1x8192 .i32) : FVec F S128x1 .f32 :=
  Gen.k0_pay3 (F := F) (Gen.k0_pay5 i f2 f3)

end Cert.Kernel.Hand

end
-- ==== Proof.KDataBits.lean ====
/-
  The proof data of the program's one kernel region (pipeline 0: a grid of 64 points over six windows).

  When the region is entered, core `c`'s buffers hold `Vin m c`: the launch memory `m` after the three host
  stretches that precede the call. Windows 0 and 1 read one array (the normalised table, in rows of 128 and whole),
  windows 2 and 3 read one array (the labels, in columns of 128 and whole), windows 4 and 5 are the two result
  columns, written back in rows of 128 at every point.

  `dat m c` says: the arrays start at `Vin m c`; after the body at point `t` every input's staging buffer still
  holds the block it was handed (`iblk`), result 4's holds `outLoss` of the four input blocks and result 5's holds
  `outHas` of the two label blocks; the invariant is the core's scoped buffers no window stages; nothing is owed.
  The two windows on one array hold it at the two halves of the full share.

  Proved here: what every input's staging buffer holds when the body runs at a point is the window's block there,
  whether the pipeline fetched it at that point or at an earlier one (`before_in`).
-/
import proofs.«135812_j48799418417343_1_alg».proof.Proof.Gen.Kernel.Launch
import proofs.«135812_j48799418417343_1_alg».proof.Proof.Gen.Kernel.Points
import proofs.«135812_j48799418417343_1_alg».proof.Proof.KPayBits
import Idealize.ShloMosaic.Lib.Pipeline.FrameBody
import Idealize.ShloMosaic.Lib.Pipeline.Frame
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-- No pipeline of this program has a prefetched table. -/
abbrev adm : (p : Fin 1) → (pcfgs (F := F) p).Adm := fun p => (cfgs p).toPCfg_adm

variable (m : (ℓ : Loc nD τ sig) → Buf (Elt F) ℓ)

/-- Core `c`'s TensorCore buffers when the region is entered: the launch memory after the three host stretches. -/
abbrev Vin (c : Dev nD) : Valuation τ sig (Elt F) :=
  StableHlo.after hostOps0_2 (StableHlo.after hostOps0_1 (StableHlo.after hostOps0 (fun b => m (c, b))))

/-- Window `w`'s block at point `t`, read off its array as the region finds it. -/
abbrev iblk (c : Dev nD) (w : Fin cfg0.W) (t : Fin cfg0.N) : ((cfg0.win w).xblock (cfg0.grid.coords t)).Idx → Elt F (cfg0.win w).elt :=
  ((cfg0.win w).blk t).view.read (Elt F) (Vin m c (Pipeline.arrRef spec0 w))

section Data

variable {Ix : Type} [DecidableEq Ix] {UA : Type} [URA UA] {Lvl : Type} [Preorder Lvl]

/-- The proof data of the region on core `c`. -/
def dat (c : Dev nD) : Dat τ (Elt F) Ix ℕ UA Lvl cfg0 c where
  A w := Vin m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outLoss (grid0.coords t) (iblk m c 0 t) (iblk m c 1 t) (iblk m c 2 t) (iblk m c 3 t)
    | ⟨5, _⟩ => outHas (grid0.coords t) (iblk m c 2 t) (iblk m c 3 t)
    | ⟨_ + 6, h⟩ => absurd h (Nat.not_lt.2 (Nat.le_add_left _ _))
  Φ _ := Pipeline.scopedRest (Ix := Ix) (Name := ℕ) (U := UA) (Lvl := Lvl) (Val := Elt F) spec0 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
    | ⟨_ + 6, h⟩ => absurd h (Nat.not_lt.2 (Nat.le_add_left _ _))
  owed _ := 0

/-- The one pipeline's proof data, as the family the region kit takes. -/
def pdats : (p : Fin 1) → (c : Dev nD) → Dat τ (Elt F) Ix ℕ UA Lvl (cfgs p) c
  | ⟨0, _⟩ => fun c => dat m c

local notation "𝔇" => dat (Ix := Ix) (UA := UA) (Lvl := Lvl) m

/-! ## The proof data's fields, projected -/

theorem A_eq (c : Dev nD) (w : Fin cfg0.W) : (𝔇 c).A w = Vin m c (Pipeline.arrRef spec0 w) := by
  dsimp only [dat]

theorem after_0 (c : Dev nD) (t : Fin cfg0.N) : (𝔇 c).after 0 t = iblk m c 0 t := by dsimp only [dat]
theorem after_1 (c : Dev nD) (t : Fin cfg0.N) : (𝔇 c).after 1 t = iblk m c 1 t := by dsimp only [dat]
theorem after_2 (c : Dev nD) (t : Fin cfg0.N) : (𝔇 c).after 2 t = iblk m c 2 t := by dsimp only [dat]
theorem after_3 (c : Dev nD) (t : Fin cfg0.N) : (𝔇 c).after 3 t = iblk m c 3 t := by dsimp only [dat]
theorem after_4 (c : Dev nD) (t : Fin cfg0.N) :
    (𝔇 c).after 4 t = outLoss (grid0.coords t) (iblk m c 0 t) (iblk m c 1 t) (iblk m c 2 t) (iblk m c 3 t) := by
  dsimp only [dat]
theorem after_5 (c : Dev nD) (t : Fin cfg0.N) :
    (𝔇 c).after 5 t = outHas (grid0.coords t) (iblk m c 2 t) (iblk m c 3 t) := by dsimp only [dat]

/-! ## What an input's staging buffer holds when the body runs

A fetch reads the window's block off the array, and the array is the entry contents; the windows are uncut, so a fetch
fills the whole buffer. An input not fetched at a point has kept the block of the point before, whose index is the same
(windows 1 and 3 read the whole array at every point). -/

/-- The block a fetch reads is the window's block of the entry contents. -/
theorem blockOf_eq (c : Dev nD) (w : Fin cfg0.W) (t : Fin cfg0.N) : (𝔇 c).blockOf w t = iblk m c w t := by
  unfold Dat.blockOf; rw [A_eq]

theorem before_0 (c : Dev nD) (t : Fin cfg0.N) (d) : (𝔇 c).before 0 t d = iblk m c 0 t := by
  rw [(𝔇 c).before_in_eq_fetched 0 rfl (fun _ => rfl) (fun _ _ _ => rfl)
    (fun u => by rw [after_0, blockOf_eq] <;> rfl) t d]
  unfold Dat.fetched; rw [blockOf_eq] <;> rfl

theorem before_1 (c : Dev nD) (t : Fin cfg0.N) (d) : (𝔇 c).before 1 t d = iblk m c 1 t := by
  rw [(𝔇 c).before_in_eq_fetched 1 rfl (fun _ => rfl) (fun _ _ _ => rfl)
    (fun u => by rw [after_1, blockOf_eq] <;> rfl) t d]
  unfold Dat.fetched; rw [blockOf_eq] <;> rfl

theorem before_2 (c : Dev nD) (t : Fin cfg0.N) (d) : (𝔇 c).before 2 t d = iblk m c 2 t := by
  rw [(𝔇 c).before_in_eq_fetched 2 rfl (fun _ => rfl) (fun _ _ _ => rfl)
    (fun u => by rw [after_2, blockOf_eq] <;> rfl) t d]
  unfold Dat.fetched; rw [blockOf_eq] <;> rfl

theorem before_3 (c : Dev nD) (t : Fin cfg0.N) (d) : (𝔇 c).before 3 t d = iblk m c 3 t := by
  rw [(𝔇 c).before_in_eq_fetched 3 rfl (fun _ => rfl) (fun _ _ _ => rfl)
    (fun u => by rw [after_3, blockOf_eq] <;> rfl) t d]
  unfold Dat.fetched; rw [blockOf_eq] <;> rfl

end Data

/-! ## The contents the region leaves -/

/-- What the write-backs leave in an array does not depend on the algebra parameters of the proof data: it is computed
    from the entry contents and the bodies' results alone. -/
theorem arrAt_indep {Ix : Type} [DecidableEq Ix] {UA : Type} [URA UA] {Lvl : Type} (c : Dev nD) (w : Fin cfg0.W) :
    ∀ n, (dat (Ix := Ix) (UA := UA) (Lvl := Lvl) m c).arrAt w n = (dat (Ix := Unit) (UA := UR sig nD τ) (Lvl := ℕ) m c).arrAt w n
  | 0 => rfl
  | n + 1 => by
    unfold Dat.arrAt
    rw [arrAt_indep c w n]
    rfl

/-- Core `c`'s TensorCore buffers when the region is left: the two result arrays at what the 64 write-backs leave,
    every other buffer as entered. -/
abbrev Vout (c : Dev nD) : Valuation τ sig (Elt F) :=
  Function.update (Function.update (Vin m c) main_v45_0 ((dat (Ix := Unit) (UA := UR sig nD τ) (Lvl := ℕ) m c).arrAt 4 cfg0.N))
    main_v45_1 ((dat (Ix := Unit) (UA := UR sig nD τ) (Lvl := ℕ) m c).arrAt 5 cfg0.N)

end Cert.Kernel.Hand

end
-- ==== Proof.KBodyBits.lean ====
/-
  The kernel body's run for the word-level program, at any float instance.

  The same body as the idealized program's, with the temperature's reciprocal a word constant: at a grid point it
  reads four staging buffers whole — the block of 128 embedding rows, the whole table of 8192 embedding rows, the
  block's 128 labels and all 8192 labels —, computes, and overwrites two staging buffers whole, each with one column
  of 128 values: the per-row loss term and the per-row indicator that the row has a positive. Each output buffer is
  also read once before it is overwritten; nothing depends on what is read.

  `bodyRun` is the separation-logic triple of that body over SYMBOLIC whole memrefs: from the four inputs owned at
  the contents they read (`x0 … x3`) and the two outputs owned at anything, the body runs to its return handing back
  the inputs as they were and the outputs at `outLoss i x0 x1 x2 x3` and `outHas i x2 x3` — the two stored payloads
  as functions of what the inputs read. Two facts carry the values through: a load through the whole-shape rectangle
  at zero offsets reads what the view reads of the buffer (`readAt_whole`), and one store through that rectangle
  leaves a buffer that reads the stored vector whatever it held before (`read_store_whole`). The payloads stay
  folded throughout.
-/
import proofs.«135812_j48799418417343_1_alg».proof.Proof.KPayBits
import Idealize.ShloMosaic.Lib.Pipeline.RegionsLoop
import Idealize.ShloMosaic.Lib.Pipeline.Value
import Idealize.ShloMosaic.Lib.Tactic

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {UA : Type} [URA UA]

local notation "𝕄" => MT nD τ sig Unit (Elt F) ℕ UA ℕ

/-- The offsets of a whole-buffer access of a rank-2 buffer are all zero. -/
theorem zeros2 : (![0, 0] : Fin 2 → ℕ) = fun _ => 0 := funext fun a => by fin_cases a <;> rfl

/-- A load through the whole-shape rectangle at zero offsets reads what the view reads of the buffer. -/
theorem readAt_whole {sp : Space} {S : Shape} {e : EltTy} (v : View sig .tc sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f := by
  rw [View.readAt_eq_ld]; exact View.ld_unit_zero h inb _

/-- One store through the whole-shape rectangle at zero offsets, over any prior contents, leaves a buffer that
    reads the stored vector. -/
theorem read_store_whole {sp : Space} {S : Shape} {e : EltTy} (v : View sig .tc sp S e) (f : v.ty.Contents (Elt F))
    {off : Fin S.rank → ℕ} (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩),
    View.canon_unit_zero h inb]

/-- The body on whole staging memrefs: the four inputs owned at read contents `x0 … x3`, the two outputs at anything; it
    returns holding the inputs as they were, the first output at the loss column and the second at the indicator column of
    those contents. -/
theorem bodyRun (c : Dev nD) (E : Set ℕ) (i : grid0.Coords)
    (M0 : Memref sig .tc .vmem S128x256 .bf16) (h0 : M0.IsWhole) (M1 : Memref sig .tc .vmem S8192x256 .bf16) (h1 : M1.IsWhole)
    (M2 : Memref sig .tc .vmem S1x128 .i32) (h2 : M2.IsWhole) (M3 : Memref sig .tc .vmem S1x8192 .i32) (h3 : M3.IsWhole)
    (M4 : Memref sig .tc .vmem S128x1 .f32) (h4 : M4.IsWhole) (M5 : Memref sig .tc .vmem S128x1 .f32) (h5 : M5.IsWhole)
    (x0 : Vec F S128x256 .bf16) (x1 : Vec F S8192x256 .bf16) (x2 : Vec F S1x128 .i32) (x3 : Vec F S1x8192 .i32)
    (K : PUnit → sProp 𝕄) :
    iprop(owns (c : Thread nD τ) M0 fullShare x0 ∗ owns (c : Thread nD τ) M1 fullShare x1 ∗ owns (c : Thread nD τ) M2 fullShare x2
        ∗ owns (c : Thread nD τ) M3 fullShare x3 ∗ (∃ d, owns (c : Thread nD τ) M4 fullShare d) ∗ (∃ d, owns (c : Thread nD τ) M5 fullShare d)
        ∗ (iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare (outLoss i x0 x1 x2 x3)
            ∗ owns (c : Thread nD τ) M5 fullShare (outHas i x2 x3)) -∗ K ⟨⟩))
      ⊢ wp frame (wpE (defs₀ (F := F)) Variants.none c none) E (cc0__infonce_kernel i M0 h0 M1 h1 M2 h2 M3 h3 M4 h4 M5 h5) K := by
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_store_whole _ _ zeros2]
    sl_unfold_run_names
    rw [readAt_whole _ f0 zeros2, readAt_whole _ f1 zeros2, readAt_whole _ f2 zeros2, readAt_whole _ f3 zeros2]
    rfl
  iexists _; isplitr
  swap; · iexact H5
  ipureintro
  rw [read_store_whole _ _ zeros2]
  sl_unfold_run_names
  rw [readAt_whole _ f2 zeros2, readAt_whole _ f3 zeros2]
  rfl

end Cert.Kernel.Hand

end
-- ==== Proof.KRegionBits.lean ====
/-
  The kernel region of the word-level program as a segment over the thread state.

  The body obligation: at every grid point the four input staging buffers hold the windows' blocks of the entry
  contents (fetched at that point, or — for the two whole-array windows, fetched once — kept since), the two result
  buffers hold anything; the body's run then leaves the inputs as they were and the results at `outLoss` / `outHas` of the
  blocks, which is what the proof data says.

  The arrays: six windows stand on four buffers. On entry each input buffer's full share is split in two halves, one per
  window on it; on exit the halves are put together again. An input array is never written, so only the two result
  arrays change: they end at what the 64 write-backs leave, which is `Vout`.
-/
import proofs.«135812_j48799418417343_1_alg».proof.Proof.KDataBits
import proofs.«135812_j48799418417343_1_alg».proof.Proof.KBodyBits
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {UA : Type} [URA UA]

local notation "𝕄" => MT nD τ sig Unit (Elt F) ℕ UA ℕ

variable (m : (ℓ : Loc nD τ sig) → Buf (Elt F) ℓ)

local notation "𝔇" => dat (Ix := Unit) (UA := UA) (Lvl := ℕ) m

/-! ## The body obligation -/

/-- The body at point `t`. -/
theorem body_at (c : Dev nD) (t : Fin cfg0.N) :
    (iprop((𝔇 c).Φ t.castSucc ∗ (𝔇 c).owesAt () t.castSucc
        ∗ (∃ d, owns (c : Thread nD τ) (st0_0 t) fullShare ((𝔇 c).before 0 t d))
        ∗ (∃ d, owns (c : Thread nD τ) (st0_1 t) fullShare ((𝔇 c).before 1 t d))
        ∗ (∃ d, owns (c : Thread nD τ) (st0_2 t) fullShare ((𝔇 c).before 2 t d))
        ∗ (∃ d, owns (c : Thread nD τ) (st0_3 t) fullShare ((𝔇 c).before 3 t d))
        ∗ (∃ d, owns (c : Thread nD τ) (st0_4 t) fullShare ((𝔇 c).before 4 t d))
        ∗ (∃ d, owns (c : Thread nD τ) (st0_5 t) fullShare ((𝔇 c).before 5 t d))) : sProp 𝕄)
      ⊢ wp frame (wpE (defs₀ (F := F)) Variants.none c none) Set.univ (bodyAt0 t) (fun _ =>
          iprop((𝔇 c).Φ t.succ ∗ (𝔇 c).owesAt () t.succ
            ∗ owns (c : Thread nD τ) (st0_0 t) fullShare ((𝔇 c).after 0 t)
            ∗ owns (c : Thread nD τ) (st0_1 t) fullShare ((𝔇 c).after 1 t)
            ∗ owns (c : Thread nD τ) (st0_2 t) fullShare ((𝔇 c).after 2 t)
            ∗ owns (c : Thread nD τ) (st0_3 t) fullShare ((𝔇 c).after 3 t)
            ∗ owns (c : Thread nD τ) (st0_4 t) fullShare ((𝔇 c).after 4 t)
            ∗ owns (c : Thread nD τ) (st0_5 t) fullShare ((𝔇 c).after 5 t))) := by
  simp only [before_0, before_1, before_2, before_3]
  rw [after_0, after_1, after_2, after_3, after_4, after_5,
    show (𝔇 c).Φ t.succ = (𝔇 c).Φ t.castSucc from rfl,
    show (𝔇 c).owesAt () t.succ = (𝔇 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  iapply (bodyRun c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation. -/
theorem body_obligation (c : Dev nD) : BodyObligation (𝔇 c) (defs₀ (F := F)) Variants.none () Set.univ := fun t => by
  rw [bigSep_W0, bigSep_W0]
  exact body_at m c t

/-! ## The arrays: four buffers behind six windows -/

/-- The buffers behind the windows' arrays, one by one. -/
theorem arrBufs_list (c : Dev nD) (V : (b : Ref sig .tc) → Buf (Elt F) ((c.tc : Thread nD τ).loc b)) :
    (Pipeline.arrBufs spec0 c V : sProp 𝕄)
      = iprop((((c.tc : Thread nD τ).loc main_v43) ↦{fullShare} V main_v43) ∗ (((c.tc : Thread nD τ).loc main_v44) ↦{fullShare} V main_v44)
          ∗ (((c.tc : Thread nD τ).loc main_v45_0) ↦{fullShare} V main_v45_0) ∗ (((c.tc : Thread nD τ).loc main_v45_1) ↦{fullShare} V main_v45_1)) := by
  unfold Pipeline.arrBufs
  exact bigSep_eq_bigSepL_of_eq [main_v43, main_v44, main_v45_0, main_v45_1] (by decide) (by decide) _

/-- A window's array is a whole buffer: held on its element set is held whole. -/
theorem win_arr (c : Dev nD) (w : Fin cfg0.W) (q : PosShare TreeShare) (g : Buf (Elt F) ((cfg0.win w).arr.view.loc (c.tc : Thread nD τ))) :
    ((cfg0.win w).arr.view.loc (c.tc : Thread nD τ) ↦[(cfg0.win w).arr.view.set]{q} g : sProp 𝕄)
      = ((cfg0.win w).arr.view.loc (c.tc : Thread nD τ) ↦{q} g) := by
  rw [show (cfg0.win w).arr.view.set = Finset.univ from (arr_whole0 w).set_eq_univ]

/-- Each window's array as a whole buffer at the window's share. -/
theorem pt_0 (c : Dev nD) (g : Buf (Elt F) ((cfg0.win 0).arr.view.loc (c.tc : Thread nD τ))) :
    ((cfg0.win 0).arr.view.loc (c.tc : Thread nD τ) ↦[(cfg0.win 0).arr.view.set]{(𝔇 c).share 0} g : sProp 𝕄)
      = (((c.tc : Thread nD τ).loc main_v43) ↦{fullShare.left} g) := (win_arr c 0 _ _).trans rfl
theorem pt_1 (c : Dev nD) (g : Buf (Elt F) ((cfg0.win 1).arr.view.loc (c.tc : Thread nD τ))) :
    ((cfg0.win 1).arr.view.loc (c.tc : Thread nD τ) ↦[(cfg0.win 1).arr.view.set]{(𝔇 c).share 1} g : sProp 𝕄)
      = (((c.tc : Thread nD τ).loc main_v43) ↦{fullShare.right} g) := (win_arr c 1 _ _).trans rfl
theorem pt_2 (c : Dev nD) (g : Buf (Elt F) ((cfg0.win 2).arr.view.loc (c.tc : Thread nD τ))) :
    ((cfg0.win 2).arr.view.loc (c.tc : Thread nD τ) ↦[(cfg0.win 2).arr.view.set]{(𝔇 c).share 2} g : sProp 𝕄)
      = (((c.tc : Thread nD τ).loc main_v44) ↦{fullShare.left} g) := (win_arr c 2 _ _).trans rfl
theorem pt_3 (c : Dev nD) (g : Buf (Elt F) ((cfg0.win 3).arr.view.loc (c.tc : Thread nD τ))) :
    ((cfg0.win 3).arr.view.loc (c.tc : Thread nD τ) ↦[(cfg0.win 3).arr.view.set]{(𝔇 c).share 3} g : sProp 𝕄)
      = (((c.tc : Thread nD τ).loc main_v44) ↦{fullShare.right} g) := (win_arr c 3 _ _).trans rfl
theorem pt_4 (c : Dev nD) (g : Buf (Elt F) ((cfg0.win 4).arr.view.loc (c.tc : Thread nD τ))) :
    ((cfg0.win 4).arr.view.loc (c.tc : Thread nD τ) ↦[(cfg0.win 4).arr.view.set]{(𝔇 c).share 4} g : sProp 𝕄)
      = (((c.tc : Thread nD τ).loc main_v45_0) ↦{fullShare} g) := (win_arr c 4 _ _).trans rfl
theorem pt_5 (c : Dev nD) (g : Buf (Elt F) ((cfg0.win 5).arr.view.loc (c.tc : Thread nD τ))) :
    ((cfg0.win 5).arr.view.loc (c.tc : Thread nD τ) ↦[(cfg0.win 5).arr.view.set]{(𝔇 c).share 5} g : sProp 𝕄)
      = (((c.tc : Thread nD τ).loc main_v45_1) ↦{fullShare} g) := (win_arr c 5 _ _).trans rfl

/-- The windows' arrays, one by one, each a whole buffer. -/
theorem arrays_list (c : Dev nD) (G : (w : Fin cfg0.W) → Buf (Elt F) ((cfg0.win w).arr.view.loc (c.tc : Thread nD τ))) :
    ((𝔇 c).arrays G : sProp 𝕄)
      = iprop((((c.tc : Thread nD τ).loc main_v43) ↦{fullShare.left} G 0) ∗ (((c.tc : Thread nD τ).loc main_v43) ↦{fullShare.right} G 1)
          ∗ (((c.tc : Thread nD τ).loc main_v44) ↦{fullShare.left} G 2) ∗ (((c.tc : Thread nD τ).loc main_v44) ↦{fullShare.right} G 3)
          ∗ (((c.tc : Thread nD τ).loc main_v45_0) ↦{fullShare} G 4) ∗ (((c.tc : Thread nD τ).loc main_v45_1) ↦{fullShare} G 5)) := by
  unfold Dat.arrays
  rw [bigSep_W0]
  exact congrArg₂ BI.sep (pt_0 m c _) (congrArg₂ BI.sep (pt_1 m c _) (congrArg₂ BI.sep (pt_2 m c _)
    (congrArg₂ BI.sep (pt_3 m c _) (congrArg₂ BI.sep (pt_4 m c _) (pt_5 m c _)))))

/-- A full share of a buffer is its two halves. -/
theorem halves {ℓ : Loc nD τ sig} (f : Buf (Elt F) ℓ) :
    (ℓ ↦{fullShare} f : sProp 𝕄) ⊣⊢ iprop((ℓ ↦{fullShare.left} f) ∗ ℓ ↦{fullShare.right} f) :=
  pointsTo_share (PosShare.mem_left_op_right fullShare)

/-- The four buffers, each whole at the full share, are the six windows' arrays at the same contents: each input
    array's two windows take its two halves. -/
theorem arrays_of_bufs (c : Dev nD) (V : (b : Ref sig .tc) → Buf (Elt F) ((c.tc : Thread nD τ).loc b))
    (G : (w : Fin cfg0.W) → Buf (Elt F) ((cfg0.win w).arr.view.loc (c.tc : Thread nD τ)))
    (h0 : G 0 = V main_v43) (h1 : G 1 = V main_v43) (h2 : G 2 = V main_v44) (h3 : G 3 = V main_v44)
    (h4 : G 4 = V main_v45_0) (h5 : G 5 = V main_v45_1) :
    (Pipeline.arrBufs spec0 c V : sProp 𝕄) ⊢ (𝔇 c).arrays G := by
  rw [arrBufs_list, arrays_list, h0, h1, h2, h3, h4, h5]
  iintro ⟨Ha, Hb, Hc, Hd⟩
  ihave Ha := (halves (V main_v43)).1 $$ Ha
  ihave Hb := (halves (V main_v44)).1 $$ Hb
  icases Ha with ⟨Ha1, Ha2⟩
  icases Hb with ⟨Hb1, Hb2⟩
  isplitl [Ha1]; · iexact Ha1
  isplitl [Ha2]; · iexact Ha2
  isplitl [Hb1]; · iexact Hb1
  isplitl [Hb2]; · iexact Hb2
  isplitl [Hc]; · iexact Hc
  iexact Hd

/-- and back. -/
theorem bufs_of_arrays (c : Dev nD) (V : (b : Ref sig .tc) → Buf (Elt F) ((c.tc : Thread nD τ).loc b))
    (G : (w : Fin cfg0.W) → Buf (Elt F) ((cfg0.win w).arr.view.loc (c.tc : Thread nD τ)))
    (h0 : G 0 = V main_v43) (h1 : G 1 = V main_v43) (h2 : G 2 = V main_v44) (h3 : G 3 = V main_v44)
    (h4 : G 4 = V main_v45_0) (h5 : G 5 = V main_v45_1) :
    (𝔇 c).arrays G ⊢ (Pipeline.arrBufs spec0 c V : sProp 𝕄) := by
  rw [arrBufs_list, arrays_list, h0, h1, h2, h3, h4, h5]
  iintro ⟨Ha1, Ha2, Hb1, Hb2, Hc, Hd⟩
  isplitl [Ha1 Ha2]
  · iapply (halves (V main_v43)).2; isplitl [Ha1]; · iexact Ha1
    iexact Ha2
  isplitl [Hb1 Hb2]
  · iapply (halves (V main_v44)).2; isplitl [Hb1]; · iexact Hb1
    iexact Hb2
  isplitl [Hc]; · iexact Hc
  iexact Hd

/-- A core's unscoped buffers at a valuation: the four buffers behind the windows and the rest. -/
theorem held_split (c : Dev nD) (V : Valuation τ sig (Elt F)) :
    (StableHlo.held (c : Thread nD τ) (Pipeline.ucRefs τ sig) V : sProp 𝕄)
      = iprop(Pipeline.arrBufs spec0 c (fun b => V b) ∗ Pipeline.unscopedRest spec0 c (fun b => V b)) := by
  rw [← Pipeline.unscopedBufs_held c V]
  exact Pipeline.unscopedBufs_split₀ cfgs 0 winFacts₀0.arr_unscoped c _

/-! ## The contents the region leaves, array by array -/

/-- Off the two result arrays the region changes nothing. -/
theorem Vout_of_ne (c : Dev nD) (b : Ref sig .tc) (h0 : b ≠ main_v45_0) (h1 : b ≠ main_v45_1) : Vout m c b = Vin m c b := by
  show Function.update (Function.update (Vin m c) _ _) _ _ _ = _
  rw [Function.update_of_ne (StableHlo.devRef_ne_of_ne h1), Function.update_of_ne (StableHlo.devRef_ne_of_ne h0)]

theorem Vout_4 (c : Dev nD) : Vout m c main_v45_0 = (dat (Ix := Unit) (UA := UR sig nD τ) (Lvl := ℕ) m c).arrAt 4 cfg0.N := by
  show Function.update (Function.update (Vin m c) _ _) _ _ _ = _
  rw [Function.update_of_ne (StableHlo.devRef_ne_of_ne (by decide : main_v45_0 ≠ main_v45_1)), Function.update_self]

theorem Vout_5 (c : Dev nD) : Vout m c main_v45_1 = (dat (Ix := Unit) (UA := UR sig nD τ) (Lvl := ℕ) m c).arrAt 5 cfg0.N := by
  show Function.update (Function.update (Vin m c) _ _) _ _ _ = _
  rw [Function.update_self]

/-- After the last point every window's array holds the exit contents: an input array is never written, a result
    array holds what its 64 write-backs leave. -/
theorem last_0 (c : Dev nD) : (𝔇 c).arrAt 0 cfg0.N = Vout m c main_v43 :=
  (((𝔇 c).arrAt_in 0 rfl _).trans (A_eq m c 0)).trans (Vout_of_ne m c main_v43 (by decide) (by decide)).symm
theorem last_1 (c : Dev nD) : (𝔇 c).arrAt 1 cfg0.N = Vout m c main_v43 :=
  (((𝔇 c).arrAt_in 1 rfl _).trans (A_eq m c 1)).trans (Vout_of_ne m c main_v43 (by decide) (by decide)).symm
theorem last_2 (c : Dev nD) : (𝔇 c).arrAt 2 cfg0.N = Vout m c main_v44 :=
  (((𝔇 c).arrAt_in 2 rfl _).trans (A_eq m c 2)).trans (Vout_of_ne m c main_v44 (by decide) (by decide)).symm
theorem last_3 (c : Dev nD) : (𝔇 c).arrAt 3 cfg0.N = Vout m c main_v44 :=
  (((𝔇 c).arrAt_in 3 rfl _).trans (A_eq m c 3)).trans (Vout_of_ne m c main_v44 (by decide) (by decide)).symm
theorem last_4 (c : Dev nD) : (𝔇 c).arrAt 4 cfg0.N = Vout m c main_v45_0 :=
  (arrAt_indep m c 4 cfg0.N).trans (Vout_4 m c).symm
theorem last_5 (c : Dev nD) : (𝔇 c).arrAt 5 cfg0.N = Vout m c main_v45_1 :=
  (arrAt_indep m c 5 cfg0.N).trans (Vout_5 m c).symm

/-- The unscoped buffers that are no window's array are as entered. -/
theorem rest_eq (c : Dev nD) :
    (Pipeline.unscopedRest spec0 c (fun b => Vout m c b) : sProp 𝕄) = Pipeline.unscopedRest spec0 c (fun b => Vin m c b) := by
  unfold Pipeline.unscopedRest
  refine bigSep_congr fun b hb => ?_
  have hb' := (Finset.mem_sdiff.mp hb).2
  exact congrArg (fun f => (((c.tc : Thread nD τ).loc b) ↦{fullShare} f : sProp 𝕄))
    (Vout_of_ne m c b (fun h => hb' (by subst h; exact Finset.mem_image.mpr ⟨4, Finset.mem_univ _, rfl⟩))
      (fun h => hb' (by subst h; exact Finset.mem_image.mpr ⟨5, Finset.mem_univ _, rfl⟩)))

/-! ## The region's protocol -/

/-- Nothing owed, stated as the pipeline holds it at a point. -/
theorem owesAt_of (c : Dev nD) (t : Fin (cfg0.N + 1)) :
    (iprop(∃ W, owes (c : Thread nD τ) (0 : CellTallies nD τ sig Unit) W) : sProp 𝕄) ⊢ (𝔇 c).owesAt () t := by
  iintro ⟨%W, H⟩
  iexists W
  isplitr
  · ipureintro; exact Set.subset_union_of_subset_left (Set.subset_univ _) _
  iexact H

theorem of_owesAt (c : Dev nD) (t : Fin (cfg0.N + 1)) :
    (𝔇 c).owesAt () t ⊢ (iprop(∃ W, owes (c : Thread nD τ) (0 : CellTallies nD τ sig Unit) W) : sProp 𝕄) := by
  iintro ⟨%W, -, H⟩
  iexists W
  iexact H

/-- ENTRY: the unscoped buffers at the entry contents are the windows' arrays — each input array's full share dealt to
    its two windows — and the rest. -/
theorem entry_arrays (c : Dev nD) :
    (StableHlo.held (c : Thread nD τ) (Pipeline.ucRefs τ sig) (Vin m c) : sProp 𝕄)
      ⊢ iprop((𝔇 c).arrays ((𝔇 c).arrAt · 0) ∗ Pipeline.unscopedRest spec0 c (fun b => Vin m c b)) := by
  rw [held_split]
  exact sep_mono (arrays_of_bufs m c _ _ (A_eq m c 0) (A_eq m c 1) (A_eq m c 2) (A_eq m c 3) (A_eq m c 4) (A_eq m c 5)) .rfl

/-- EXIT: the windows' arrays after the last point and the rest as entered are the unscoped buffers at the exit contents. -/
theorem exit_arrays (c : Dev nD) :
    iprop((𝔇 c).arrays ((𝔇 c).arrAt · cfg0.N) ∗ Pipeline.unscopedRest spec0 c (fun b => Vin m c b))
      ⊢ (StableHlo.held (c : Thread nD τ) (Pipeline.ucRefs τ sig) (Vout m c) : sProp 𝕄) := by
  rw [held_split, rest_eq]
  exact sep_mono (bufs_of_arrays m c _ _ (last_0 m c) (last_1 m c) (last_2 m c) (last_3 m c) (last_4 m c) (last_5 m c)) .rfl

/-- ENTRY of the region. -/
theorem reg_hentry (L : GSem nD τ sig → Finset Unit) (lv : GSem nD τ sig → Unit → ℕ) (R : Dev nD → sProp 𝕄) (c : Dev nD) :
    (iprop((StableHlo.held (c : Thread nD τ) (Pipeline.ucRefs τ sig) (Vin m c) ∗ R c
          ∗ ∃ W, owes (c : Thread nD τ) (0 : CellTallies nD τ sig Unit) W)
        ∗ Pipeline.ownSems0 (fun k : PEmpty => k.elim) c ∗ levAts L lv) : sProp 𝕄)
      ⊢ |={Set.univ}=> iprop((𝔇 c).arrays ((𝔇 c).arrAt · 0)
          ∗ Pipeline.prefHeld (pcfgs (F := F) 0).pre c (fun _ => fullShare) (adm (F := F) 0).1
          ∗ (𝔇 c).owesAt () 0 ∗ (BI.emp : sProp 𝕄)
          ∗ iprop(Pipeline.unscopedRest (Ix := Unit) (Name := ℕ) (U := UA) (Lvl := ℕ) spec0 c (fun b => Vin m c b) ∗ R c)) := by
  iintro ⟨⟨Hh, HR, HO⟩, -, -⟩
  ihave Ha := (entry_arrays (UA := UA) m c) $$ Hh
  icases Ha with ⟨Ha, Hrest⟩
  ihave HO := (owesAt_of (UA := UA) m c 0) $$ HO
  imodintro
  isplitl [Ha]; · iexact Ha
  isplitr
  · unfold Pipeline.prefHeld
    rw [Finset.univ_eq_empty, BI.bigSep_empty]
    iempintro
  isplitl [HO]; · iexact HO
  isplitr; · iempintro
  isplitl [Hrest]; · iexact Hrest
  iexact HR

/-- EXIT of the region. -/
theorem reg_hexit (R : Dev nD → sProp 𝕄) (c : Dev nD) :
    (iprop((𝔇 c).arrays ((𝔇 c).arrAt · cfg0.N) ∗ (𝔇 c).owesAt () (Fin.last cfg0.N) ∗ (BI.emp : sProp 𝕄)
        ∗ iprop(Pipeline.unscopedRest (Ix := Unit) (Name := ℕ) (U := UA) (Lvl := ℕ) spec0 c (fun b => Vin m c b) ∗ R c)) : sProp 𝕄)
      ⊢ |={Set.univ}=> iprop(StableHlo.held (c : Thread nD τ) (Pipeline.ucRefs τ sig) (Vout m c) ∗ R c
          ∗ ∃ W, owes (c : Thread nD τ) (0 : CellTallies nD τ sig Unit) W) := by
  iintro ⟨Ha, HO, -, Hrest, HR⟩
  ihave Hh := (exit_arrays (UA := UA) m c) $$ [Ha Hrest]
  · isplitl [Ha]; · iexact Ha
    iexact Hrest
  ihave HO := (of_owesAt (UA := UA) m c (Fin.last cfg0.N)) $$ HO
  imodintro
  isplitl [Hh]; · iexact Hh
  isplitl [HR]; · iexact HR
  iexact HO

set_option backward.isDefEq.respectTransparency.types false in
/-- The kernel region as a segment of the program: entered from every unscoped buffer at `Vin` beside a rest `R` and
    the core owing nothing; left with the buffers at `Vout`, the rest and the core's dues as they were. Nothing but the
    scoped buffers no window stages enters the invariant; the kernel has no semaphore of its own. -/
def reg (L : GSem nD τ sig → Finset Unit) (lv : GSem nD τ sig → Unit → ℕ) (R : Dev nD → sProp 𝕄) :
    Pipeline.RegionSeg (pcfgs (F := F)) adm (pdats (Ix := Unit) (UA := UA) (Lvl := ℕ) m) () defs₀ Variants.none L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (Vin m c) ∗ R c
    ∗ ∃ W, owes (c : Thread nD τ) (0 : CellTallies nD τ sig Unit) W)
  post c := iprop(StableHlo.held (c : Thread nD τ) (Pipeline.ucRefs τ sig) (Vout m c) ∗ R c
    ∗ ∃ W, owes (c : Thread nD τ) (0 : CellTallies nD τ sig Unit) W)
  X _ := BI.emp
  Y _ := BI.emp
  Z c := iprop(Pipeline.unscopedRest (Ix := Unit) (Name := ℕ) (U := UA) (Lvl := ℕ) spec0 c (fun b => Vin m c b) ∗ R c)
  hentry c := reg_hentry (UA := UA) m L lv R c
  hin c := by
    rw [show (pdats (Ix := Unit) (UA := UA) (Lvl := ℕ) m 0 c).Φ 0
      = Pipeline.scopedRest (Ix := Unit) (Name := ℕ) (U := UA) (Lvl := ℕ) (Val := Elt F) spec0 c from rfl]
    iintro ⟨-, -, Hs⟩
    iexact Hs
  hout c := by
    rw [Pipeline.ownSems0_none, show (pdats (Ix := Unit) (UA := UA) (Lvl := ℕ) m 0 c).Φ (Fin.last _)
      = Pipeline.scopedRest (Ix := Unit) (Name := ℕ) (U := UA) (Lvl := ℕ) (Val := Elt F) spec0 c from rfl]
    iintro Hs
    isplitr; · iempintro
    isplitr; · iempintro
    iexact Hs
  hexit c := reg_hexit (UA := UA) m R c

end Cert.Kernel.Hand

end
-- ==== Proof.KRunMainBits.lean ====
/- THE RUN OF THE PROGRAM. From any memory with all counters zero, every weakly fair execution of the program on the
   TensorCores terminates; in every final memory the result array holds `Vfin m c main_v81` — the launch memory pushed
   through the three host stretches, the kernel region (its two result arrays at what the 64 write-backs leave) and the five
   host stretches — and each of the seven argument arrays holds what it held at launch. It is the run from the region's
   record at the record of the kernel region, whose entry and exit thread states are the ones the run pins. -/
import proofs.«135812_j48799418417343_1_alg».proof.Proof.KRunAlgBits
import proofs.«135812_j48799418417343_1_alg».proof.Proof.KRegionBits

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat RegionSeg)

variable {F : FTy → Type} [FloatOps F]

variable (m : (ℓ : Loc nD τ sig) → Buf (Elt F) ℓ)

/-- Core `c`'s TensorCore buffers at the end: what the region leaves, after the five host stretches that follow it. -/
abbrev Vfin (c : Dev nD) : Valuation τ sig (Elt F) :=
  StableHlo.after hostOps1_4 (StableHlo.after hostOps1_3 (StableHlo.after hostOps1_2 (StableHlo.after hostOps1_1
    (StableHlo.after hostOps1 (Vout m c)))))

theorem run_main (ρ : Dev nD → PrngReg) :
    θ_run (defs (F := F)) (onTc (τ := τ) (main (F := F))) ⟨m, fun _ => 0, ρ⟩ (fun r => ∀ c : Dev nD,
      r.2.mem ((c.tc : Thread nD τ).loc main_v81) = Vfin m c main_v81
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Run.run_of_region m ρ
    (fun c => (dat (Ix := Unit) (UA := UR sig nD τ) (Lvl := ℕ) m c).arrAt 4 cfg0.N)
    (fun c => (dat (Ix := Unit) (UA := UR sig nD τ) (Lvl := ℕ) m c).arrAt 5 cfg0.N)
    (pdats (Ix := Unit) (UA := UR sig nD τ) (Lvl := ℕ) m)
    (reg m (fun _ => ∅) (fun _ _ => 0) (fun c => iprop(∃ r, prngReg c r))) (fun _ => .rfl) (fun _ => .rfl)

end Cert.Kernel.Hand

end
-- ==== Proof.RefFrame.lean ====
/-
  The reference leaves its seven arguments as launched: no operation of its list writes an argument, so the fold of the
  operations' results over the launch contents is the launch contents at each argument.
-/
import proofs.«135812_j48799418417343_1_alg».proof.Proof.RefRunP
import Idealize.ShloMosaic.PureOps.Ideal

noncomputable section

namespace Cert.ReferenceIdeal.ValueP

open Cert.ReferenceIdeal Cert.ReferenceIdeal.Gen Idealize.ShloMosaic Idealize.ShloMosaic.TcCoe Idealize.SL.Sem Idealize.ShloMosaic.StableHlo

set_option maxRecDepth 100000 in
set_option maxHeartbeats 10000000 in
/-- No operation writes argument 0: the fold at it is its launch contents. -/
theorem kept_arg0 (m : (ℓ : Loc nD τ sig) → Buf (Elt Ideal) ℓ) (c : Dev nD) :
    after (ops (F := Ideal)) (launchContents m c) (Proc.devRef .tc main_arg0) = m ((c.tc : Thread nD τ).loc main_arg0) := by
  after_results_simp <;> rfl

set_option maxRecDepth 100000 in
set_option maxHeartbeats 10000000 in
/-- No operation writes argument 1: the fold at it is its launch contents. -/
theorem kept_arg1 (m : (ℓ : Loc nD τ sig) → Buf (Elt Ideal) ℓ) (c : Dev nD) :
    after (ops (F := Ideal)) (launchContents m c) (Proc.devRef .tc main_arg1) = m ((c.tc : Thread nD τ).loc main_arg1) := by
  after_results_simp <;> rfl

set_option maxRecDepth 100000 in
set_option maxHeartbeats 10000000 in
/-- No operation writes argument 2: the fold at it is its launch contents. -/
theorem kept_arg2 (m : (ℓ : Loc nD τ sig) → Buf (Elt Ideal) ℓ) (c : Dev nD) :
    after (ops (F := Ideal)) (launchContents m c) (Proc.devRef .tc main_arg2) = m ((c.tc : Thread nD τ).loc main_arg2) := by
  after_results_simp <;> rfl

set_option maxRecDepth 100000 in
set_option maxHeartbeats 10000000 in
/-- No operation writes argument 3: the fold at it is its launch contents. -/
theorem kept_arg3 (m : (ℓ : Loc nD τ sig) → Buf (Elt Ideal) ℓ) (c : Dev nD) :
    after (ops (F := Ideal)) (launchContents m c) (Proc.devRef .tc main_arg3) = m ((c.tc : Thread nD τ).loc main_arg3) := by
  after_results_simp <;> rfl

set_option maxRecDepth 100000 in
set_option maxHeartbeats 10000000 in
/-- No operation writes argument 4: the fold at it is its launch contents. -/
theorem kept_arg4 (m : (ℓ : Loc nD τ sig) → Buf (Elt Ideal) ℓ) (c : Dev nD) :
    after (ops (F := Ideal)) (launchContents m c) (Proc.devRef .tc main_arg4) = m ((c.tc : Thread nD τ).loc main_arg4) := by
  after_results_simp <;> rfl

set_option maxRecDepth 100000 in
set_option maxHeartbeats 10000000 in
/-- No operation writes argument 5: the fold at it is its launch contents. -/
theorem kept_arg5 (m : (ℓ : Loc nD τ sig) → Buf (Elt Ideal) ℓ) (c : Dev nD) :
    after (ops (F := Ideal)) (launchContents m c) (Proc.devRef .tc main_arg5) = m ((c.tc : Thread nD τ).loc main_arg5) := by
  after_results_simp <;> rfl

set_option maxRecDepth 100000 in
set_option maxHeartbeats 10000000 in
/-- No operation writes argument 6: the fold at it is its launch contents. -/
theorem kept_arg6 (m : (ℓ : Loc nD τ sig) → Buf (Elt Ideal) ℓ) (c : Dev nD) :
    after (ops (F := Ideal)) (launchContents m c) (Proc.devRef .tc main_arg6) = m ((c.tc : Thread nD τ).loc main_arg6) := by
  after_results_simp <;> rfl

/-- Every weakly fair execution of the reference at the extended reals terminates with each argument unchanged. -/
theorem run_args (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c => ⟨
      (h c main_arg0).trans (kept_arg0 m c), (h c main_arg1).trans (kept_arg1 m c), (h c main_arg2).trans (kept_arg2 m c),
      (h c main_arg3).trans (kept_arg3 m c), (h c main_arg4).trans (kept_arg4 m c), (h c main_arg5).trans (kept_arg5 m c),
      (h c main_arg6).trans (kept_arg6 m c)⟩)
    (run_raw (F := Ideal) m ρ)

end Cert.ReferenceIdeal.ValueP

end
-- ==== Proof.Spec.lean ====
/-
  The specification both programs are compared against: the type-contrastive (InfoNCE) loss of 8192
  hyperedge embeddings, as ONE function over the extended reals of the normalised embedding matrix
  `z` (8192 rows of 256 entries) and the edges' types.

  For rows `R`, `C` the similarity is the inner product `⟨z_R, z_C⟩` divided by the temperature; column `C`
  weighs `exp` of it in row `R`, except on the diagonal, where it weighs nothing. A column is a POSITIVE of
  the row when it has the row's type and is not the row itself. The row's loss is minus the logarithm of
  (the positives' weight + ε) over (every weight + ε) when the row has a positive, and zero otherwise; the
  loss is the sum of the rows' losses over the number of rows that have a positive (at least one).

  The temperature and ε are kept as the words both programs carry; nothing here evaluates them.
-/
import Idealize.ShloMosaic.PureOps.Ideal

noncomputable section

namespace Cert.Spec

open Idealize.ShloMosaic

/-- The temperature, as the binary value of the word the reference divides by. -/
def tau : EReal := Ideal.ofBits .f32 0x3DCCCCCD#32
/-- The constant added to numerator and denominator. -/
def eps : EReal := Ideal.ofBits .f32 0x322BCC77#32
/-- One, as the word both programs bound the count below by. -/
def oneW : EReal := Ideal.ofBits .f32 0x3F800000#32

variable (z : Fin 8192 → Fin 256 → EReal) (et : Fin 8192 → BitVec 32)

/-- The inner product of rows `R` and `C`. -/
def dot (R C : Fin 8192) : EReal := ∑ k : Fin 256, z R k * z C k

/-- Column `C`'s weight in row `R`: `exp (⟨z_R, z_C⟩ / τ)` off the diagonal, zero on it. -/
def weight (R C : Fin 8192) : EReal :=
  Ideal.exp (Ideal.div (dot z R C) tau) * (if R = C then 0 else 1)

/-- `C` is a positive of `R`: the same type, another edge. -/
def Pos (R C : Fin 8192) : Prop := et R = et C ∧ R ≠ C

instance (R C : Fin 8192) : Decidable (Pos et R C) := by unfold Pos; infer_instance

/-- Every column's weight. -/
def denom (R : Fin 8192) : EReal := ∑ C : Fin 8192, weight z R C
/-- The positives' weight. -/
def numer (R : Fin 8192) : EReal := ∑ C : Fin 8192, weight z R C * (if Pos et R C then 1 else 0)

/-- The row has a positive. -/
def HasPos (R : Fin 8192) : Prop := ∃ C : Fin 8192, Pos et R C

instance (R : Fin 8192) : Decidable (HasPos et R) := by unfold HasPos; infer_instance

/-- The row's loss. -/
def rowLoss (R : Fin 8192) : EReal :=
  if HasPos et R then -(Ideal.log (Ideal.div (numer z et R + eps) (denom z R + eps))) else 0
/-- One for a row that has a positive, zero otherwise. -/
def rowHas (R : Fin 8192) : EReal := if HasPos et R then 1 else 0

/-- The loss: the rows' losses summed, over the number of rows with a positive bounded below by one. -/
def typeLoss : EReal :=
  Ideal.div (∑ R : Fin 8192, rowLoss z et R) (max (∑ R : Fin 8192, rowHas et R) oneW)

end Cert.Spec

end
-- ==== Proof.LibNtMatmul.lean ====
/-
  A matrix product with the right operand contracted on its LAST axis, read at an index, at the ideal values.

  For the dimension numbers of the product of an `M × K` matrix by the transpose of an `N × K` matrix (contract axis 1
  of both operands, no batch axis), the product accumulated into the zero matrix is, at row `r` and column `e`, the sum
  over `k < K` of `lhs (r, k) * rhs (e, k)` on the extended reals, whatever float formats label the two operands (every
  format is the extended reals there). Stated over literal-size coordinates (`ix2 r e`) so that it applies to a printed
  product by unification; a printed record of dimension numbers with the lists [1], [1], [0], [0], [], [] is
  `DotDims.transposedRhs M K N` up to the proof of its well-formedness, which is irrelevant.
-/
import Idealize.ShloMosaic.Lib.ValueIdx
import Idealize.ShloMosaic.PureOps.Ideal.Laws

noncomputable section

namespace Idealize.ShloMosaic.NtMatmul

open Idealize.ShloMosaic Idealize.ShloMosaic.ValueIdx

/-- The contraction shape has one axis, of extent `K`. -/
theorem contr_rank (M K N : ℕ) : (DotDims.transposedRhs M K N).contr.rank = 1 := rfl

theorem contr_size (M K N : ℕ) : (DotDims.transposedRhs M K N).contr.size ⟨0, by rw [contr_rank]; exact Nat.one_pos⟩ = K := rfl

theorem lhs_val0 (M K N : ℕ) (j : (⟨2, ![M, N]⟩ : Shape).Idx) (q : (DotDims.transposedRhs M K N).contr.Idx) :
    ((DotDims.transposedRhs M K N).lhsIdx j q 0).val = (j 0).val := rfl
theorem lhs_val1 (M K N : ℕ) (j : (⟨2, ![M, N]⟩ : Shape).Idx) (q : (DotDims.transposedRhs M K N).contr.Idx) :
    ((DotDims.transposedRhs M K N).lhsIdx j q 1).val = (q ⟨0, by rw [contr_rank]; exact Nat.one_pos⟩).val :=
  (DotDims.transposedRhs M K N).lhsIdx_val_of_single (cl := (1 : Fin 2)) rfl j q
theorem rhs_val0 (M K N : ℕ) (j : (⟨2, ![M, N]⟩ : Shape).Idx) (q : (DotDims.transposedRhs M K N).contr.Idx) :
    ((DotDims.transposedRhs M K N).rhsIdx j q 0).val = (j 1).val := rfl
theorem rhs_val1 (M K N : ℕ) (j : (⟨2, ![M, N]⟩ : Shape).Idx) (q : (DotDims.transposedRhs M K N).contr.Idx) :
    ((DotDims.transposedRhs M K N).rhsIdx j q 1).val = (q ⟨0, by rw [contr_rank]; exact Nat.one_pos⟩).val :=
  (DotDims.transposedRhs M K N).rhsIdx_val_of_single (cr := (1 : Fin 2)) rfl j q

/-- At output `(r, e)` and contraction coordinate `k` the left operand is read at `(r, k)` and the right at `(e, k)`. -/
theorem lhsIdx_eq (M K N : ℕ) (r : Fin M) (e : Fin N) (k : Fin K) :
    (DotDims.transposedRhs M K N).lhsIdx (ix2 r e) ((contrEquiv1 (DotDims.transposedRhs M K N) K (contr_rank M K N) (contr_size M K N)).symm k) = ix2 r k := by
  have hk := contrEquiv1_symm_val (DotDims.transposedRhs M K N) K (contr_rank M K N) (contr_size M K N) k
  funext a
  refine Fin.ext ?_
  match a with
  | ⟨0, _⟩ => exact lhs_val0 M K N _ _
  | ⟨1, _⟩ => exact (lhs_val1 M K N _ _).trans hk

theorem rhsIdx_eq (M K N : ℕ) (r : Fin M) (e : Fin N) (k : Fin K) :
    (DotDims.transposedRhs M K N).rhsIdx (ix2 r e) ((contrEquiv1 (DotDims.transposedRhs M K N) K (contr_rank M K N) (contr_size M K N)).symm k) = ix2 e k := by
  have hk := contrEquiv1_symm_val (DotDims.transposedRhs M K N) K (contr_rank M K N) (contr_size M K N) k
  funext a
  refine Fin.ext ?_
  match a with
  | ⟨0, _⟩ => exact rhs_val0 M K N _ _
  | ⟨1, _⟩ => exact (rhs_val1 M K N _ _).trans hk

/-- The product into the zero matrix, at `(r, e)`: the sum over the shared last axis of the operands' products. -/
theorem matmul_zero_apply_fmt {φ₁ φ₂ : FTy} (M K N : ℕ) (prec : Option ContractPrecision)
    (lhs : FVec Ideal ⟨2, ![M, K]⟩ φ₁) (rhs : FVec Ideal ⟨2, ![N, K]⟩ φ₂) (r : Fin M) (e : Fin N) :
    matmul (DotDims.transposedRhs M K N) prec lhs rhs (constant (F := Ideal) ⟨2, ![M, N]⟩ .f32 0x00000000#32) (ix2 r e)
      = ∑ k : Fin K, lhs (ix2 r k) * rhs (ix2 e k) := by
  show FloatOps.matmul (DotDims.transposedRhs M K N) prec lhs rhs (constant (F := Ideal) ⟨2, ![M, N]⟩ .f32 0x00000000#32) (ix2 r e) = _
  rw [Ideal.matmul_constant_zero_apply, ← Equiv.sum_comp (contrEquiv1 (DotDims.transposedRhs M K N) K (contr_rank M K N) (contr_size M K N)).symm]
  refine Finset.sum_congr rfl fun k _ => ?_
  rw [lhsIdx_eq, rhsIdx_eq]

end Idealize.ShloMosaic.NtMatmul

end
-- ==== Proof.LibKeepdims.lean ====
/-
  Column ("keepdims") layout operations read at an index given by coordinates.

  A reduction along the last axis of a matrix that keeps the reduced axis as a unit axis is printed as a shape cast of
  the `[a]` result to `[a, 1]` followed, where it is used against the matrix again, by a broadcast of the `[a, 1]`
  column to `[a, b]`. Both operations read the operand at the row of the index: the cast ignores the unit coordinate and
  the broadcast ignores the column coordinate. Stated over literal-size coordinates (`ix1`, `ix2`) so that a lemma
  applies to a printed operation by unification.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KMask.lean ====
/-
  The two boolean masks of one grid point, read at an index.

  At grid point `t` the body works on rows `128·t … 128·t + 127` of the 8192 × 8192 similarity matrix. Entry
  `(r, c)` of the block lies on the diagonal exactly when `128·t + r = c`; it is a positive of its row exactly
  when the row's type (entry `r` of the point's 128 types) equals column `c`'s type and it is off the diagonal.
-/
import proofs.«135812_j48799418417343_1_alg».proof.Proof.Gen.KernelIdeal.Skeleton
import proofs.«135812_j48799418417343_1_alg».proof.Proof.Spec
import proofs.«135812_j48799418417343_1_alg».proof.Proof.LibNtMatmul
import proofs.«135812_j48799418417343_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KVal

open Idealize.ShloMosaic Idealize.ShloMosaic.ValueIdx Cert.KernelIdeal Cert.KernelIdeal.Gen

/-- Equality of two 32-bit words as a one-bit word. -/
theorem cmpi_eq_iff (x y : BitVec 32) : IntOp.cmpi .eq x y = if x = y then 1#1 else 0#1 := by
  unfold IntOp.cmpi
  by_cases h : x = y
  · subst h; simp
  · have hb : (x == y) = false := beq_eq_false_iff_ne.mpr h
    simp [h, hb]

/-- The diagonal mask at `(r, c)`: one exactly when global row `128·t + r` is column `c`. -/
theorem pay4_apply (i : grid0.Coords) (r : Fin 128) (c : Fin 8192) :
    k0_pay4 i (ix2 r c) = if 128 * (i 0).val + r.val = c.val then 1#1 else 0#1 := by
  have ht : (i 0).val < 64 := (i 0).isLt
  have hr := r.isLt
  have hc := c.isLt
  unfold k0_pay4
  show IntOp.cmpi .eq (IntOp.addi (iota .tc S128x8192 32 [0] iota_S128x8192_d0_w32 (ix2 r c)) (Scalar.muli (BitVec.ofNat 32 (i 0).val) 128#32))
      (iota .tc S128x8192 32 [1] iota_S128x8192_d1_w32 (ix2 r c)) = _
  rw [iota_single_apply, iota_single_apply, cmpi_eq_iff]
  show (if BitVec.ofNat 32 r.val + BitVec.ofNat 32 (i 0).val * 128#32 = BitVec.ofNat 32 c.val then 1#1 else 0#1) = _
  have key : (BitVec.ofNat 32 r.val + BitVec.ofNat 32 (i 0).val * 128#32 = BitVec.ofNat 32 c.val) ↔ 128 * (i 0).val + r.val = c.val := by
    rw [← BitVec.toNat_inj]
    simp only [BitVec.toNat_add, BitVec.toNat_mul, BitVec.toNat_ofNat]
    omega
  by_cases h : 128 * (i 0).val + r.val = c.val
  · rw [if_pos h, if_pos (key.mpr h)]
  · rw [if_neg h, if_neg (fun h' => h (key.mp h'))]

/-- The type mask at `(r, c)`: one exactly when row `r`'s type is column `c`'s and the entry is off the diagonal. -/
theorem pay5_apply (i : grid0.Coords) (e : Vec Ideal S1x128 .i32) (g : Vec Ideal S1x8192 .i32) (r : Fin 128) (c : Fin 8192) :
    k0_pay5 (F := Ideal) i e g (ix2 r c)
      = if e (ix2 (0 : Fin 1) r) = g (ix2 (0 : Fin 1) c) ∧ ¬ (128 * (i 0).val + r.val = c.val) then 1#1 else 0#1 := by
  unfold k0_pay5
  show IntOp.andi (IntOp.cmpi .eq
        (broadcastTo S128x8192 (transpose S128x1 [1, 0] (shapeCast S1x128 e shapeCasts_S1x128_S1x128) transposes_S1x128_p1_0_S128x1) broadcasts_S128x1_S128x8192 (ix2 r c))
        (broadcastTo S128x8192 (shapeCast S1x8192 g shapeCasts_S1x8192_S1x8192) broadcasts_S1x8192_S128x8192 (ix2 r c)))
      (IntOp.xori (k0_pay4 i (ix2 r c)) 1#1) = _
  rw [broadcastTo_a1_ab_apply, transpose_ix2_apply, broadcastTo_1b_ab_apply, shapeCast_self, shapeCast_self, pay4_apply, cmpi_eq_iff]
  by_cases h1 : e (ix2 (0 : Fin 1) r) = g (ix2 (0 : Fin 1) c) <;> by_cases h2 : 128 * (i 0).val + r.val = c.val <;>
    simp [h1, h2, IntOp.andi, IntOp.xori]

end Cert.KernelIdeal.KVal

end
-- ==== Proof.KRow.lean ====
/-
  The row payload of one grid point, read at a row.

  For row `r` of the point's block the body forms, for every column `c`, the weight
  `exp (⟨x_r, y_c⟩ · κ) · (0 on the diagonal, 1 off it)` — `x` the point's 128 rows, `y` all 8192 rows, `κ` the
  named reciprocal of the temperature — sums the weights over the columns (the denominator) and the weights times
  the positives' indicator (the numerator), adds ε to both and takes the logarithm of the quotient. A lane
  reduction kept as a column reads, at row `r`, the plain sum over the columns; the matrix product into the zero
  accumulator reads the sum over the shared axis.
-/
import proofs.«135812_j48799418417343_1_alg».proof.Proof.Gen.KernelIdeal.Skeleton
import proofs.«135812_j48799418417343_1_alg».proof.Proof.Spec
import proofs.«135812_j48799418417343_1_alg».proof.Proof.LibNtMatmul
import proofs.«135812_j48799418417343_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KVal

open Idealize.ShloMosaic Idealize.ShloMosaic.ValueIdx Cert.KernelIdeal Cert.KernelIdeal.Gen

/-- A lane reduction of a 128 × 8192 block kept as a 128 × 1 column reads, at row `r`, the row's sum. -/
theorem colsum_apply (v : FVec Ideal S128x8192 .f32) (r : Fin 128) :
    shapeCast S128x1 (multiReduction .add [1] S128 v 0x00000000#32 reduces_S128x8192_S128 (.inl rfl) rfl) shapeCasts_S128_S128x1 (ix2 r (0 : Fin 1))
      = ∑ c : Fin 8192, v (ix2 r c) := by
  rw [shapeCast_a_a1_apply]
  refine (Ideal.multiReduction_add_single v _ reduces_S128x8192_S128 _ _ (ix1 r)).trans ?_
  exact Finset.sum_congr rfl fun c _ => congrArg v (funext fun a => Fin.ext (by match a with | ⟨0, _⟩ => rfl | ⟨1, _⟩ => rfl))

/-- The products of the block's rows with every row, at `(r, c)`: the inner product of row `r` of `x` and row `c` of `y`. -/
theorem sim_apply (x : FVec Ideal S128x256 .bf16) (y : FVec Ideal S8192x256 .bf16) (r : Fin 128) (c : Fin 8192) :
    matmul dot_S128x256_S8192x256_S128x8192_1_1_0_0_n_n none (shapeCast S128x256 x shapeCasts_S128x256_S128x256)
        (shapeCast S8192x256 y shapeCasts_S8192x256_S8192x256) (constant (F := Ideal) S128x8192 .f32 0x00000000#32) (ix2 r c)
      = ∑ k : Fin 256, x (ix2 r k) * y (ix2 c k) := by
  rw [shapeCast_self, shapeCast_self]
  exact NtMatmul.matmul_zero_apply_fmt 128 256 8192 none x y r c

/-- The named reciprocal of the temperature, as the body reads it. -/
abbrev kap : EReal := Named.named (F := Ideal) κ "inv_tau" (φ := .f32) 0x41200000#32

/-- Column `c`'s weight in row `r` of the block, as the body computes it. -/
def wgt (i : grid0.Coords) (x : FVec Ideal S128x256 .bf16) (y : FVec Ideal S8192x256 .bf16) (r : Fin 128) (c : Fin 8192) : EReal :=
  Ideal.exp ((∑ k : Fin 256, x (ix2 r k) * y (ix2 c k)) * kap)
    * Scalar.select (k0_pay4 i (ix2 r c)) (Ideal.ofBits .f32 0x00000000#32) (Ideal.ofBits .f32 0x3F800000#32)

/-- The positives' indicator at `(r, c)` as the body converts it: the mask bit as an integer, as a real. -/
def ind (m : IVec S128x8192 1) (r : Fin 128) (c : Fin 8192) : EReal :=
  ((((m (ix2 r c)).setWidth 32).toInt : ℝ) : EReal)

/-- The row payload at row `r`: the logarithm of (positives' weight + ε) over (every weight + ε). -/
theorem pay6_apply (i : grid0.Coords) (x : FVec Ideal S128x256 .bf16) (y : FVec Ideal S8192x256 .bf16)
    (e : Vec Ideal S1x128 .i32) (g : Vec Ideal S1x8192 .i32) (r : Fin 128) :
    k0_pay6 (F := Ideal) i x y e g (ix2 r (0 : Fin 1))
      = Ideal.log (Ideal.div
          ((∑ c : Fin 8192, wgt i x y r c * ind (k0_pay5 (F := Ideal) i e g) r c) + Ideal.ofBits .f32 0x322BCC77#32)
          ((∑ c : Fin 8192, wgt i x y r c) + Ideal.ofBits .f32 0x322BCC77#32)) := by
  unfold k0_pay6
  dsimp only
  show Ideal.log (Ideal.div (shapeCast S128x1 (multiReduction (F := Ideal) .add [1] S128 _ 0x00000000#32 reduces_S128x8192_S128 (.inl rfl) rfl) shapeCasts_S128_S128x1 (ix2 r (0 : Fin 1)) + _)
      (shapeCast S128x1 (multiReduction (F := Ideal) .add [1] S128 _ 0x00000000#32 reduces_S128x8192_S128 (.inl rfl) rfl) shapeCasts_S128_S128x1 (ix2 r (0 : Fin 1)) + _)) = _
  rw [colsum_apply, colsum_apply]
  have hw : ∀ c : Fin 8192,
      mulf (exp (mulf (matmul dot_S128x256_S8192x256_S128x8192_1_1_0_0_n_n none (shapeCast S128x256 x shapeCasts_S128x256_S128x256)
          (shapeCast S8192x256 y shapeCasts_S8192x256_S8192x256) (constant (F := Ideal) S128x8192 .f32 0x00000000#32))
          (broadcast S128x8192 kap)))
        (select (k0_pay4 i) (broadcast S128x8192 (Scalar.ofBits (F := Ideal) .f32 0x00000000#32)) (broadcast S128x8192 (Scalar.ofBits (F := Ideal) .f32 0x3F800000#32))) (ix2 r c)
        = wgt i x y r c := fun c => by
    show Ideal.exp (matmul dot_S128x256_S8192x256_S128x8192_1_1_0_0_n_n none (shapeCast S128x256 x shapeCasts_S128x256_S128x256)
          (shapeCast S8192x256 y shapeCasts_S8192x256_S8192x256) (constant (F := Ideal) S128x8192 .f32 0x00000000#32) (ix2 r c) * kap) * _ = _
    rw [sim_apply]
    rfl
  refine congrArg Ideal.log (congrArg₂ Ideal.div (congrArg (· + _) ?_) (congrArg (· + _) ?_))
  · refine Finset.sum_congr rfl fun c _ => ?_
    show _ * ind (k0_pay5 (F := Ideal) i e g) r c = _
    exact congrArg (· * _) (hw c)
  · exact Finset.sum_congr rfl fun c _ => hw c

end Cert.KernelIdeal.KVal

end
-- ==== Proof.KConsts.lean ====
/-
  The float words the two programs spell, as the extended reals they denote, and the one law that joins the
  kernel's product with the reference's quotient.

  The reference divides a similarity by the word `0x3DCCCCCD`, the binary fraction `13421773 / 2^27` nearest to
  one tenth. The kernel multiplies by a constant that denotes exactly the reciprocal of that fraction,
  `2^27 / 13421773`. On the extended reals a quotient by a nonzero real is the product with its reciprocal, for
  every dividend, infinite ones included; so the two similarities are one number.
-/
import proofs.«135812_j48799418417343_1_alg».proof.Proof.Spec

noncomputable section

namespace Cert.KConsts

open Idealize.ShloMosaic

/-- The zero word denotes `0`. -/
theorem ofBits_zero : Ideal.ofBits .f32 0x00000000#32 = 0 := by
  simp [Ideal.ofBits, Ideal.ieee]

/-- The word for `1.0` denotes `1`. -/
theorem ofBits_one : Ideal.ofBits .f32 0x3F800000#32 = 1 := by
  simp [Ideal.ofBits, Ideal.ieee, -EReal.coe_mul]; norm_num

/-- The temperature's word denotes `13421773 / 134217728`. -/
theorem tau_val : Cert.Spec.tau = ((13421773 / 134217728 : ℝ) : EReal) := by
  unfold Cert.Spec.tau
  simp [Ideal.ofBits, Ideal.ieee, -EReal.coe_mul]; norm_num

/-- The product with the reciprocal of the temperature is the quotient by the temperature. -/
theorem mul_inv_tau (x : EReal) : x * ((134217728 / 13421773 : ℝ) : EReal) = Ideal.div x Cert.Spec.tau := by
  rw [tau_val, Ideal.div_coe (by norm_num : (13421773 / 134217728 : ℝ) ≠ 0)]
  congr 2
  norm_num

end Cert.KConsts

end
-- ==== Proof.KOut.lean ====
/-
  What one grid point stores is the specification's row loss and row indicator.

  Grid point `t` reads rows `128·t … 128·t + 127` of the embedding matrix `z` beside all of `z`, and those rows'
  types beside all the types. With `R = 128·t + r`: the block's diagonal mask at `(r, c)` is `R = c`, its type mask is
  "column `c` is a positive of row `R`", the body's weight is the specification's (the product with the named
  reciprocal of the temperature is the quotient by the temperature, the mask's select is the off-diagonal factor),
  so the two lane sums are the specification's numerator and denominator. A sum of terms each zero or one is
  positive exactly when some term is one, so the count's comparison with zero is "the row has a positive"; the
  stored loss is then `0 − log(…)`, the negated logarithm, or zero, and the stored indicator is one or zero.
-/
import proofs.«135812_j48799418417343_1_alg».proof.Proof.KMask
import proofs.«135812_j48799418417343_1_alg».proof.Proof.KRow
import proofs.«135812_j48799418417343_1_alg».proof.Proof.KConsts
import proofs.«135812_j48799418417343_1_alg».proof.Proof.KPay
import Idealize.ShloMosaic.PureOps.IdealRules

noncomputable section

namespace Cert.KernelIdeal.KVal

open Idealize.ShloMosaic Idealize.ShloMosaic.ValueIdx Cert.KernelIdeal Cert.KernelIdeal.Gen Cert.KernelIdeal.Hand

/-- The kernel's named constant denotes the reciprocal of the temperature's fraction. -/
theorem kap_val : kap = ((134217728 / 13421773 : ℝ) : EReal) :=
  IdealRules.named_const.ideal_named_scalar _ _ _ _ rfl

/-- A one-bit word widened to 32 bits, read as a signed integer, as a real: one for the bit one, zero otherwise. -/
theorem bit_real (b : BitVec 1) : ((((b.setWidth 32).toInt : ℝ)) : EReal) = if b = 1#1 then 1 else 0 := by
  have hb : b = 0#1 ∨ b = 1#1 := by
    rcases Nat.lt_or_ge b.toNat 1 with h | h
    · left; apply BitVec.eq_of_toNat_eq; simp; omega
    · right; apply BitVec.eq_of_toNat_eq; have := b.isLt; simp; omega
  rcases hb with rfl | rfl <;> simp

section Point

variable (i : grid0.Coords) (x : FVec Ideal S128x256 .bf16) (y : FVec Ideal S8192x256 .bf16)
  (e : Vec Ideal S1x128 .i32) (g : Vec Ideal S1x8192 .i32)
  (z : Fin 8192 → Fin 256 → EReal) (et : Fin 8192 → BitVec 32) (r : Fin 128) (R : Fin 8192)
  (hR : R.val = 128 * (i 0).val + r.val)
  (hx : ∀ k : Fin 256, x (ix2 r k) = z R k) (hy : ∀ (C : Fin 8192) (k : Fin 256), y (ix2 C k) = z C k)
  (he : e (ix2 (0 : Fin 1) r) = et R) (hg : ∀ C : Fin 8192, g (ix2 (0 : Fin 1) C) = et C)

include hR he hg in
/-- The type mask's bit at `(r, c)` says that column `c` is a positive of row `R`. -/
theorem pos_bit (c : Fin 8192) : k0_pay5 (F := Ideal) i e g (ix2 r c) = if Cert.Spec.Pos et R c then 1#1 else 0#1 := by
  rw [pay5_apply, he, hg]
  have hiff : (et R = et c ∧ ¬ (128 * (i 0).val + r.val = c.val)) ↔ Cert.Spec.Pos et R c := by
    unfold Cert.Spec.Pos
    refine and_congr Iff.rfl (not_congr ?_)
    rw [← hR]; exact (Fin.ext_iff).symm
  by_cases h : Cert.Spec.Pos et R c
  · rw [if_pos h, if_pos (hiff.mpr h)]
  · rw [if_neg h, if_neg (fun h' => h (hiff.mp h'))]

include hR he hg in
/-- The converted indicator at `(r, c)`: one for a positive, zero otherwise. -/
theorem ind_eq (c : Fin 8192) : ind (k0_pay5 (F := Ideal) i e g) r c = if Cert.Spec.Pos et R c then 1 else 0 := by
  unfold ind
  rw [bit_real, pos_bit i e g et r R hR he hg c]
  by_cases h : Cert.Spec.Pos et R c <;> simp [h]

include hR hx hy in
/-- The body's weight at `(r, c)` is the specification's weight of column `c` in row `R`. -/
theorem wgt_eq (c : Fin 8192) : wgt i x y r c = Cert.Spec.weight z R c := by
  unfold wgt Cert.Spec.weight Cert.Spec.dot
  rw [pay4_apply, kap_val, Cert.KConsts.mul_inv_tau, Cert.KConsts.ofBits_zero, Cert.KConsts.ofBits_one]
  have hs : (∑ k : Fin 256, x (ix2 r k) * y (ix2 c k)) = ∑ k : Fin 256, z R k * z c k :=
    Finset.sum_congr rfl fun k _ => by rw [hx, hy]
  rw [hs]
  have hd : (128 * (i 0).val + r.val = c.val) ↔ R = c := by rw [← hR]; exact (Fin.ext_iff).symm
  by_cases h : R = c
  · rw [if_pos (hd.mpr h), if_pos h, select_one]
  · rw [if_neg (fun h' => h (hd.mp h')), if_neg h, select_zero]

include hR hx hy he hg in
/-- The row payload at row `r` is the logarithm of the specification's ratio for row `R`. -/
theorem pay6_spec : k0_pay6 (F := Ideal) i x y e g (ix2 r (0 : Fin 1))
    = Ideal.log (Ideal.div (Cert.Spec.numer z et R + Cert.Spec.eps) (Cert.Spec.denom z R + Cert.Spec.eps)) := by
  rw [pay6_apply]
  unfold Cert.Spec.numer Cert.Spec.denom Cert.Spec.eps
  refine congrArg Ideal.log (congrArg₂ Ideal.div (congrArg (· + _) ?_) (congrArg (· + _) ?_))
  · exact Finset.sum_congr rfl fun c _ => by rw [wgt_eq i x y z r R hR hx hy c, ind_eq i e g et r R hR he hg c]
  · exact Finset.sum_congr rfl fun c _ => wgt_eq i x y z r R hR hx hy c

include hR he hg in
/-- The count of the row's positives is positive exactly when the row has one. -/
theorem count_pos : (0 : EReal) < (∑ c : Fin 8192, ind (k0_pay5 (F := Ideal) i e g) r c) ↔ Cert.Spec.HasPos et R := by
  have hterm : ∀ c : Fin 8192, ind (k0_pay5 (F := Ideal) i e g) r c = if Cert.Spec.Pos et R c then 1 else 0 :=
    ind_eq i e g et r R hR he hg
  constructor
  · intro hpos
    by_contra hno
    have hz : (∑ c : Fin 8192, ind (k0_pay5 (F := Ideal) i e g) r c) = 0 :=
      Finset.sum_eq_zero fun c _ => by
        rw [hterm c, if_neg (fun hp => hno ⟨c, hp⟩)]
    rw [hz] at hpos
    exact lt_irrefl _ hpos
  · rintro ⟨c, hc⟩
    have hle : ind (k0_pay5 (F := Ideal) i e g) r c ≤ ∑ c : Fin 8192, ind (k0_pay5 (F := Ideal) i e g) r c :=
      Finset.single_le_sum (f := fun c => ind (k0_pay5 (F := Ideal) i e g) r c)
        (fun c' _ => by rw [hterm c']; split <;> simp) (Finset.mem_univ c)
    rw [hterm c, if_pos hc] at hle
    exact lt_of_lt_of_le (by simp) hle

include hR he hg in
/-- The comparison bit of the row: one exactly when the row has a positive. -/
theorem pay1_spec : k0_pay1 (F := Ideal) (k0_pay5 (F := Ideal) i e g) (ix2 r (0 : Fin 1))
    = if Cert.Spec.HasPos et R then 1#1 else 0#1 := by
  unfold k0_pay1
  dsimp only
  show Ideal.cmp .ogt (shapeCast S128x1 (multiReduction (F := Ideal) .add [1] S128 _ 0x00000000#32 reduces_S128x8192_S128 (.inl rfl) rfl) shapeCasts_S128_S128x1 (ix2 r (0 : Fin 1)))
      (Ideal.ofBits .f32 0x00000000#32) = _
  rw [colsum_apply, Cert.KConsts.ofBits_zero]
  show BitVec.ofBool (decide ((0 : EReal) < ∑ c : Fin 8192, ind (k0_pay5 (F := Ideal) i e g) r c)) = _
  by_cases h : Cert.Spec.HasPos et R
  · rw [if_pos h, decide_eq_true ((count_pos i e g et r R hR he hg).mpr h)]; rfl
  · rw [if_neg h, decide_eq_false (fun hp => h ((count_pos i e g et r R hR he hg).mp hp))]; rfl

include hR hx hy he hg in
/-- What the point stores in the loss column at row `r`: the specification's loss of row `R`. -/
theorem outLoss_spec : outLoss (F := Ideal) i x y e g (ix2 r (0 : Fin 1)) = Cert.Spec.rowLoss z et R := by
  unfold outLoss k0_pay2
  show Scalar.select (k0_pay1 (F := Ideal) (k0_pay5 (F := Ideal) i e g) (ix2 r (0 : Fin 1)))
      (Ideal.ofBits .f32 0x00000000#32 - k0_pay6 (F := Ideal) i x y e g (ix2 r (0 : Fin 1))) (Ideal.ofBits .f32 0x00000000#32) = _
  rw [pay1_spec i e g et r R hR he hg, pay6_spec i x y e g z et r R hR hx hy he hg, Cert.KConsts.ofBits_zero]
  unfold Cert.Spec.rowLoss
  by_cases h : Cert.Spec.HasPos et R
  · simp only [if_pos h, select_one, sub_eq_add_neg, zero_add]
  · simp only [if_neg h, select_zero]

include hR he hg in
/-- What the point stores in the indicator column at row `r`: one when row `R` has a positive, zero otherwise. -/
theorem outHas_spec : outHas (F := Ideal) i e g (ix2 r (0 : Fin 1)) = Cert.Spec.rowHas et R := by
  unfold outHas k0_pay3
  show ((((k0_pay1 (F := Ideal) (k0_pay5 (F := Ideal) i e g) (ix2 r (0 : Fin 1))).setWidth 32).toInt : ℝ) : EReal) = _
  rw [bit_real, pay1_spec i e g et r R hR he hg]
  unfold Cert.Spec.rowHas
  by_cases h : Cert.Spec.HasPos et R <;> simp [h]

end Point

end Cert.KernelIdeal.KVal

end
-- ==== Proof.KCover.lean ====
/-
  The two result columns after the region, as whole arrays.

  Grid point `t` writes back rows `128·t … 128·t + 127` of each result column; the 64 points tile the 8192 rows.
  Row `r` of point `t`'s block is computed from row `128·t + r` of the normalised table (window 0's block is
  those 128 rows, window 1's is the whole table), and from entry `128·t + r` of the types (window 2's block) beside
  all the types (window 3's). So what a point writes back is the block of ONE function of the arrays the region
  finds: the specification's row loss, and its row indicator, at the row's global number; and each column ends
  holding that function.
-/
import proofs.«135812_j48799418417343_1_alg».proof.Proof.KData
import proofs.«135812_j48799418417343_1_alg».proof.Proof.KOut
import Idealize.ShloMosaic.Lib.Pipeline.Value

noncomputable section

namespace Cert.KernelIdeal.KVal

open Idealize.ShloMosaic Idealize.ShloMosaic.TcCoe Idealize.ShloMosaic.ValueIdx Idealize.SL.Sem
open Cert.KernelIdeal Cert.KernelIdeal.Gen Cert.KernelIdeal.Hand
open Idealize.ShloMosaic.Pipeline (Dat)
open Idealize.SL Idealize.SL.RA

variable (m : (ℓ : Loc nD τ sig) → Buf (Elt Ideal) ℓ) (c : Dev nD)

/-- The normalised table as the region finds it, entry by entry. -/
def zOf : Fin 8192 → Fin 256 → EReal := fun R k => Vin m c main_v43 (ix2 R k)
/-- The edges' types as the region finds them. -/
def etOf : Fin 8192 → BitVec 32 := fun R => Vin m c main_v44 (ix2 (0 : Fin 1) R)

/-- The row an entry of an 8192 × 1 column sits in. -/
def rowIx (i : S8192x1.Idx) : Fin 8192 := ⟨(i 0).val, (i 0).isLt⟩

/-- The loss column the region leaves: the specification's row loss at each row. -/
def lossCol : S8192x1.Idx → EReal := fun i => Cert.Spec.rowLoss (zOf m c) (etOf m c) (rowIx i)
/-- The indicator column the region leaves. -/
def hasCol : S8192x1.Idx → EReal := fun i => Cert.Spec.rowHas (etOf m c) (rowIx i)

theorem lossCol_apply (i : S8192x1.Idx) : lossCol m c i = Cert.Spec.rowLoss (zOf m c) (etOf m c) (rowIx i) := rfl
theorem hasCol_apply (i : S8192x1.Idx) : hasCol m c i = Cert.Spec.rowHas (etOf m c) (rowIx i) := rfl

/-- The printed index maps, decided once over the grid: which block each window takes at point `t`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ (grid0.coords t 0).val = t.val :=
  (by decide +kernel : ∀ t : Fin grid0.N, _)

section Point

variable (t : Fin cfg0.N) (r : Fin 128)

/-- The global number of row `r` of point `t`'s block. -/
def rowOf : Fin 8192 := ⟨128 * t.val + r.val, by have := t.isLt; have := r.isLt; have h : cfg0.N = 64 := N_0; omega⟩

theorem rowOf_coords : (rowOf t r).val = 128 * (grid0.coords t 0).val + r.val := by
  rw [(idx_facts t).2.2.2.2.2.2.2.2.2.2.2.2]; rfl

/-- Window 0's block at `(r, k)` is the table's row `128·t + r`. -/
theorem blk0_apply (k : Fin 256) : iblk m c 0 t (ix2 r k) = zOf m c (rowOf t r) k := by
  obtain ⟨e0, e1, -⟩ := idx_facts t
  show Vin m c main_v43 (((cfg0.win 0).blk t).view.emb (ix2 r k)) = Vin m c main_v43 (ix2 (rowOf t r) k)
  refine congrArg (Vin m c main_v43) (funext fun a => Fin.ext ?_)
  match a with
  | ⟨0, _⟩ => show win0_0.index t (0 : Fin 2) * 128 + 1 * r.val = 128 * t.val + r.val; omega
  | ⟨1, _⟩ => show win0_0.index t (1 : Fin 2) * 256 + 1 * k.val = k.val; omega

/-- Window 1's block is the whole table. -/
theorem blk1_apply (C : Fin 8192) (k : Fin 256) : iblk m c 1 t (ix2 C k) = zOf m c C k := by
  obtain ⟨-, -, e0, e1, -⟩ := idx_facts t
  show Vin m c main_v43 (((cfg0.win 1).blk t).view.emb (ix2 C k)) = Vin m c main_v43 (ix2 C k)
  refine congrArg (Vin m c main_v43) (funext fun a => Fin.ext ?_)
  match a with
  | ⟨0, _⟩ => show win0_1.index t (0 : Fin 2) * 8192 + 1 * C.val = C.val; omega
  | ⟨1, _⟩ => show win0_1.index t (1 : Fin 2) * 256 + 1 * k.val = k.val; omega

/-- Window 2's block at `(0, r)` is the type of row `128·t + r`. -/
theorem blk2_apply : iblk m c 2 t (ix2 (0 : Fin 1) r) = etOf m c (rowOf t r) := by
  obtain ⟨-, -, -, -, e0, e1, -⟩ := idx_facts t
  show Vin m c main_v44 (((cfg0.win 2).blk t).view.emb (ix2 (0 : Fin 1) r)) = Vin m c main_v44 (ix2 (0 : Fin 1) (rowOf t r))
  refine congrArg (Vin m c main_v44) (funext fun a => Fin.ext ?_)
  match a with
  | ⟨0, _⟩ => show win0_2.index t (0 : Fin 2) * 1 + 1 * 0 = 0; omega
  | ⟨1, _⟩ => show win0_2.index t (1 : Fin 2) * 128 + 1 * r.val = 128 * t.val + r.val; omega

/-- Window 3's block is all the types. -/
theorem blk3_apply (C : Fin 8192) : iblk m c 3 t (ix2 (0 : Fin 1) C) = etOf m c C := by
  obtain ⟨-, -, -, -, -, -, e0, e1, -⟩ := idx_facts t
  show Vin m c main_v44 (((cfg0.win 3).blk t).view.emb (ix2 (0 : Fin 1) C)) = Vin m c main_v44 (ix2 (0 : Fin 1) C)
  refine congrArg (Vin m c main_v44) (funext fun a => Fin.ext ?_)
  match a with
  | ⟨0, _⟩ => show win0_3.index t (0 : Fin 2) * 1 + 1 * 0 = 0; omega
  | ⟨1, _⟩ => show win0_3.index t (1 : Fin 2) * 8192 + 1 * C.val = C.val; omega

/-- What point `t` leaves in the loss column's buffer at row `r`. -/
theorem loss_at : outLoss (F := Ideal) (grid0.coords t) (iblk m c 0 t) (iblk m c 1 t) (iblk m c 2 t) (iblk m c 3 t) (ix2 r (0 : Fin 1))
    = Cert.Spec.rowLoss (zOf m c) (etOf m c) (rowOf t r) :=
  outLoss_spec (grid0.coords t) (iblk m c 0 t) (iblk m c 1 t) (iblk m c 2 t) (iblk m c 3 t) (zOf m c) (etOf m c) r (rowOf t r)
    (rowOf_coords t r) (blk0_apply m c t r) (blk1_apply m c t) (blk2_apply m c t r) (blk3_apply m c t)

/-- What point `t` leaves in the indicator column's buffer at row `r`. -/
theorem has_at : outHas (F := Ideal) (grid0.coords t) (iblk m c 2 t) (iblk m c 3 t) (ix2 r (0 : Fin 1))
    = Cert.Spec.rowHas (etOf m c) (rowOf t r) :=
  outHas_spec (grid0.coords t) (iblk m c 2 t) (iblk m c 3 t) (etOf m c) r (rowOf t r)
    (rowOf_coords t r) (blk2_apply m c t r) (blk3_apply m c t)

end Point

section Arrays

variable {Ix : Type} [DecidableEq Ix] {UA : Type} [URA UA] {Lvl : Type} [Preorder Lvl]

/-- WHAT POINT `t` WRITES BACK into the loss column is block `t` of `lossCol`. -/
theorem flushed4_eq (t : Fin cfg0.N) :
    (dat (Ix := Ix) (UA := UA) (Lvl := Lvl) m c).flushed 4 t = ((cfg0.win 4).blk t).view.read (Elt Ideal) (lossCol m c) := by
  show (cfg0.win 4).cut (grid0.coords t) ((dat (Ix := Ix) (UA := UA) (Lvl := Lvl) m c).after 4 t) = _
  rw [after_4]
  obtain ⟨-, -, -, -, -, -, -, -, e0, e1, -⟩ := idx_facts t
  funext j
  have hj0 : (j 0).val < 128 := (j 0).isLt
  have hj1 : (j 1).val < 1 := (j 1).isLt
  have hx : (cfg0.win 4).xinj (grid0.coords t) j = ix2 (⟨(j 0).val, hj0⟩ : Fin 128) (0 : Fin 1) :=
    funext fun a => Fin.ext (by
      match a with
      | ⟨0, _⟩ => rfl
      | ⟨1, _⟩ => show (j 1).val = 0; omega)
  rw [View.read_apply]
  show outLoss (F := Ideal) (grid0.coords t) (iblk m c 0 t) (iblk m c 1 t) (iblk m c 2 t) (iblk m c 3 t) ((cfg0.win 4).xinj (grid0.coords t) j) = _
  have hrow : rowOf t (⟨(j 0).val, hj0⟩ : Fin 128) = rowIx (((cfg0.win 4).blk t).view.emb j) := by
    apply Fin.ext
    show 128 * t.val + (j 0).val = win0_4.index t (0 : Fin 2) * 128 + 1 * (j 0).val
    omega
  rw [lossCol_apply, hx, loss_at, hrow]
  exact (cast_eq _ _).symm

/-- WHAT POINT `t` WRITES BACK into the indicator column is block `t` of `hasCol`. -/
theorem flushed5_eq (t : Fin cfg0.N) :
    (dat (Ix := Ix) (UA := UA) (Lvl := Lvl) m c).flushed 5 t = ((cfg0.win 5).blk t).view.read (Elt Ideal) (hasCol m c) := by
  show (cfg0.win 5).cut (grid0.coords t) ((dat (Ix := Ix) (UA := UA) (Lvl := Lvl) m c).after 5 t) = _
  rw [after_5]
  obtain ⟨-, -, -, -, -, -, -, -, -, -, e0, e1, -⟩ := idx_facts t
  funext j
  have hj0 : (j 0).val < 128 := (j 0).isLt
  have hj1 : (j 1).val < 1 := (j 1).isLt
  have hx : (cfg0.win 5).xinj (grid0.coords t) j = ix2 (⟨(j 0).val, hj0⟩ : Fin 128) (0 : Fin 1) :=
    funext fun a => Fin.ext (by
      match a with
      | ⟨0, _⟩ => rfl
      | ⟨1, _⟩ => show (j 1).val = 0; omega)
  rw [View.read_apply]
  show outHas (F := Ideal) (grid0.coords t) (iblk m c 2 t) (iblk m c 3 t) ((cfg0.win 5).xinj (grid0.coords t) j) = _
  have hrow : rowOf t (⟨(j 0).val, hj0⟩ : Fin 128) = rowIx (((cfg0.win 5).blk t).view.emb j) := by
    apply Fin.ext
    show 128 * t.val + (j 0).val = win0_5.index t (0 : Fin 2) * 128 + 1 * (j 0).val
    omega
  rw [hasCol_apply, hx, has_at, hrow]
  exact (cast_eq _ _).symm

/-- An index of the loss column is in point `t`'s block iff each coordinate is in the block's range on its axis. -/
theorem mem_blk4 (t : Fin cfg0.N) (i : S8192x1.Idx) :
    i ∈ ((cfg0.win 4).blk t).view.set ↔ ∀ a : Fin 2, win0_4.index t a * S128x1.size a ≤ (i a).val ∧ (i a).val < win0_4.index t a * S128x1.size a + S128x1.size a := by
  show i ∈ ((View.whole main_v45_0).slice (win0_4.rect t)).set ↔ _
  rw [View.set_slice_whole, Rect.mem_set_unit]
  exact Iff.rfl

theorem mem_blk5 (t : Fin cfg0.N) (i : S8192x1.Idx) :
    i ∈ ((cfg0.win 5).blk t).view.set ↔ ∀ a : Fin 2, win0_5.index t a * S128x1.size a ≤ (i a).val ∧ (i a).val < win0_5.index t a * S128x1.size a + S128x1.size a := by
  show i ∈ ((View.whole main_v45_1).slice (win0_5.rect t)).set ↔ _
  rw [View.set_slice_whole, Rect.mem_set_unit]
  exact Iff.rfl

/-- The point whose block holds row `R`: `R / 128`. -/
def pointOf (i : S8192x1.Idx) : Fin cfg0.N := ⟨(i 0).val / 128, by have hi : (i 0).val < 8192 := (i 0).isLt; have h : cfg0.N = 64 := N_0; omega⟩

/-- Every row of the loss column is in some point's block. -/
theorem cover4 (i : S8192x1.Idx) : ∃ t : Fin cfg0.N, (cfg0.win 4).flush t = true ∧ i ∈ ((cfg0.win 4).blk t).view.set := by
  refine ⟨pointOf i, flush0_4 _, ?_⟩
  obtain ⟨-, -, -, -, -, -, -, -, e0, e1, -⟩ := idx_facts (pointOf i)
  have hi1 : (i 1).val < 1 := (i 1).isLt
  have ht : (pointOf i).val = (i 0).val / 128 := rfl
  rw [mem_blk4]
  intro a
  match a with
  | ⟨0, _⟩ => show win0_4.index (pointOf i) (0 : Fin 2) * 128 ≤ (i 0).val ∧ (i 0).val < win0_4.index (pointOf i) (0 : Fin 2) * 128 + 128; omega
  | ⟨1, _⟩ => show win0_4.index (pointOf i) (1 : Fin 2) * 1 ≤ (i 1).val ∧ (i 1).val < win0_4.index (pointOf i) (1 : Fin 2) * 1 + 1; omega

theorem cover5 (i : S8192x1.Idx) : ∃ t : Fin cfg0.N, (cfg0.win 5).flush t = true ∧ i ∈ ((cfg0.win 5).blk t).view.set := by
  refine ⟨pointOf i, flush0_5 _, ?_⟩
  obtain ⟨-, -, -, -, -, -, -, -, -, -, e0, e1, -⟩ := idx_facts (pointOf i)
  have hi1 : (i 1).val < 1 := (i 1).isLt
  have ht : (pointOf i).val = (i 0).val / 128 := rfl
  rw [mem_blk5]
  intro a
  match a with
  | ⟨0, _⟩ => show win0_5.index (pointOf i) (0 : Fin 2) * 128 ≤ (i 0).val ∧ (i 0).val < win0_5.index (pointOf i) (0 : Fin 2) * 128 + 128; omega
  | ⟨1, _⟩ => show win0_5.index (pointOf i) (1 : Fin 2) * 1 ≤ (i 1).val ∧ (i 1).val < win0_5.index (pointOf i) (1 : Fin 2) * 1 + 1; omega

/-- THE LOSS COLUMN after the region. -/
theorem final4 : (dat (Ix := Ix) (UA := UA) (Lvl := Lvl) m c).arrAt 4 cfg0.N = lossCol m c :=
  (dat (Ix := Ix) (UA := UA) (Lvl := Lvl) m c).arrAt_eq_of_cover 4 (lossCol m c) (fun t _ => flushed4_eq m c t) cover4

/-- THE INDICATOR COLUMN after the region. -/
theorem final5 : (dat (Ix := Ix) (UA := UA) (Lvl := Lvl) m c).arrAt 5 cfg0.N = hasCol m c :=
  (dat (Ix := Ix) (UA := UA) (Lvl := Lvl) m c).arrAt_eq_of_cover 5 (hasCol m c) (fun t _ => flushed5_eq m c t) cover5

end Arrays

end Cert.KernelIdeal.KVal

end
-- ==== Proof.KTail.lean ====
/-
  The kernel program's loss from its two result columns.

  After the region the program sums the loss column and the indicator column (each over all 8192 × 1 entries, from
  the zero word), bounds the second sum below by one and divides. With the columns at the specification's row loss
  and row indicator, that is the specification's loss: a sum over the entries of an 8192 × 1 column is the sum over
  its rows, and the zero word adds nothing.
-/
import proofs.«135812_j48799418417343_1_alg».proof.Proof.KCover
import Idealize.ShloMosaic.PureOps.Ideal.Laws

noncomputable section

namespace Cert.KernelIdeal.KVal

open Idealize.ShloMosaic Idealize.ShloMosaic.TcCoe Idealize.ShloMosaic.ValueIdx Idealize.SL.Sem
open Cert.KernelIdeal Cert.KernelIdeal.Gen Cert.KernelIdeal.Hand

/-- A sum over the entries of an 8192 × 1 column is the sum over its rows. -/
theorem sum_col (f : S8192x1.Idx → EReal) : ∑ i : S8192x1.Idx, f i = ∑ R : Fin 8192, f (ix2 R (0 : Fin 1)) := by
  rw [sum_idx2]
  exact Finset.sum_congr rfl fun R _ => Fin.sum_univ_one _

/-- The row of entry `(R, 0)` of a column is `R`. -/
theorem rowIx_ix2 (R : Fin 8192) : rowIx (ix2 R (0 : Fin 1)) = R := Fin.ext rfl

variable (m : (ℓ : Loc nD τ sig) → Buf (Elt Ideal) ℓ) (c : Dev nD)

/-- The sum of a column from the zero word, at the result's one index. -/
theorem colTotal (f : FVec Ideal S8192x1 .f32) (i : S_.Idx) :
    Host.reduceAdd (F := Ideal) f (constant (F := Ideal) S_ .f32 0x00000000#32) reducesTo_S8192x1_S_d0_1 h_S_ i
      = ∑ R : Fin 8192, f (ix2 R (0 : Fin 1)) := by
  simp only [Host.reduceAdd, Ideal.hostReduceAdd_def]
  rw [Ideal.hostReduceAdd_total reducesTo_S8192x1_S_d0_1 (fun b => b.elim0), sum_col]
  show Ideal.ofBits .f32 0x00000000#32 + _ = _
  rw [Cert.KConsts.ofBits_zero, zero_add]

/-- The program's loss from the two columns is the specification's loss. -/
theorem typeLoss_cols :
    Host.divf (F := Ideal)
      (Host.reduceAdd (F := Ideal) (lossCol m c) (constant (F := Ideal) S_ .f32 0x00000000#32) reducesTo_S8192x1_S_d0_1 h_S_)
      (maximumf (Host.reduceAdd (F := Ideal) (hasCol m c) (constant (F := Ideal) S_ .f32 0x00000000#32) reducesTo_S8192x1_S_d0_1 h_S_)
        (constant (F := Ideal) S_ .f32 0x3F800000#32))
    = fun _ => Cert.Spec.typeLoss (zOf m c) (etOf m c) := by
  funext i
  have h1 := colTotal (lossCol m c) i
  have h2 := colTotal (hasCol m c) i
  simp only [Host.divf, Ideal.hostDivf_def, maximumf_apply, constant_apply, h1, h2, lossCol_apply, hasCol_apply, rowIx_ix2]
  rfl

end Cert.KernelIdeal.KVal

end
-- ==== Proof.KGlueTail.lean ====
/-
  The kernel program's result vector as one function of what the region is entered with and of the region's two
  result columns.

  After the region the program (i) totals each result column and divides the first total by the second bounded below
  by one (the type loss), (ii) gathers the rows of the edge embeddings named by two vectors of 500 row numbers,
  takes the rows' differences, their Euclidean norms, one minus the norm, its positive part, the square, and the mean
  over the 500 pairs (the inter loss), (iii) forms 1·intra + ½·type + ½·inter, and (iv) packs intra, type, inter and
  that total into a vector of four. Each stretch of operations is read here at the one or two buffers the next
  stretch needs, over an arbitrary valuation of the buffers; the gathers, reductions and the square root stay closed
  throughout. The stretches are then chained from the contents at the region's entry.
-/
import proofs.«135812_j48799418417343_1_alg».proof.Proof.KRunVals

set_option maxRecDepth 2000

noncomputable section

namespace Cert.Glue

open Idealize.ShloMosaic Idealize.ShloMosaic.TcCoe Idealize.SL.Sem
open Cert.KernelIdeal Cert.KernelIdeal.Gen Cert.KernelIdeal.Hand.Run

/-! ## The pieces of the tail, as functions -/

/-- The type loss from the two result columns: the first column's total over the second's, the latter bounded below
    by one. -/
def tlK (l h : FVec Ideal S8192x1 .f32) : FVec Ideal S_ .f32 :=
  Host.divf (F := Ideal)
    (Host.reduceAdd (F := Ideal) l (constant (F := Ideal) S_ .f32 0x00000000#32) reducesTo_S8192x1_S_d0_1 h_S_)
    (maximumf (F := Ideal)
      (Host.reduceAdd (F := Ideal) h (constant (F := Ideal) S_ .f32 0x00000000#32) reducesTo_S8192x1_S_d0_1 h_S_)
      (constant (F := Ideal) S_ .f32 0x3F800000#32))

/-- 500 row numbers as a column of gather indices: a negative number counts back from the 8192 rows' end. -/
def rowsK (a : IVec S500 32) : IVec S500x1 32 :=
  broadcastInDim S500x1 ![0] bcast_S500_S500x1_0
    (select (cmpi .slt a (broadcastInDim S500 ![] bcast_S_S500 (constantI S_ 32 0#32)))
      (addi a (broadcastInDim S500 ![] bcast_S_S500 (constantI S_ 32 8192#32))) a)

/-- The differences of the embedding rows the two vectors of row numbers name. -/
def diffK (emb : FVec Ideal S8192x256 .f32) (a5 a6 : IVec S500 32) : FVec Ideal S500x256 .f32 :=
  subf (F := Ideal)
    (Host.gather gather_S8192x256_S500x1_S500x256_1_0_n_n_0_1_1256 emb (rowsK a5))
    (Host.gather gather_S8192x256_S500x1_S500x256_1_0_n_n_0_1_1256 emb (rowsK a6))

/-- The Euclidean norm of each of the 500 rows. -/
def normK (d : FVec Ideal S500x256 .f32) : FVec Ideal S500 .f32 :=
  Host.sqrt (F := Ideal)
    (Host.reduceAdd (F := Ideal) (mulf (F := Ideal) d d) (constant (F := Ideal) S_ .f32 0x00000000#32) reducesTo_S500x256_S500_d1 h_S_)

/-- One minus each entry. -/
def oneMinusK (n : FVec Ideal S500 .f32) : FVec Ideal S500 .f32 :=
  subf (F := Ideal) (broadcastInDim S500 ![] bcast_S_S500 (constant (F := Ideal) S_ .f32 0x3F800000#32)) n

/-- The positive part of each entry. -/
def reluK (x : FVec Ideal S500 .f32) : FVec Ideal S500 .f32 :=
  maximumf (F := Ideal) x (broadcastInDim S500 ![] bcast_S_S500 (constant (F := Ideal) S_ .f32 0x00000000#32))

/-- The mean of the 500 squares. -/
def meanSqK (r : FVec Ideal S500 .f32) : FVec Ideal S_ .f32 :=
  Host.divf (F := Ideal)
    (Host.reduceAdd (F := Ideal) (mulf (F := Ideal) r r) (constant (F := Ideal) S_ .f32 0x00000000#32) reducesTo_S500_S_d0 h_S_)
    (constant (F := Ideal) S_ .f32 0x43FA0000#32)

/-- The inter loss from the edge embeddings and the two vectors of row numbers. -/
def interK (emb : FVec Ideal S8192x256 .f32) (a5 a6 : IVec S500 32) : FVec Ideal S_ .f32 :=
  meanSqK (reluK (oneMinusK (normK (diffK emb a5 a6))))

/-- The weighted total 1·intra + ½·type + ½·inter. -/
def totalK (intra tl inter : FVec Ideal S_ .f32) : FVec Ideal S_ .f32 :=
  addf (F := Ideal)
    (addf (F := Ideal) (mulf (F := Ideal) (constant (F := Ideal) S_ .f32 0x3F800000#32) intra)
      (mulf (F := Ideal) (constant (F := Ideal) S_ .f32 0x3F000000#32) tl))
    (mulf (F := Ideal) (constant (F := Ideal) S_ .f32 0x3F000000#32) inter)

/-- Intra, type, inter and their weighted total packed into a vector of four. -/
def packK (intra tl inter : FVec Ideal S_ .f32) : FVec Ideal S4 .f32 :=
  concatenate S4 0
    [⟨S1, broadcastInDim S1 ![] bcast_S_S1 intra⟩, ⟨S1, broadcastInDim S1 ![] bcast_S_S1 tl⟩,
     ⟨S1, broadcastInDim S1 ![] bcast_S_S1 inter⟩, ⟨S1, broadcastInDim S1 ![] bcast_S_S1 (totalK intra tl inter)⟩]
    concatenates_S1_S1_S1_S1_S4_d0

/-- The whole tail: the result vector from intra, the type loss, the edge embeddings and the two vectors of row
    numbers. -/
def tailK (intra tl : FVec Ideal S_ .f32) (emb : FVec Ideal S8192x256 .f32) (a5 a6 : IVec S500 32) : FVec Ideal S4 .f32 :=
  packK intra tl (interK emb a5 a6)

/-! ## Each stretch read over an arbitrary valuation -/

section Stretches

variable (W : Valuation τ sig (Elt Ideal))

/-- The last stretch at the result vector. -/
theorem s4_v81 : StableHlo.after hostOps1_4 W (Proc.devRef .tc main_v81)
    = packK (W (Proc.devRef .tc main_v39)) (W (Proc.devRef .tc main_v49)) (meanSqK (W (Proc.devRef .tc main_v68))) := by
  after_results
  rfl

/-- The positive-part stretch. -/
theorem s3_v68 : StableHlo.after hostOps1_3 W (Proc.devRef .tc main_v68) = reluK (W (Proc.devRef .tc main_v67)) := by
  after_results_simp
  rfl

/-- The one-minus stretch. -/
theorem s2_v67 : StableHlo.after hostOps1_2 W (Proc.devRef .tc main_v67) = oneMinusK (W (Proc.devRef .tc main_v65)) := by
  after_results_simp
  rfl

/-- The norm stretch. -/
theorem s1_v65 : StableHlo.after hostOps1_1 W (Proc.devRef .tc main_v65) = normK (W (Proc.devRef .tc main_v64)) := by
  after_results_simp
  rfl

/-- The first stretch after the region, at the rows' differences. -/
theorem s0_v64 : StableHlo.after hostOps1 W (Proc.devRef .tc main_v64)
    = diffK (W (Proc.devRef .tc main_v16)) (W (Proc.devRef .tc main_arg5)) (W (Proc.devRef .tc main_arg6)) := by
  after_results_simp
  rfl

/-- The first stretch after the region, at the type loss. -/
theorem s0_v49 : StableHlo.after hostOps1 W (Proc.devRef .tc main_v49)
    = tlK (W (Proc.devRef .tc main_v45_0)) (W (Proc.devRef .tc main_v45_1)) := by
  after_results_simp
  rfl

end Stretches

/-! ## The chain from the region's entry -/

section Chain

variable (m : (ℓ : Loc nD τ sig) → Buf (Elt Ideal) ℓ)
variable (outs0 : (c : Dev nD) → Buf (Elt Ideal) ((c : Thread nD τ).loc main_v45_0))
variable (outs1 : (c : Dev nD) → Buf (Elt Ideal) ((c : Thread nD τ).loc main_v45_1))
variable (c : Dev nD)

/-- After the region the first result column holds the region's first result. -/
theorem V4_v45_0 : V4 m outs0 outs1 c (Proc.devRef .tc main_v45_0) = outs0 c := by
  show Function.update (Function.update (V3 m c) (Proc.devRef .tc main_v45_0) (outs0 c)) (Proc.devRef .tc main_v45_1) (outs1 c) (Proc.devRef .tc main_v45_0) = _
  rw [Function.update_of_ne (StableHlo.devRef_ne_of_ne (by decide)), Function.update_self]

/-- After the region the second result column holds the region's second result. -/
theorem V4_v45_1 : V4 m outs0 outs1 c (Proc.devRef .tc main_v45_1) = outs1 c := by
  show Function.update (Function.update (V3 m c) (Proc.devRef .tc main_v45_0) (outs0 c)) (Proc.devRef .tc main_v45_1) (outs1 c) (Proc.devRef .tc main_v45_1) = _
  rw [Function.update_self]

/-- A reference the three stretches before the region do not write holds at the region's entry what the memory held
    at launch. -/
theorem V3_launch (r : Ref sig .tc) (h0 : r ∉ wr0) (h1 : r ∉ wr0_1) (h2 : r ∉ wr0_2) :
    V3 m c (Proc.devRef .tc r) = m (c, Proc.devRef .tc r) :=
  calc V3 m c (Proc.devRef .tc r)
      = V2 m c (Proc.devRef .tc r) := StableHlo.after_of_writes_sub hostOps0_2 _ wr0_2_covers h2
    _ = V1 m c (Proc.devRef .tc r) := StableHlo.after_of_writes_sub hostOps0_1 _ wr0_1_covers h1
    _ = V0 m c (Proc.devRef .tc r) := StableHlo.after_of_writes_sub hostOps0 _ wr0_covers h0
    _ = m (c, Proc.devRef .tc r) := rfl

/-- The type loss after the region, from the region's two results. -/
theorem V9_v49 : V9 m outs0 outs1 c (Proc.devRef .tc main_v49) = tlK (outs0 c) (outs1 c) :=
  calc V9 m outs0 outs1 c (Proc.devRef .tc main_v49)
      = V8 m outs0 outs1 c (Proc.devRef .tc main_v49) := StableHlo.after_of_writes_sub hostOps1_4 _ wr1_4_covers (by decide)
    _ = V7 m outs0 outs1 c (Proc.devRef .tc main_v49) := StableHlo.after_of_writes_sub hostOps1_3 _ wr1_3_covers (by decide)
    _ = V6 m outs0 outs1 c (Proc.devRef .tc main_v49) := StableHlo.after_of_writes_sub hostOps1_2 _ wr1_2_covers (by decide)
    _ = V5 m outs0 outs1 c (Proc.devRef .tc main_v49) := StableHlo.after_of_writes_sub hostOps1_1 _ wr1_1_covers (by decide)
    _ = tlK (V4 m outs0 outs1 c (Proc.devRef .tc main_v45_0)) (V4 m outs0 outs1 c (Proc.devRef .tc main_v45_1)) := s0_v49 _
    _ = tlK (outs0 c) (outs1 c) := by rw [V4_v45_0, V4_v45_1]

/-- Intra, computed before the region, is still there before the last stretch. -/
theorem V8_v39 : V8 m outs0 outs1 c (Proc.devRef .tc main_v39) = V3 m c (Proc.devRef .tc main_v39) :=
  calc V8 m outs0 outs1 c (Proc.devRef .tc main_v39)
      = V7 m outs0 outs1 c (Proc.devRef .tc main_v39) := StableHlo.after_of_writes_sub hostOps1_3 _ wr1_3_covers (by decide)
    _ = V6 m outs0 outs1 c (Proc.devRef .tc main_v39) := StableHlo.after_of_writes_sub hostOps1_2 _ wr1_2_covers (by decide)
    _ = V5 m outs0 outs1 c (Proc.devRef .tc main_v39) := StableHlo.after_of_writes_sub hostOps1_1 _ wr1_1_covers (by decide)
    _ = V4 m outs0 outs1 c (Proc.devRef .tc main_v39) := StableHlo.after_of_writes_sub hostOps1 _ wr1_covers (by decide)
    _ = V3 m c (Proc.devRef .tc main_v39) := V4_other m outs0 outs1 c main_v39 (by decide) (by decide)

/-- The type loss is still there before the last stretch. -/
theorem V8_v49 : V8 m outs0 outs1 c (Proc.devRef .tc main_v49) = tlK (outs0 c) (outs1 c) :=
  calc V8 m outs0 outs1 c (Proc.devRef .tc main_v49)
      = V7 m outs0 outs1 c (Proc.devRef .tc main_v49) := StableHlo.after_of_writes_sub hostOps1_3 _ wr1_3_covers (by decide)
    _ = V6 m outs0 outs1 c (Proc.devRef .tc main_v49) := StableHlo.after_of_writes_sub hostOps1_2 _ wr1_2_covers (by decide)
    _ = V5 m outs0 outs1 c (Proc.devRef .tc main_v49) := StableHlo.after_of_writes_sub hostOps1_1 _ wr1_1_covers (by decide)
    _ = tlK (V4 m outs0 outs1 c (Proc.devRef .tc main_v45_0)) (V4 m outs0 outs1 c (Proc.devRef .tc main_v45_1)) := s0_v49 _
    _ = tlK (outs0 c) (outs1 c) := by rw [V4_v45_0, V4_v45_1]

/-- The positive parts before the last stretch, from the edge embeddings at the region's entry and the two vectors
    of row numbers at launch. -/
theorem V8_v68 : V8 m outs0 outs1 c (Proc.devRef .tc main_v68)
    = reluK (oneMinusK (normK (diffK (V3 m c (Proc.devRef .tc main_v16)) (m (c, Proc.devRef .tc main_arg5)) (m (c, Proc.devRef .tc main_arg6))))) := by
  rw [show V8 m outs0 outs1 c (Proc.devRef .tc main_v68) = reluK (V7 m outs0 outs1 c (Proc.devRef .tc main_v67)) from s3_v68 _,
    show V7 m outs0 outs1 c (Proc.devRef .tc main_v67) = oneMinusK (V6 m outs0 outs1 c (Proc.devRef .tc main_v65)) from s2_v67 _,
    show V6 m outs0 outs1 c (Proc.devRef .tc main_v65) = normK (V5 m outs0 outs1 c (Proc.devRef .tc main_v64)) from s1_v65 _,
    show V5 m outs0 outs1 c (Proc.devRef .tc main_v64) = diffK (V4 m outs0 outs1 c (Proc.devRef .tc main_v16))
      (V4 m outs0 outs1 c (Proc.devRef .tc main_arg5)) (V4 m outs0 outs1 c (Proc.devRef .tc main_arg6)) from s0_v64 _,
    V4_other m outs0 outs1 c main_v16 (by decide) (by decide), V4_other m outs0 outs1 c main_arg5 (by decide) (by decide),
    V4_other m outs0 outs1 c main_arg6 (by decide) (by decide),
    V3_launch m c main_arg5 (by decide) (by decide) (by decide), V3_launch m c main_arg6 (by decide) (by decide) (by decide)]

/-- **The kernel program's result vector**, for whatever the region leaves in its two result columns. -/
theorem V9_v81 : V9 m outs0 outs1 c (Proc.devRef .tc main_v81)
    = tailK (V3 m c (Proc.devRef .tc main_v39)) (tlK (outs0 c) (outs1 c)) (V3 m c (Proc.devRef .tc main_v16))
        (m (c, Proc.devRef .tc main_arg5)) (m (c, Proc.devRef .tc main_arg6)) := by
  rw [show V9 m outs0 outs1 c (Proc.devRef .tc main_v81) = packK (V8 m outs0 outs1 c (Proc.devRef .tc main_v39))
      (V8 m outs0 outs1 c (Proc.devRef .tc main_v49)) (meanSqK (V8 m outs0 outs1 c (Proc.devRef .tc main_v68))) from s4_v81 _,
    V8_v39, V8_v49, V8_v68]
  rfl

end Chain

end Cert.Glue

end
-- ==== Proof.KGluePre.lean ====
/-
  What the kernel program computes before its region, as functions of the argument arrays.

  The three stretches of host operations before the region compute, from the node table, the two vectors of
  262126 numbers (a node row and an edge number per incidence) and the 400 sampled edge numbers: the edge embeddings
  (per edge, the mean of its incident nodes' rows: a gather, two scatter-adds and a division), the intra loss (per
  incidence the squared distance of the node's row from its edge's embedding, averaged per edge, then the mean over
  the sampled edges), and the normalised table (each embedding divided by its Euclidean norm). The region is then
  handed the normalised table in the shorter float format, which on extended reals is the table itself, and the
  edges' types as a 1 × 8192 array.

  Each stretch is read here, over an arbitrary valuation of the buffers, at the buffers the following items need;
  the gathers, scatter-adds, reductions and the square root stay closed. The results are named functions of the
  argument arrays, so that a second program applying the same operations to the same arrays is seen to compute the
  same values without opening any of them.
-/
import proofs.«135812_j48799418417343_1_alg».proof.Proof.KGlueTail
import Idealize.ShloMosaic.Lib.ValueIdx
import Idealize.ShloMosaic.Lib.ValueLayout

set_option maxRecDepth 2000

noncomputable section

namespace Cert.Glue

open Idealize.ShloMosaic Idealize.ShloMosaic.TcCoe Idealize.ShloMosaic.ValueIdx Idealize.SL.Sem
open Cert.KernelIdeal Cert.KernelIdeal.Gen Cert.KernelIdeal.Hand.Run

/-! ## The values before the region, as functions of the argument arrays -/

/-- The incidences' node rows as a column of gather indices: a negative number counts back from the 200000 rows' end. -/
def nodeRowsK (a1 : IVec S262126 32) : IVec S262126x1 32 :=
  broadcastInDim S262126x1 ![0] bcast_S262126_S262126x1_0
    (select (cmpi .slt a1 (broadcastInDim S262126 ![] bcast_S_S262126 (constantI S_ 32 0#32)))
      (addi a1 (broadcastInDim S262126 ![] bcast_S_S262126 (constantI S_ 32 200000#32))) a1)

/-- The node table's rows at the incidences. -/
def gatheredK (x : FVec Ideal S200000x256 .f32) (a1 : IVec S262126 32) : FVec Ideal S262126x256 .f32 :=
  Host.gather gather_S200000x256_S262126x1_S262126x256_1_0_n_n_0_1_1256 x (nodeRowsK a1)

/-- How many incidences each edge has. -/
def countsK (a2 : IVec S262126 32) : FVec Ideal S8192 .f32 :=
  Host.scatterAdd (F := Ideal) scatter_S8192_S262126x1_S262126_n_0_0_1
    (broadcastInDim S8192 ![] bcast_S_S8192 (constant (F := Ideal) S_ .f32 0x00000000#32))
    (broadcastInDim S262126x1 ![0] bcast_S262126_S262126x1_0 a2)
    (broadcastInDim S262126 ![] bcast_S_S262126 (constant (F := Ideal) S_ .f32 0x3F800000#32))

/-- The edge embeddings: per edge the sum of its incident nodes' rows over the number of its incidences. -/
def embK (x : FVec Ideal S200000x256 .f32) (a1 a2 : IVec S262126 32) : FVec Ideal S8192x256 .f32 :=
  Host.divf (F := Ideal)
    (Host.scatterAdd (F := Ideal) scatter_S8192x256_S262126x1_S262126x256_1_0_0_1
      (broadcastInDim S8192x256 ![] bcast_S_S8192x256 (constant (F := Ideal) S_ .f32 0x00000000#32))
      (broadcastInDim S262126x1 ![0] bcast_S262126_S262126x1_0 a2)
      (gatheredK x a1))
    (broadcastInDim S8192x256 ![0, 1] bcast_S8192x1_S8192x256_0_1
      (broadcastInDim S8192x1 ![0] bcast_S8192_S8192x1_0 (countsK a2)))

/-- The incidences' edge numbers as a column of gather indices (a negative one counts back from 8192). -/
def edgeRowsK (a2 : IVec S262126 32) : IVec S262126x1 32 :=
  broadcastInDim S262126x1 ![0] bcast_S262126_S262126x1_0
    (select (cmpi .slt a2 (broadcastInDim S262126 ![] bcast_S_S262126 (constantI S_ 32 0#32)))
      (addi a2 (broadcastInDim S262126 ![] bcast_S_S262126 (constantI S_ 32 8192#32))) a2)

/-- The sampled edge numbers as a column of gather indices. -/
def sampleRowsK (a4 : IVec S400 32) : IVec S400x1 32 :=
  broadcastInDim S400x1 ![0] bcast_S400_S400x1_0
    (select (cmpi .slt a4 (broadcastInDim S400 ![] bcast_S_S400 (constantI S_ 32 0#32)))
      (addi a4 (broadcastInDim S400 ![] bcast_S_S400 (constantI S_ 32 8192#32))) a4)

/-- Per incidence, the squared distance of the node's row from its edge's embedding. -/
def sqDistK (g : FVec Ideal S262126x256 .f32) (emb : FVec Ideal S8192x256 .f32) (a2 : IVec S262126 32) : FVec Ideal S262126 .f32 :=
  Host.reduceAdd (F := Ideal)
    (mulf (F := Ideal)
      (subf (F := Ideal) g (Host.gather gather_S8192x256_S262126x1_S262126x256_1_0_n_n_0_1_1256 emb (edgeRowsK a2)))
      (subf (F := Ideal) g (Host.gather gather_S8192x256_S262126x1_S262126x256_1_0_n_n_0_1_1256 emb (edgeRowsK a2))))
    (constant (F := Ideal) S_ .f32 0x00000000#32) reducesTo_S262126x256_S262126_d1 h_S_

/-- The intra loss from the per-incidence squared distances and the edges' numbers of incidences: per edge the mean,
    then the mean over the sampled edges. -/
def intraOfK (d : FVec Ideal S262126 .f32) (cnt : FVec Ideal S8192 .f32) (a2 : IVec S262126 32) (a4 : IVec S400 32) : FVec Ideal S_ .f32 :=
  Host.divf (F := Ideal)
    (Host.reduceAdd (F := Ideal)
      (Host.gather gather_S8192_S400x1_S400_n_0_n_n_0_1_1
        (Host.divf (F := Ideal)
          (Host.scatterAdd (F := Ideal) scatter_S8192_S262126x1_S262126_n_0_0_1
            (broadcastInDim S8192 ![] bcast_S_S8192 (constant (F := Ideal) S_ .f32 0x00000000#32))
            (broadcastInDim S262126x1 ![0] bcast_S262126_S262126x1_0 a2) d)
          cnt)
        (sampleRowsK a4))
      (constant (F := Ideal) S_ .f32 0x00000000#32) reducesTo_S400_S_d0 h_S_)
    (constant (F := Ideal) S_ .f32 0x43C80000#32)

/-- The intra loss from the argument arrays. -/
def intraK (x : FVec Ideal S200000x256 .f32) (a1 a2 : IVec S262126 32) (a4 : IVec S400 32) : FVec Ideal S_ .f32 :=
  intraOfK (sqDistK (gatheredK x a1) (embK x a1 a2) a2) (countsK a2) a2 a4

/-- The rows' Euclidean norms, as a column. -/
def rowNormK (emb : FVec Ideal S8192x256 .f32) : FVec Ideal S8192x1 .f32 :=
  Host.sqrt (F := Ideal)
    (broadcastInDim S8192x1 ![0] bcast_S8192_S8192x1_0
      (Host.reduceAdd (F := Ideal) (mulf (F := Ideal) emb emb) (constant (F := Ideal) S_ .f32 0x00000000#32) reducesTo_S8192x256_S8192_d1 h_S_))

/-- Each row of a table over the matching entry of a column. -/
def overColK (emb : FVec Ideal S8192x256 .f32) (nrm : FVec Ideal S8192x1 .f32) : FVec Ideal S8192x256 .f32 :=
  Host.divf (F := Ideal) emb (broadcastInDim S8192x256 ![0, 1] bcast_S8192x1_S8192x256_0_1 nrm)

/-- The normalised table: each row over its norm. -/
def zK (emb : FVec Ideal S8192x256 .f32) : FVec Ideal S8192x256 .f32 :=
  overColK emb (rowNormK emb)

/-! ## Each stretch read over an arbitrary valuation -/

section Stretches

variable (W : Valuation τ sig (Elt Ideal))

/-- The first stretch at the edge embeddings. -/
theorem h0_v16 : StableHlo.after hostOps0 W (Proc.devRef .tc main_v16)
    = embK (W (Proc.devRef .tc main_arg0)) (W (Proc.devRef .tc main_arg1)) (W (Proc.devRef .tc main_arg2)) := by
  after_results_simp
  rfl

/-- The first stretch at the intra loss. -/
theorem h0_v39 : StableHlo.after hostOps0 W (Proc.devRef .tc main_v39)
    = intraK (W (Proc.devRef .tc main_arg0)) (W (Proc.devRef .tc main_arg1)) (W (Proc.devRef .tc main_arg2)) (W (Proc.devRef .tc main_arg4)) := by
  after_results_simp
  rfl

/-- The norm stretch at the rows' norms. -/
theorem h1_v40 : StableHlo.after hostOps0_1 W (Proc.devRef .tc main_v40) = rowNormK (W (Proc.devRef .tc main_v16)) := by
  after_results_simp
  rfl

/-- The last stretch before the region at the normalised table. -/
theorem h2_v42 : StableHlo.after hostOps0_2 W (Proc.devRef .tc main_v42)
    = overColK (W (Proc.devRef .tc main_v16)) (W (Proc.devRef .tc main_v40)) := by
  after_results_simp
  rfl

/-- The last stretch before the region at the table in the shorter format: the normalised table's entries. -/
theorem h2_v43 (i : S8192x256.Idx) : StableHlo.after hostOps0_2 W (Proc.devRef .tc main_v43) i
    = StableHlo.after hostOps0_2 W (Proc.devRef .tc main_v42) i := by
  after_results_simp
  rfl

/-- The last stretch before the region at the types as a 1 × 8192 array. -/
theorem h2_v44 (R : Fin 8192) : StableHlo.after hostOps0_2 W (Proc.devRef .tc main_v44) (ix2 (0 : Fin 1) R)
    = W (Proc.devRef .tc main_arg3) (ix1 R) := by
  after_results_simp
  exact shapeCast_a_1a_apply _ _ _ _

end Stretches

/-! ## The values the region is entered with -/

section Entry

variable (m : (ℓ : Loc nD τ sig) → Buf (Elt Ideal) ℓ) (c : Dev nD)

/-- The edge embeddings at the region's entry, from the launch contents of the argument arrays. -/
theorem V3_v16 : V3 m c (Proc.devRef .tc main_v16)
    = embK (m (c, Proc.devRef .tc main_arg0)) (m (c, Proc.devRef .tc main_arg1)) (m (c, Proc.devRef .tc main_arg2)) :=
  calc V3 m c (Proc.devRef .tc main_v16)
      = V2 m c (Proc.devRef .tc main_v16) := StableHlo.after_of_writes_sub hostOps0_2 _ wr0_2_covers (by decide)
    _ = V1 m c (Proc.devRef .tc main_v16) := StableHlo.after_of_writes_sub hostOps0_1 _ wr0_1_covers (by decide)
    _ = _ := h0_v16 _

/-- The intra loss at the region's entry, from the launch contents of the argument arrays. -/
theorem V3_v39 : V3 m c (Proc.devRef .tc main_v39)
    = intraK (m (c, Proc.devRef .tc main_arg0)) (m (c, Proc.devRef .tc main_arg1)) (m (c, Proc.devRef .tc main_arg2))
        (m (c, Proc.devRef .tc main_arg4)) :=
  calc V3 m c (Proc.devRef .tc main_v39)
      = V2 m c (Proc.devRef .tc main_v39) := StableHlo.after_of_writes_sub hostOps0_2 _ wr0_2_covers (by decide)
    _ = V1 m c (Proc.devRef .tc main_v39) := StableHlo.after_of_writes_sub hostOps0_1 _ wr0_1_covers (by decide)
    _ = _ := h0_v39 _

/-- The normalised table at the region's entry is the edge embeddings there, each row over its norm. -/
theorem V3_v42 : V3 m c (Proc.devRef .tc main_v42) = zK (V3 m c (Proc.devRef .tc main_v16)) := by
  have e16 : V2 m c (Proc.devRef .tc main_v16) = V1 m c (Proc.devRef .tc main_v16) :=
    StableHlo.after_of_writes_sub hostOps0_1 _ wr0_1_covers (by decide)
  have e16' : V3 m c (Proc.devRef .tc main_v16) = V2 m c (Proc.devRef .tc main_v16) :=
    StableHlo.after_of_writes_sub hostOps0_2 _ wr0_2_covers (by decide)
  rw [show V3 m c (Proc.devRef .tc main_v42) = overColK (V2 m c (Proc.devRef .tc main_v16)) (V2 m c (Proc.devRef .tc main_v40)) from h2_v42 _,
    show V2 m c (Proc.devRef .tc main_v40) = rowNormK (V1 m c (Proc.devRef .tc main_v16)) from h1_v40 _, e16', e16]
  rfl

/-- The table the region reads (the shorter float format) is, entry by entry, the normalised table. -/
theorem V3_v43 (i : S8192x256.Idx) : V3 m c (Proc.devRef .tc main_v43) i = V3 m c (Proc.devRef .tc main_v42) i :=
  h2_v43 _ i

/-- The types the region reads are, entry by entry, the argument array's at launch. -/
theorem V3_v44 (R : Fin 8192) : V3 m c (Proc.devRef .tc main_v44) (ix2 (0 : Fin 1) R) = m (c, Proc.devRef .tc main_arg3) (ix1 R) :=
  calc V3 m c (Proc.devRef .tc main_v44) (ix2 (0 : Fin 1) R)
      = V2 m c (Proc.devRef .tc main_arg3) (ix1 R) := h2_v44 _ R
    _ = V1 m c (Proc.devRef .tc main_arg3) (ix1 R) :=
        congrFun (StableHlo.after_of_writes_sub hostOps0_1 _ wr0_1_covers (by decide)) _
    _ = m (c, Proc.devRef .tc main_arg3) (ix1 R) :=
        congrFun (StableHlo.after_of_writes_sub hostOps0 _ wr0_covers (by decide)) _

end Entry

end Cert.Glue

end
-- ==== Proof.KResult.lean ====
/-
  The kernel program's result vector from its argument arrays, at the extended reals.

  The program ends holding the tail (intra, type, inter and their weighted total, packed) of: the intra loss and the
  edge embeddings its first host stretch computes, and the type loss its region and the two column totals compute.
  The region's two columns are the specification's row losses and row indicators of the table and types it reads; the
  table it reads is, entry by entry, the normalised table the host computes (the change to the shorter float format
  is the identity on the extended reals), and the types it reads are the argument array's. So the type loss is the
  specification's loss of the normalised table and the edges' types.
-/
import proofs.«135812_j48799418417343_1_alg».proof.Proof.KTail
import proofs.«135812_j48799418417343_1_alg».proof.Proof.KGlueTail
import proofs.«135812_j48799418417343_1_alg».proof.Proof.KGluePre

noncomputable section

namespace Cert.KernelIdeal.KVal

open Idealize.ShloMosaic Idealize.ShloMosaic.TcCoe Idealize.ShloMosaic.ValueIdx Idealize.SL.Sem
open Idealize.SL Idealize.SL.RA
open Cert.KernelIdeal Cert.KernelIdeal.Gen Cert.KernelIdeal.Hand Cert.KernelIdeal.Hand.Run Cert.Glue

variable (m : (ℓ : Loc nD τ sig) → Buf (Elt Ideal) ℓ) (c : Dev nD)

/-- The table the region reads is the normalised table the host computes, entry by entry. -/
theorem zOf_eq : zOf m c = fun R k => V3 m c (Proc.devRef .tc main_v42) (ix2 R k) :=
  funext fun R => funext fun k => V3_v43 m c (ix2 R k)

/-- The types the region reads are the argument array's. -/
theorem etOf_eq : etOf m c = fun R => m (c, Proc.devRef .tc main_arg3) (ix1 R) :=
  funext fun R => V3_v44 m c R

/-- The type loss the program forms from the region's two columns is the specification's loss. -/
theorem tl_eq :
    tlK ((dat (Ix := Unit) (UA := UR sig nD τ) (Lvl := ℕ) m c).arrAt 4 cfg0.N)
        ((dat (Ix := Unit) (UA := UR sig nD τ) (Lvl := ℕ) m c).arrAt 5 cfg0.N)
      = fun _ => Cert.Spec.typeLoss (fun R k => V3 m c (Proc.devRef .tc main_v42) (ix2 R k))
          (fun R => m (c, Proc.devRef .tc main_arg3) (ix1 R)) := by
  rw [final4, final5, ← zOf_eq, ← etOf_eq]
  exact typeLoss_cols m c

/-- THE KERNEL PROGRAM'S RESULT VECTOR. -/
theorem kernel_result :
    V9 m (fun c => (dat (Ix := Unit) (UA := UR sig nD τ) (Lvl := ℕ) m c).arrAt 4 cfg0.N)
        (fun c => (dat (Ix := Unit) (UA := UR sig nD τ) (Lvl := ℕ) m c).arrAt 5 cfg0.N) c (Proc.devRef .tc main_v81)
      = tailK (V3 m c (Proc.devRef .tc main_v39))
          (fun _ => Cert.Spec.typeLoss (fun R k => V3 m c (Proc.devRef .tc main_v42) (ix2 R k))
            (fun R => m (c, Proc.devRef .tc main_arg3) (ix1 R)))
          (V3 m c (Proc.devRef .tc main_v16)) (m (c, Proc.devRef .tc main_arg5)) (m (c, Proc.devRef .tc main_arg6)) := by
  rw [V9_v81]
  exact congrArg (fun tl => tailK (V3 m c (Proc.devRef .tc main_v39)) tl (V3 m c (Proc.devRef .tc main_v16))
    (m (c, Proc.devRef .tc main_arg5)) (m (c, Proc.devRef .tc main_arg6))) (tl_eq m c)

end Cert.KernelIdeal.KVal

end
-- ==== Proof.RefSplit.lean ====
/-
  The reference's operations cut in three: those that make the normalised embeddings z and, before them, the intra
  loss and the edge embeddings (the first 60); those that make the type loss from z and the edge types (the next 56);
  and the rest, which make the inter loss from the edge embeddings and pack the result (the last 47). The buffers'
  contents after the whole list are those after the third part, from those after the second, from those after the
  first.
-/
import proofs.«135812_j48799418417343_1_alg».proof.Proof.RefRunP

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- The operations through the normalised embeddings. -/
def opsA : List (HloOp τ sig (Elt F)) := (ops (F := F)).take 60
/-- The operations from the transpose through the type loss. -/
def opsB : List (HloOp τ sig (Elt F)) := ((ops (F := F)).drop 60).take 56
/-- The operations after the type loss. -/
def opsC : List (HloOp τ sig (Elt F)) := ((ops (F := F)).drop 60).drop 56

theorem ops_split : ops (F := F) = opsA ++ (opsB ++ opsC) := by
  unfold opsA opsB opsC
  rw [List.take_append_drop, List.take_append_drop]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The contents after the whole list, through the three parts. -/
theorem after_split (V : Valuation τ sig (Elt F)) :
    after (ops (F := F)) V = after opsC (after opsB (after opsA V)) := by
  rw [ops_split, after_append, after_append]

end Cert.ReferenceIdeal.ValueP

end
-- ==== Proof.RefTail.lean ====
/-
  The reference's last operations as one function. After the type loss the reference gathers the rows of the edge
  embeddings that two vectors of 500 row numbers name (a negative number counting back from the 8192 rows' end), takes
  the rows' differences, their Euclidean norms, one minus the norm, its positive part, the square and the mean over the
  500 pairs (the inter loss); forms 1·intra + ½·type + ½·inter; and packs intra, type, inter and that total into a
  vector of four. The gathers, the reductions and the square root stay closed.
-/
import proofs.«135812_j48799418417343_1_alg».proof.Proof.RefSplit
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP

/-- 500 row numbers as a column of gather indices: a negative number counts back from the 8192 rows' end. -/
def rowsR (a : IVec S500 32) : IVec S500x1 32 :=
  broadcastInDim S500x1 ![0] bcast_S500_S500x1_0
    (select (cmpi .slt a (broadcastInDim S500 ![] bcast_S_S500 (constantI S_ 32 0#32)))
      (addi a (broadcastInDim S500 ![] bcast_S_S500 (constantI S_ 32 8192#32))) a)

/-- The differences of the embedding rows the two vectors of row numbers name. -/
def diffR (emb : FVec Ideal S8192x256 .f32) (a5 a6 : IVec S500 32) : FVec Ideal S500x256 .f32 :=
  subf (F := Ideal)
    (Host.gather gather_S8192x256_S500x1_S500x256_1_0_n_n_0_1_1256 emb (rowsR a5))
    (Host.gather gather_S8192x256_S500x1_S500x256_1_0_n_n_0_1_1256 emb (rowsR a6))

/-- The Euclidean norm of each of the 500 rows. -/
def normR (d : FVec Ideal S500x256 .f32) : FVec Ideal S500 .f32 :=
  Host.sqrt (F := Ideal)
    (Host.reduceAdd (F := Ideal) (mulf (F := Ideal) d d) (constant (F := Ideal) S_ .f32 0x00000000#32) reducesTo_S500x256_S500_d1 h_S_)

/-- One minus each entry. -/
def oneMinusR (n : FVec Ideal S500 .f32) : FVec Ideal S500 .f32 :=
  subf (F := Ideal) (broadcastInDim S500 ![] bcast_S_S500 (constant (F := Ideal) S_ .f32 0x3F800000#32)) n

/-- The positive part of each entry. -/
def reluR (x : FVec Ideal S500 .f32) : FVec Ideal S500 .f32 :=
  maximumf (F := Ideal) x (broadcastInDim S500 ![] bcast_S_S500 (constant (F := Ideal) S_ .f32 0x00000000#32))

/-- The mean of the 500 squares. -/
def meanSqR (r : FVec Ideal S500 .f32) : FVec Ideal S_ .f32 :=
  Host.divf (F := Ideal)
    (Host.reduceAdd (F := Ideal) (mulf (F := Ideal) r r) (constant (F := Ideal) S_ .f32 0x00000000#32) reducesTo_S500_S_d0 h_S_)
    (constant (F := Ideal) S_ .f32 0x43FA0000#32)

/-- The inter loss from the edge embeddings and the two vectors of row numbers. -/
def interR (emb : FVec Ideal S8192x256 .f32) (a5 a6 : IVec S500 32) : FVec Ideal S_ .f32 :=
  meanSqR (reluR (oneMinusR (normR (diffR emb a5 a6))))

/-- The weighted total 1·intra + ½·type + ½·inter. -/
def totalR (intra tl inter : FVec Ideal S_ .f32) : FVec Ideal S_ .f32 :=
  addf (F := Ideal)
    (addf (F := Ideal) (mulf (F := Ideal) (constant (F := Ideal) S_ .f32 0x3F800000#32) intra)
      (mulf (F := Ideal) (constant (F := Ideal) S_ .f32 0x3F000000#32) tl))
    (mulf (F := Ideal) (constant (F := Ideal) S_ .f32 0x3F000000#32) inter)

/-- Intra, type, inter and their weighted total packed into a vector of four. -/
def packR (intra tl inter : FVec Ideal S_ .f32) : FVec Ideal S4 .f32 :=
  concatenate S4 0
    [⟨S1, broadcastInDim S1 ![] bcast_S_S1 intra⟩, ⟨S1, broadcastInDim S1 ![] bcast_S_S1 tl⟩,
     ⟨S1, broadcastInDim S1 ![] bcast_S_S1 inter⟩, ⟨S1, broadcastInDim S1 ![] bcast_S_S1 (totalR intra tl inter)⟩]
    concatenates_S1_S1_S1_S1_S4_d0

/-- The whole tail: the result vector from intra, the type loss, the edge embeddings and the two vectors of row
    numbers. -/
def tailR (intra tl : FVec Ideal S_ .f32) (emb : FVec Ideal S8192x256 .f32) (a5 a6 : IVec S500 32) : FVec Ideal S4 .f32 :=
  packR intra tl (interR emb a5 a6)

/-- After the last part of the reference's operations, from any contents, the result buffer holds the tail of the intra
    loss, the type loss, the edge embeddings and the two vectors of row numbers found there. -/
theorem tail_v116 (W : Valuation τ sig (Elt Ideal)) :
    after (opsC (F := Ideal)) W (Proc.devRef .tc main_v116)
      = tailR (W (Proc.devRef .tc main_v39)) (W (Proc.devRef .tc main_v84)) (W (Proc.devRef .tc main_v16))
          (W (Proc.devRef .tc main_arg5)) (W (Proc.devRef .tc main_arg6)) := by
  simp only [opsC, ops, List.drop]
  after_results_simp
  rfl

end Cert.ReferenceIdeal.RefValue

end
-- ==== Proof.LibCount.lean ====
/-
  Counting with one-bit words. A comparison yields a one-bit word; the host turns such a word into a float
  (one or zero) or widens it to a 32-bit integer (one or zero) and adds the integers up. Stated here, for any
  finite index set: a one-bit word is one or zero; its unsigned conversion to an extended real is 1 or 0; the
  32-bit sum of widened bits, over fewer than 2^31 indices, does not wrap, so that its value is the number of
  indices whose bit is set, it is positive (signed) exactly when some bit is set, and its signed conversion to
  an extended real is that number. Also: the bit an integer equality test yields, the complement and the
  conjunction of bits, and the float word of one.
-/
import Idealize.ShloMosaic.PureOps.Ideal.Laws
import Idealize.ShloMosaic.PureOps.Reduce

noncomputable section

namespace Cert.LibCount

open Idealize.ShloMosaic

/-- A one-bit word is one or zero. -/
theorem bit_cases (b : BitVec 1) : b = 1#1 ∨ b = 0#1 := by
  revert b; decide

/-- The complement of a bit is set exactly when the bit is not. -/
theorem not_bit_eq_one (b : BitVec 1) : (~~~b = 1#1) ↔ ¬ b = 1#1 := by
  revert b; decide

/-- The conjunction of two bits is set exactly when both are. -/
theorem and_bit_eq_one (a b : BitVec 1) : (IntOp.andi a b = 1#1) ↔ (a = 1#1 ∧ b = 1#1) := by
  revert a b; decide

/-- An integer equality test yields the set bit exactly when the operands are equal. -/
theorem cmpi_eq_eq_one {w : Nat} (x y : BitVec w) : (IntOp.cmpi .eq x y = 1#1) ↔ x = y := by
  show BitVec.ofBool (x == y) = 1#1 ↔ x = y
  by_cases h : x = y
  · have hb : (x == y) = true := by simpa using h
    rw [hb]; exact ⟨fun _ => h, fun _ => rfl⟩
  · have hb : (x == y) = false := by simpa using h
    rw [hb]; exact ⟨fun e => absurd e (by decide), fun e => absurd e h⟩

/-- A signed test against zero yields the set bit exactly when the integer is positive. -/
theorem cmpi_sgt_zero_eq_one (x : BitVec 32) : (IntOp.cmpi .sgt x 0#32 = 1#1) ↔ 0 < x.toInt := by
  show BitVec.ofBool ((0#32).slt x) = 1#1 ↔ 0 < x.toInt
  by_cases h : 0 < x.toInt
  · have hb : (0#32).slt x = true := by simp [BitVec.slt, h]
    rw [hb]; exact ⟨fun _ => h, fun _ => rfl⟩
  · have hb : (0#32).slt x = false := by simp [BitVec.slt, h]
    rw [hb]; exact ⟨fun e => absurd e (by decide), fun e => absurd e h⟩

/-- Two naturals below 2^32 have the same 32-bit word only when they are equal (an `iota`'s entries). -/
theorem ofNat32_inj {a b : Nat} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · intro h; rw [h]

/-- A select on a bit is the conditional on the bit being set. -/
theorem select_bit {α : Type} (c : BitVec 1) (a b : α) : Scalar.select c a b = if c = 1#1 then a else b := rfl

/-- The word `0x3F800000` is the float one. -/
theorem ofBits_one_f32 : Ideal.ofBits .f32 0x3F800000#32 = 1 := by
  simp [Ideal.ofBits, Ideal.ieee, -EReal.coe_mul]; norm_num

/-- The unsigned conversion of a bit to an extended real is 1 or 0. -/
theorem uitofp_bit (b : BitVec 1) :
    FloatOps.uitofp (F := Ideal) .f32 b = if b = 1#1 then (1 : EReal) else 0 := by
  rcases bit_cases b with rfl | rfl
  · show (((1#1 : BitVec 1).toNat : ℝ) : EReal) = _
    simp
  · show (((0#1 : BitVec 1).toNat : ℝ) : EReal) = _
    simp

/-- A bit widened to 32 bits is the integer one or zero. -/
theorem setWidth_bit_toNat (b : BitVec 1) : (b.setWidth 32).toNat = if b = 1#1 then 1 else 0 := by
  revert b; decide

/-- The 32-bit sum of widened bits over a finite set of fewer than 2^32 indices is the number of set bits. -/
theorem fold_addi_bits_toNat {ι : Type} [DecidableEq ι] (S : Finset ι) (b : ι → BitVec 1) (hS : S.card < 2 ^ 32) :
    (S.fold IntOp.addi 0#32 (fun k => (b k).setWidth 32)).toNat = (S.filter fun k => b k = 1#1).card := by
  induction S using Finset.induction_on with
  | empty => simp
  | insert a S ha ih =>
    have hc : S.card < 2 ^ 32 := by rw [Finset.card_insert_of_notMem ha] at hS; omega
    have hle : (S.filter fun k => b k = 1#1).card ≤ S.card := Finset.card_filter_le _ _
    rw [Finset.fold_insert ha, Finset.filter_insert]
    show ((b a).setWidth 32 + S.fold IntOp.addi 0#32 (fun k => (b k).setWidth 32)).toNat = _
    rw [BitVec.toNat_add, ih hc, setWidth_bit_toNat]
    by_cases h : b a = 1#1
    · rw [if_pos h, if_pos h, Finset.card_insert_of_notMem (by simp [ha])]
      rw [Finset.card_insert_of_notMem ha] at hS
      omega
    · rw [if_neg h, if_neg h]
      omega

/-- Over fewer than 2^31 indices the sum read as a signed integer is still the number of set bits. -/
theorem fold_addi_bits_toInt {ι : Type} [DecidableEq ι] (S : Finset ι) (b : ι → BitVec 1) (hS : S.card < 2 ^ 31) :
    (S.fold IntOp.addi 0#32 (fun k => (b k).setWidth 32)).toInt = ((S.filter fun k => b k = 1#1).card : ℤ) := by
  have h := fold_addi_bits_toNat S b (by omega)
  have hle : (S.filter fun k => b k = 1#1).card ≤ S.card := Finset.card_filter_le _ _
  rw [BitVec.toInt_eq_toNat_cond, if_pos (by omega), h]

/-- … so it is positive, as a signed integer, exactly when some bit of the set is set. -/
theorem cmpi_sgt_fold_eq_one {ι : Type} [DecidableEq ι] (S : Finset ι) (b : ι → BitVec 1) (hS : S.card < 2 ^ 31) :
    (IntOp.cmpi .sgt (S.fold IntOp.addi 0#32 (fun k => (b k).setWidth 32)) 0#32 = 1#1) ↔ ∃ k ∈ S, b k = 1#1 := by
  rw [cmpi_sgt_zero_eq_one, fold_addi_bits_toInt S b hS]
  rw [Int.natCast_pos, Finset.card_pos, Finset.filter_nonempty_iff]

/-- The sum over a finite set of the extended reals 1 (where a condition holds) and 0 (elsewhere) is the number of
    indices where it holds. -/
theorem sum_ite_one_zero {ι : Type} [DecidableEq ι] (S : Finset ι) (p : ι → Prop) [DecidablePred p] :
    (∑ i ∈ S, (if p i then (1 : EReal) else 0)) = (((S.filter p).card : ℝ) : EReal) := by
  induction S using Finset.induction_on with
  | empty => simp
  | insert a S ha ih =>
    rw [Finset.sum_insert ha, ih, Finset.filter_insert]
    by_cases h : p a
    · rw [if_pos h, if_pos h, Finset.card_insert_of_notMem (by simp [ha]), Nat.cast_succ, EReal.coe_add, EReal.coe_one,
        add_comm]
    · rw [if_neg h, if_neg h, zero_add]

/-- The signed conversion, to an extended real, of the 32-bit sum of widened bits over fewer than 2^31 indices is the
    sum of 1 over the indices whose bit is set and 0 over the others. -/
theorem sitofp_fold_addi_bits {ι : Type} [DecidableEq ι] (S : Finset ι) (b : ι → BitVec 1) (hS : S.card < 2 ^ 31) :
    FloatOps.sitofp (F := Ideal) .f32 (S.fold IntOp.addi 0#32 (fun k => (b k).setWidth 32))
      = ∑ k ∈ S, (if b k = 1#1 then (1 : EReal) else 0) := by
  show (((S.fold IntOp.addi 0#32 (fun k => (b k).setWidth 32)).toInt : ℝ) : EReal) = _
  rw [fold_addi_bits_toInt S b hS, sum_ite_one_zero]
  norm_cast

end Cert.LibCount

end
-- ==== Proof.RefSide.lean ====
/-
  The reference's side of the equivalence: the type-contrastive loss the reference computes by its host
  operations, from the normalised embeddings z and the edge types, is the specification's loss.

  The reference forms the similarity matrix z zT / tau by a transpose, a contraction over the 256 features and a
  division by the temperature word; masks the diagonal by comparing two iotas; sums exp(similarity) off the
  diagonal along each row (the denominator), and the same restricted to the columns of the row's type (the
  numerator); takes minus the logarithm of (numerator + eps) / (denominator + eps); keeps it for the rows whose
  INTEGER count of positives is positive and puts zero elsewhere; sums over the rows and divides by the integer
  number of kept rows, converted to a float and bounded below by one. Read index by index over the extended
  reals, each stage is the specification's quantity of the same name: the integer counts never wrap (at most
  8192 ones are added), so a count is positive exactly when a positive exists, and its conversion is the sum of
  the rows' indicators.
-/
import proofs.«135812_j48799418417343_1_alg».proof.ReferenceIdeal
import proofs.«135812_j48799418417343_1_alg».proof.Proof.Gen.ReferenceIdeal
import proofs.«135812_j48799418417343_1_alg».proof.Proof.Spec
import proofs.«135812_j48799418417343_1_alg».proof.Proof.LibCount
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce
import Idealize.ShloMosaic.Lib.StableHlo.Run
import Idealize.ShloMosaic.Lib.ReduceAll

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.LibCount

/-! ## The reference's stages, as functions of the normalised embeddings and the edge types -/

section Stages

variable (z : FVec Ideal S8192x256 .f32) (et : IVec S8192 32)

/-- The similarity matrix: the contraction of z with its transpose over the features, divided by the temperature
    word (the reference's transpose, dot_general, constant, broadcast and divide). -/
def sim : FVec Ideal S8192x8192 .f32 :=
  Host.divf (F := Ideal) (Host.dotGeneral (F := Ideal) dot_S8192x256_S256x8192_S8192x8192_1_0_0_1_n_n none z (transpose S256x8192 [1, 0] z transposes_S8192x256_S256x8192_1_0))
    (broadcastInDim S8192x8192 ![] bcast_S_S8192x8192 (constant (F := Ideal) S_ .f32 0x3DCCCCCD#32))

/-- The diagonal, as bits: the row iota (plus a zero splat) compared with the column iota. -/
def diag : IVec S8192x8192 1 :=
  cmpi .eq (addi (iotaInDim S8192x8192 32 0) (broadcastInDim S8192x8192 ![] bcast_S_S8192x8192 (constantI S_ 32 0#32)))
    (iotaInDim S8192x8192 32 1)

/-- exp of the similarity, times the complement of the diagonal converted to a float. -/
def expSim : FVec Ideal S8192x8192 .f32 :=
  mulf (F := Ideal) (Host.exp (F := Ideal) (sim z)) (uitofp (F := Ideal) .f32 (noti diag))

/-- The rows' sums of it: the denominators. -/
def den : FVec Ideal S8192 .f32 :=
  Host.reduceAdd (F := Ideal) (expSim z) (constant (F := Ideal) S_ .f32 0x00000000#32) reducesTo_S8192x8192_S8192_d1 h_S_

/-- The positives, as bits: the types broadcast along the rows equal the types broadcast along the columns, and
    off the diagonal. -/
def tmask : IVec S8192x8192 1 :=
  andi (cmpi .eq (broadcastInDim S8192x8192 ![0, 1] bcast_S1x8192_S8192x8192_0_1 (broadcastInDim S1x8192 ![1] bcast_S8192_S1x8192_1 et))
      (broadcastInDim S8192x8192 ![0, 1] bcast_S8192x1_S8192x8192_0_1 (broadcastInDim S8192x1 ![0] bcast_S8192_S8192x1_0 et)))
    (noti diag)

/-- The rows' sums over the positives: the numerators. -/
def num : FVec Ideal S8192 .f32 :=
  Host.reduceAdd (F := Ideal) (mulf (F := Ideal) (expSim z) (uitofp (F := Ideal) .f32 (tmask et))) (constant (F := Ideal) S_ .f32 0x00000000#32) reducesTo_S8192x8192_S8192_d1 h_S_

/-- Minus the logarithm of (numerator + eps) over (denominator + eps), per row. -/
def perRow : FVec Ideal S8192 .f32 :=
  Host.negf (F := Ideal) (Host.log (F := Ideal) (Host.divf (F := Ideal)
    (addf (F := Ideal) (num z et) (broadcastInDim S8192 ![] bcast_S_S8192 (constant (F := Ideal) S_ .f32 0x322BCC77#32)))
    (addf (F := Ideal) (den z) (broadcastInDim S8192 ![] bcast_S_S8192 (constant (F := Ideal) S_ .f32 0x322BCC77#32)))))

/-- The rows' integer counts of positives. -/
def cnt : IVec S8192 32 :=
  Host.reduce IntOp.addi (extui 32 (tmask et) natLt_1_32) (constantI S_ 32 0#32) reducesTo_S8192x8192_S8192_d1 h_S_

/-- The rows that have a positive, as bits: the count is positive. -/
def hasPos : IVec S8192 1 :=
  cmpi .sgt (cnt et) (broadcastInDim S8192 ![] bcast_S_S8192 (constantI S_ 32 0#32))

/-- The row's loss where the row has a positive, the zero word elsewhere. -/
def rowSel : FVec Ideal S8192 .f32 :=
  select (hasPos et) (perRow z et) (broadcastInDim S8192 ![] bcast_S_S8192 (id (constant (F := Ideal) S_ .f32 0x00000000#32)))

/-- The sum of the rows' losses. -/
def lossSum : FVec Ideal S_ .f32 :=
  Host.reduceAdd (F := Ideal) (rowSel z et) (constant (F := Ideal) S_ .f32 0x00000000#32) reducesTo_S8192_S_d0 h_S_

/-- The integer number of rows that have a positive, converted to a float. -/
def nHas : FVec Ideal S_ .f32 :=
  sitofp (F := Ideal) .f32 (Host.reduce IntOp.addi (extui 32 (hasPos et) natLt_1_32) (constantI S_ 32 0#32) reducesTo_S8192_S_d0 h_S_)

/-- The reference's type loss: the sum of the rows' losses over the number of rows with a positive, bounded below
    by the word of one. -/
def refTypeLoss : FVec Ideal S_ .f32 :=
  Host.divf (F := Ideal) (lossSum z et) (maximumf (F := Ideal) (nHas et) (constant (F := Ideal) S_ .f32 0x3F800000#32))

end Stages

/-! ## Each stage read at an index -/

section Reads

variable (z : FVec Ideal S8192x256 .f32) (et : IVec S8192 32)

/-- The embeddings as a matrix of extended reals. -/
abbrev zfun : Fin 8192 → Fin 256 → EReal := fun R k => z (ValueIdx.ix2 R k)
/-- The edge types as a family of words. -/
abbrev etfun : Fin 8192 → BitVec 32 := fun R => et (ValueIdx.ix1 R)

theorem red1 : S8192x8192.Reduces [1] S8192 := by decide

/-- An index of the one-axis shape is its one coordinate. -/
def idxEquiv1 : S8192.Idx ≃ Fin 8192 where
  toFun j := j 0
  invFun := ValueIdx.ix1
  left_inv j := (ValueIdx.eq_ix1 j).symm
  right_inv _ := rfl

theorem card_idx_lt : (Finset.univ : Finset S8192.Idx).card < 2 ^ 31 := by
  rw [Finset.card_univ, Fintype.card_congr idxEquiv1, Fintype.card_fin]; norm_num

/-- A splat of a rank-zero array reads that array's one element everywhere. -/
theorem splat_apply {α : Type} {t : Shape} (h : S_.BroadcastsInDim t (![] : Fin 0 → Fin t.rank)) (y : S_.Idx → α) (i : t.Idx) :
    broadcastInDim t ![] h y i = y (fun a => a.elim0) :=
  broadcastInDim_apply _ h y i (fun a => a.elim0) (fun a => a.elim0)

/-! The contraction's operand indices: at the result index (R, C) and the feature k the left operand is read at (R, k)
    and the right one, the transpose, at (k, C). One lemma per operand axis. -/

theorem lhs_0 (i : S8192x8192.Idx) (q : dot_S8192x256_S256x8192_S8192x8192_1_0_0_1_n_n.contr.Idx) : (dot_S8192x256_S256x8192_S8192x8192_1_0_0_1_n_n.lhsIdx i q 0).val = (i 0).val := by
  unfold DotDims.lhsIdx
  rw [dif_neg (show ¬(0 : Fin S8192x256.rank) ∈ dot_S8192x256_S256x8192_S8192x8192_1_0_0_1_n_n.lhsBatch by decide),
    dif_pos (show (0 : Fin S8192x256.rank) ∈ dot_S8192x256_S256x8192_S8192x8192_1_0_0_1_n_n.lhsNonContracting by decide)]
  rfl
theorem lhs_1 (i : S8192x8192.Idx) (q : dot_S8192x256_S256x8192_S8192x8192_1_0_0_1_n_n.contr.Idx) : (dot_S8192x256_S256x8192_S8192x8192_1_0_0_1_n_n.lhsIdx i q 1).val = (q ⟨0, by decide⟩).val :=
  dot_S8192x256_S256x8192_S8192x8192_1_0_0_1_n_n.lhsIdx_val_of_single rfl i q
theorem rhs_0 (i : S8192x8192.Idx) (q : dot_S8192x256_S256x8192_S8192x8192_1_0_0_1_n_n.contr.Idx) : (dot_S8192x256_S256x8192_S8192x8192_1_0_0_1_n_n.rhsIdx i q 0).val = (q ⟨0, by decide⟩).val :=
  dot_S8192x256_S256x8192_S8192x8192_1_0_0_1_n_n.rhsIdx_val_of_single rfl i q
theorem rhs_1 (i : S8192x8192.Idx) (q : dot_S8192x256_S256x8192_S8192x8192_1_0_0_1_n_n.contr.Idx) : (dot_S8192x256_S256x8192_S8192x8192_1_0_0_1_n_n.rhsIdx i q 1).val = (i 1).val := by
  unfold DotDims.rhsIdx
  rw [dif_neg (show ¬(1 : Fin S256x8192.rank) ∈ dot_S8192x256_S256x8192_S8192x8192_1_0_0_1_n_n.rhsBatch by decide),
    dif_pos (show (1 : Fin S256x8192.rank) ∈ dot_S8192x256_S256x8192_S8192x8192_1_0_0_1_n_n.rhsNonContracting by decide)]
  rfl

theorem sim_apply (R C : Fin 8192) :
    sim z (ValueIdx.ix2 R C) = Ideal.div (Cert.Spec.dot (zfun z) R C) Cert.Spec.tau := by
  unfold sim
  show FloatOps.hostDivf (F := Ideal) (Host.dotGeneral (F := Ideal) dot_S8192x256_S256x8192_S8192x8192_1_0_0_1_n_n none z
      (transpose S256x8192 [1, 0] z transposes_S8192x256_S256x8192_1_0) (ValueIdx.ix2 R C))
    (broadcastInDim S8192x8192 ![] bcast_S_S8192x8192 (constant (F := Ideal) S_ .f32 0x3DCCCCCD#32) (ValueIdx.ix2 R C)) = _
  rw [Ideal.hostDivf_def, splat_apply]
  refine congrArg (Ideal.div · _) ?_
  generalize htr : transpose S256x8192 [1, 0] z transposes_S8192x256_S256x8192_1_0 = zt
  simp only [Host.dotGeneral]
  rw [Ideal.dotGeneral_apply, ← Equiv.sum_comp (ValueIdx.contrEquiv1 dot_S8192x256_S256x8192_S8192x8192_1_0_0_1_n_n 256 rfl rfl).symm]
  unfold Cert.Spec.dot
  refine Finset.sum_congr rfl fun k _ => ?_
  have hk := ValueIdx.contrEquiv1_symm_val dot_S8192x256_S256x8192_S8192x8192_1_0_0_1_n_n 256 rfl rfl k
  have el : dot_S8192x256_S256x8192_S8192x8192_1_0_0_1_n_n.lhsIdx (ValueIdx.ix2 R C) ((ValueIdx.contrEquiv1 dot_S8192x256_S256x8192_S8192x8192_1_0_0_1_n_n 256 rfl rfl).symm k) = ValueIdx.ix2 R k :=
    funext fun a => Fin.ext (by
      match a with
      | ⟨0, _⟩ => exact lhs_0 _ _
      | ⟨1, _⟩ => exact (lhs_1 _ _).trans hk)
  have er : dot_S8192x256_S256x8192_S8192x8192_1_0_0_1_n_n.rhsIdx (ValueIdx.ix2 R C) ((ValueIdx.contrEquiv1 dot_S8192x256_S256x8192_S8192x8192_1_0_0_1_n_n 256 rfl rfl).symm k) = ValueIdx.ix2 k C :=
    funext fun a => Fin.ext (by
      match a with
      | ⟨0, _⟩ => exact (rhs_0 _ _).trans hk
      | ⟨1, _⟩ => exact rhs_1 _ _)
  rw [el, er, ← htr]
  refine congrArg (z (ValueIdx.ix2 R k) * ·) ?_
  exact transpose_apply [1, 0] z transposes_S8192x256_S256x8192_1_0 (ValueIdx.ix2 k C) (ValueIdx.ix2 C k) (fun b => match b with
    | ⟨0, _⟩ => rfl
    | ⟨1, _⟩ => rfl)

theorem diag_apply (R C : Fin 8192) : (diag (ValueIdx.ix2 R C) = 1#1) ↔ R = C := by
  unfold diag
  show IntOp.cmpi .eq (IntOp.addi (BitVec.ofNat 32 R.val)
      (broadcastInDim S8192x8192 ![] bcast_S_S8192x8192 (constantI S_ 32 0#32) (ValueIdx.ix2 R C))) (BitVec.ofNat 32 C.val) = 1#1 ↔ _
  rw [splat_apply, cmpi_eq_eq_one]
  show BitVec.ofNat 32 R.val + 0#32 = BitVec.ofNat 32 C.val ↔ _
  rw [BitVec.add_zero, ofNat32_inj (by have := R.isLt; omega) (by have := C.isLt; omega)]
  exact ⟨fun h => Fin.ext h, fun h => congrArg Fin.val h⟩

theorem ndiag_apply (R C : Fin 8192) : (noti diag (ValueIdx.ix2 R C) = 1#1) ↔ ¬ R = C := by
  show (~~~(diag (ValueIdx.ix2 R C)) = 1#1) ↔ _
  rw [not_bit_eq_one, diag_apply]

theorem expSim_apply (R C : Fin 8192) :
    expSim z (ValueIdx.ix2 R C) = Cert.Spec.weight (zfun z) R C := by
  show FloatOps.mulf (F := Ideal) (FloatOps.hostUnary (F := Ideal) .exp (sim z (ValueIdx.ix2 R C))) (FloatOps.uitofp (F := Ideal) .f32 (noti diag (ValueIdx.ix2 R C))) = _
  rw [Ideal.mulf_def, Ideal.hostUnary_exp_def, sim_apply, uitofp_bit]
  unfold Cert.Spec.weight
  congr 1
  by_cases h : R = C
  · rw [if_pos h, if_neg (fun e => (ndiag_apply R C).1 e h)]
  · rw [if_neg h, if_pos ((ndiag_apply R C).2 h)]

theorem den_apply (R : Fin 8192) : den z (ValueIdx.ix1 R) = Cert.Spec.denom (zfun z) R := by
  unfold den
  have hy : ∀ C : Fin 8192, expSim z (ValueIdx.ix2 R C) = Cert.Spec.weight (zfun z) R C := expSim_apply z R
  generalize expSim z = y0 at hy
  simp only [Host.reduceAdd, Ideal.hostReduceAdd_def]
  rw [Ideal.hostReduceAdd_single reducesTo_S8192x8192_S8192_d1 red1]
  show Ideal.ofBits .f32 0x00000000#32 + _ = _
  rw [Ideal.ofBits_zero_f32, zero_add]
  unfold Cert.Spec.denom
  refine Finset.sum_congr rfl fun C _ => ?_
  rw [← hy C]
  exact congrArg y0 (funext fun a => Fin.ext (by match a with | ⟨0, _⟩ => rfl | ⟨1, _⟩ => rfl))

theorem tmask_apply (R C : Fin 8192) : (tmask et (ValueIdx.ix2 R C) = 1#1) ↔ Cert.Spec.Pos (etfun et) R C := by
  unfold tmask
  show IntOp.andi (IntOp.cmpi .eq
      (broadcastInDim S8192x8192 ![0, 1] bcast_S1x8192_S8192x8192_0_1 (broadcastInDim S1x8192 ![1] bcast_S8192_S1x8192_1 et) (ValueIdx.ix2 R C))
      (broadcastInDim S8192x8192 ![0, 1] bcast_S8192x1_S8192x8192_0_1 (broadcastInDim S8192x1 ![0] bcast_S8192_S8192x1_0 et) (ValueIdx.ix2 R C)))
    (noti diag (ValueIdx.ix2 R C)) = 1#1 ↔ _
  have e1 : broadcastInDim S8192x8192 ![0, 1] bcast_S1x8192_S8192x8192_0_1 (broadcastInDim S1x8192 ![1] bcast_S8192_S1x8192_1 et) (ValueIdx.ix2 R C)
      = et (ValueIdx.ix1 C) := by
    rw [broadcastInDim_apply _ bcast_S1x8192_S8192x8192_0_1 _ (ValueIdx.ix2 R C) (ValueIdx.ix2 (⟨0, Nat.one_pos⟩ : Fin 1) C) (fun a => match a with
      | ⟨0, _⟩ => by show (0 : Nat) = if (1 : Nat) = 1 then 0 else R.val; rw [if_pos rfl]
      | ⟨1, _⟩ => by show C.val = if (8192 : Nat) = 1 then 0 else C.val; rw [if_neg (by decide)])]
    exact broadcastInDim_apply _ bcast_S8192_S1x8192_1 et _ (ValueIdx.ix1 C) (fun a => match a with
      | ⟨0, _⟩ => by show C.val = if (8192 : Nat) = 1 then 0 else C.val; rw [if_neg (by decide)])
  have e2 : broadcastInDim S8192x8192 ![0, 1] bcast_S8192x1_S8192x8192_0_1 (broadcastInDim S8192x1 ![0] bcast_S8192_S8192x1_0 et) (ValueIdx.ix2 R C)
      = et (ValueIdx.ix1 R) := by
    rw [broadcastInDim_apply _ bcast_S8192x1_S8192x8192_0_1 _ (ValueIdx.ix2 R C) (ValueIdx.ix2 R (⟨0, Nat.one_pos⟩ : Fin 1)) (fun a => match a with
      | ⟨0, _⟩ => by show R.val = if (8192 : Nat) = 1 then 0 else R.val; rw [if_neg (by decide)]
      | ⟨1, _⟩ => by show (0 : Nat) = if (1 : Nat) = 1 then 0 else C.val; rw [if_pos rfl])]
    exact broadcastInDim_apply _ bcast_S8192_S8192x1_0 et _ (ValueIdx.ix1 R) (fun a => match a with
      | ⟨0, _⟩ => by show R.val = if (8192 : Nat) = 1 then 0 else R.val; rw [if_neg (by decide)])
  rw [e1, e2, and_bit_eq_one, cmpi_eq_eq_one, ndiag_apply]
  unfold Cert.Spec.Pos
  exact ⟨fun h => ⟨h.1.symm, h.2⟩, fun h => ⟨h.1.symm, h.2⟩⟩

theorem num_apply (R : Fin 8192) : num z et (ValueIdx.ix1 R) = Cert.Spec.numer (zfun z) (etfun et) R := by
  unfold num
  have hy : ∀ C : Fin 8192, mulf (F := Ideal) (expSim z) (uitofp (F := Ideal) .f32 (tmask et)) (ValueIdx.ix2 R C)
      = Cert.Spec.weight (zfun z) R C * (if Cert.Spec.Pos (etfun et) R C then 1 else 0) := by
    intro C
    show FloatOps.mulf (F := Ideal) (expSim z (ValueIdx.ix2 R C)) (FloatOps.uitofp (F := Ideal) .f32 (tmask et (ValueIdx.ix2 R C))) = _
    rw [Ideal.mulf_def, expSim_apply, uitofp_bit]
    congr 1
    by_cases h : Cert.Spec.Pos (etfun et) R C
    · rw [if_pos h, if_pos ((tmask_apply et R C).2 h)]
    · rw [if_neg h, if_neg (fun e => h ((tmask_apply et R C).1 e))]
  generalize mulf (F := Ideal) (expSim z) (uitofp (F := Ideal) .f32 (tmask et)) = y0 at hy
  simp only [Host.reduceAdd, Ideal.hostReduceAdd_def]
  rw [Ideal.hostReduceAdd_single reducesTo_S8192x8192_S8192_d1 red1]
  show Ideal.ofBits .f32 0x00000000#32 + _ = _
  rw [Ideal.ofBits_zero_f32, zero_add]
  unfold Cert.Spec.numer
  refine Finset.sum_congr rfl fun C _ => ?_
  rw [← hy C]
  exact congrArg y0 (funext fun a => Fin.ext (by match a with | ⟨0, _⟩ => rfl | ⟨1, _⟩ => rfl))

theorem perRow_apply (R : Fin 8192) :
    perRow z et (ValueIdx.ix1 R)
      = -(Ideal.log (Ideal.div (Cert.Spec.numer (zfun z) (etfun et) R + Cert.Spec.eps) (Cert.Spec.denom (zfun z) R + Cert.Spec.eps))) := by
  show FloatOps.hostNegf (F := Ideal) (FloatOps.hostUnary (F := Ideal) .log (FloatOps.hostDivf
    (FloatOps.addf (F := Ideal) (num z et (ValueIdx.ix1 R)) (broadcastInDim S8192 ![] bcast_S_S8192 (constant (F := Ideal) S_ .f32 0x322BCC77#32) (ValueIdx.ix1 R)))
    (FloatOps.addf (F := Ideal) (den z (ValueIdx.ix1 R)) (broadcastInDim S8192 ![] bcast_S_S8192 (constant (F := Ideal) S_ .f32 0x322BCC77#32) (ValueIdx.ix1 R))))) = _
  rw [Ideal.hostNegf_def, Ideal.negf_def, Ideal.hostUnary_log_def, Ideal.hostDivf_def, Ideal.addf_def, Ideal.addf_def,
    num_apply, den_apply, splat_apply]
  rfl

theorem lift1_eq (R k : Fin 8192) : red1.lift (ValueIdx.ix1 R) k = ValueIdx.ix2 R k :=
  funext fun a => Fin.ext (by match a with | ⟨0, _⟩ => rfl | ⟨1, _⟩ => rfl)

theorem card_lt : (Finset.univ : Finset (Fin 8192)).card < 2 ^ 31 := by
  rw [Finset.card_univ, Fintype.card_fin]; norm_num

theorem hasPos_apply (R : Fin 8192) : (hasPos et (ValueIdx.ix1 R) = 1#1) ↔ Cert.Spec.HasPos (etfun et) R := by
  show IntOp.cmpi .sgt (cnt et (ValueIdx.ix1 R)) (broadcastInDim S8192 ![] bcast_S_S8192 (constantI S_ 32 0#32) (ValueIdx.ix1 R)) = 1#1 ↔ _
  rw [splat_apply]
  show IntOp.cmpi .sgt (cnt et (ValueIdx.ix1 R)) 0#32 = 1#1 ↔ _
  unfold cnt
  rw [Host.reduce_eq_fold_single IntOp.addi _ _ reducesTo_S8192x8192_S8192_d1 red1 h_S_]
  show IntOp.cmpi .sgt ((Finset.univ : Finset (Fin 8192)).fold IntOp.addi 0#32
    (fun k => (tmask et (red1.lift (ValueIdx.ix1 R) k)).setWidth 32)) 0#32 = 1#1 ↔ _
  refine (cmpi_sgt_fold_eq_one (Finset.univ : Finset (Fin 8192)) (fun k => tmask et (red1.lift (ValueIdx.ix1 R) k)) card_lt).trans ?_
  unfold Cert.Spec.HasPos
  constructor
  · rintro ⟨k, _, hk⟩
    rw [lift1_eq] at hk
    exact ⟨k, (tmask_apply et R k).1 hk⟩
  · rintro ⟨C, hC⟩
    refine ⟨C, Finset.mem_univ _, ?_⟩
    rw [lift1_eq]
    exact (tmask_apply et R C).2 hC

theorem rowSel_apply (R : Fin 8192) : rowSel z et (ValueIdx.ix1 R) = Cert.Spec.rowLoss (zfun z) (etfun et) R := by
  show Scalar.select (hasPos et (ValueIdx.ix1 R)) (perRow z et (ValueIdx.ix1 R))
    (broadcastInDim S8192 ![] bcast_S_S8192 (id (constant (F := Ideal) S_ .f32 0x00000000#32)) (ValueIdx.ix1 R)) = _
  rw [select_bit, perRow_apply, splat_apply]
  unfold Cert.Spec.rowLoss
  by_cases h : Cert.Spec.HasPos (etfun et) R
  · rw [if_pos h, if_pos ((hasPos_apply et R).2 h)]
  · rw [if_neg h, if_neg (fun e => h ((hasPos_apply et R).1 e))]
    show Ideal.ofBits .f32 0x00000000#32 = 0
    exact Ideal.ofBits_zero_f32

theorem lossSum_apply (i : S_.Idx) : lossSum z et i = ∑ R : Fin 8192, Cert.Spec.rowLoss (zfun z) (etfun et) R := by
  unfold lossSum
  have hy : ∀ R : Fin 8192, rowSel z et (ValueIdx.ix1 R) = Cert.Spec.rowLoss (zfun z) (etfun et) R := rowSel_apply z et
  generalize rowSel z et = y0 at hy
  simp only [Host.reduceAdd, Ideal.hostReduceAdd_def]
  rw [Ideal.hostReduceAdd_total reducesTo_S8192_S_d0 (fun b => b.elim0)]
  show Ideal.ofBits .f32 0x00000000#32 + _ = _
  rw [Ideal.ofBits_zero_f32, zero_add]
  exact (Equiv.sum_comp idxEquiv1.symm y0).symm.trans (Finset.sum_congr rfl fun R _ => hy R)

theorem nHas_apply (i : S_.Idx) : nHas et i = ∑ R : Fin 8192, Cert.Spec.rowHas (etfun et) R := by
  show FloatOps.sitofp (F := Ideal) .f32 (Host.reduce IntOp.addi (extui 32 (hasPos et) natLt_1_32) (constantI S_ 32 0#32) reducesTo_S8192_S_d0 h_S_ i) = _
  refine (congrArg (FloatOps.sitofp (F := Ideal) .f32) (Host.reduce_eq_fold IntOp.addi _ _ reducesTo_S8192_S_d0 h_S_ i)).trans ?_
  rw [Finset.filter_true_of_mem (fun j _ => funext fun b => b.elim0)]
  refine (sitofp_fold_addi_bits (Finset.univ : Finset S8192.Idx) (hasPos et) card_idx_lt).trans ?_
  refine (Equiv.sum_comp idxEquiv1.symm _).symm.trans (Finset.sum_congr rfl fun R _ => ?_)
  show (if hasPos et (ValueIdx.ix1 R) = 1#1 then (1 : EReal) else 0) = _
  unfold Cert.Spec.rowHas
  by_cases h : Cert.Spec.HasPos (etfun et) R
  · rw [if_pos h, if_pos ((hasPos_apply et R).2 h)]
  · rw [if_neg h, if_neg (fun e => h ((hasPos_apply et R).1 e))]

/-- The reference's stages composed are the specification's loss of the embeddings and the types. -/
theorem refTypeLoss_eq :
    refTypeLoss z et = fun _ => Cert.Spec.typeLoss (fun R k => z (ValueIdx.ix2 R k)) (fun R => et (ValueIdx.ix1 R)) := by
  funext i
  show FloatOps.hostDivf (F := Ideal) (lossSum z et i) (FloatOps.maximumf (F := Ideal) (nHas et i) (constant (F := Ideal) S_ .f32 0x3F800000#32 i)) = _
  rw [Ideal.hostDivf_def, Ideal.maximumf_def, lossSum_apply, nHas_apply]
  rfl

end Reads

end Cert.ReferenceIdeal.RefValue

end
-- ==== Proof.RefMid.lean ====
/-
  The middle part of the reference's operations, read over any contents of the buffers: the type-loss buffer holds the
  composition of the reference's type-loss stages applied to the normalised embeddings and the edge types found there,
  and the buffers the later operations still read (the intra loss, the edge embeddings, the two vectors of row numbers)
  are left as found, since no operation of the part writes them.
-/
import proofs.«135812_j48799418417343_1_alg».proof.Proof.RefSplit
import proofs.«135812_j48799418417343_1_alg».proof.Proof.RefSide

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP

variable (W : Valuation τ sig (Elt Ideal))

/-! The middle part cut in three: up to the test "the row has a positive" and the rows' losses; the three operations of
    the inlined selection (whose typed references carry contents to the value's type and back, the identity on a literal
    reference); and the two totals, the bound below by one and the quotient. -/

/-- The middle part's operations through the rows' losses and the test. -/
def opsB1 : List (HloOp τ sig (Elt Ideal)) := (opsB (F := Ideal)).take 44
/-- The inlined selection. -/
def opsB2 : List (HloOp τ sig (Elt Ideal)) := ((opsB (F := Ideal)).drop 44).take 3
/-- The totals and the quotient. -/
def opsB3 : List (HloOp τ sig (Elt Ideal)) := ((opsB (F := Ideal)).drop 44).drop 3

theorem opsB_split : opsB (F := Ideal) = opsB1 ++ (opsB2 ++ opsB3) := by
  unfold opsB1 opsB2 opsB3
  rw [List.take_append_drop, List.take_append_drop]

set_option maxRecDepth 100000 in
/-- After the first cut the test buffer holds the stage "the row has a positive" of the types. -/
theorem b1_v77 : after opsB1 W (Proc.devRef .tc main_v77) = hasPos (W (Proc.devRef .tc main_arg3)) := by
  simp only [opsB1, opsB, ops, List.drop, List.take]
  after_results_simp
  rfl

set_option maxRecDepth 100000 in
/-- After the first cut the rows' losses are the stage of the embeddings and the types. -/
theorem b1_v73 : after opsB1 W (Proc.devRef .tc main_v73)
    = perRow (W (Proc.devRef .tc main_v42)) (W (Proc.devRef .tc main_arg3)) := by
  simp only [opsB1, opsB, ops, List.drop, List.take]
  after_results_simp
  rfl

set_option maxRecDepth 100000 in
/-- After the first cut the selection's alternative is the zero word. -/
theorem b1_cst19 : after opsB1 W (Proc.devRef .tc main_cst_19) = constant (F := Ideal) S_ .f32 0x00000000#32 := by
  simp only [opsB1, opsB, ops, List.drop, List.take]
  after_results_simp

set_option maxRecDepth 100000 in
/-- The inlined selection, over any contents. -/
theorem b2_v78 : after opsB2 W (Proc.devRef .tc main_v78)
    = select (W (Proc.devRef .tc main_v77)) (W (Proc.devRef .tc main_v73))
        (broadcastInDim S8192 ![] bcast_S_S8192 (id (W (Proc.devRef .tc main_cst_19)))) := by
  simp only [opsB2, opsB, ops, List.drop, List.take]
  after_results_simp
  rfl

set_option maxRecDepth 100000 in
/-- The inlined selection leaves the test as found. -/
theorem b2_v77 : after opsB2 W (Proc.devRef .tc main_v77) = W (Proc.devRef .tc main_v77) := by
  simp only [opsB2, opsB, ops, List.drop, List.take]
  after_results_simp

set_option maxRecDepth 100000 in
/-- The totals and the quotient, over any contents. -/
theorem b3_v84 : after opsB3 W (Proc.devRef .tc main_v84)
    = Host.divf (F := Ideal)
        (Host.reduceAdd (F := Ideal) (W (Proc.devRef .tc main_v78)) (constant (F := Ideal) S_ .f32 0x00000000#32) reducesTo_S8192_S_d0 h_S_)
        (maximumf (F := Ideal)
          (sitofp (F := Ideal) .f32 (Host.reduce IntOp.addi (extui 32 (W (Proc.devRef .tc main_v77)) natLt_1_32) (constantI S_ 32 0#32)
            reducesTo_S8192_S_d0 h_S_))
          (constant (F := Ideal) S_ .f32 0x3F800000#32)) := by
  simp only [opsB3, opsB, ops, List.drop, List.take]
  after_results_simp

/-- After the middle part, the type-loss buffer holds the stages' composition of the embeddings and the types. -/
theorem mid_v84 :
    after (opsB (F := Ideal)) W (Proc.devRef .tc main_v84)
      = refTypeLoss (W (Proc.devRef .tc main_v42)) (W (Proc.devRef .tc main_arg3)) := by
  rw [opsB_split, after_append, after_append, b3_v84, b2_v78, b2_v77, b1_v77, b1_v73, b1_cst19]
  rfl

set_option maxRecDepth 100000 in
/-- The middle part leaves the intra loss as found. -/
theorem mid_v39 : after (opsB (F := Ideal)) W (Proc.devRef .tc main_v39) = W (Proc.devRef .tc main_v39) := by
  simp only [opsB, ops, List.drop, List.take]
  after_results_simp

set_option maxRecDepth 100000 in
/-- The middle part leaves the edge embeddings as found. -/
theorem mid_v16 : after (opsB (F := Ideal)) W (Proc.devRef .tc main_v16) = W (Proc.devRef .tc main_v16) := by
  simp only [opsB, ops, List.drop, List.take]
  after_results_simp

set_option maxRecDepth 100000 in
/-- The middle part leaves the first vector of row numbers as found. -/
theorem mid_arg5 : after (opsB (F := Ideal)) W (Proc.devRef .tc main_arg5) = W (Proc.devRef .tc main_arg5) := by
  simp only [opsB, ops, List.drop, List.take]
  after_results_simp

set_option maxRecDepth 100000 in
/-- The middle part leaves the second vector of row numbers as found. -/
theorem mid_arg6 : after (opsB (F := Ideal)) W (Proc.devRef .tc main_arg6) = W (Proc.devRef .tc main_arg6) := by
  simp only [opsB, ops, List.drop, List.take]
  after_results_simp

end Cert.ReferenceIdeal.RefValue

end
-- ==== Proof.RefResult.lean ====
/-
  The reference's result vector from the contents its first stretch of operations leaves.

  The reference's operations fall in three consecutive parts: through the normalised table; the type loss; the rest.
  The last part packs the tail of the intra loss, the type loss and the inter loss it computes from the edge
  embeddings; the middle part leaves the intra loss, the edge embeddings and the row numbers as found, and computes
  the type loss from the normalised table and the types — which is the specification's loss.
-/
import proofs.«135812_j48799418417343_1_alg».proof.Proof.RefTail
import proofs.«135812_j48799418417343_1_alg».proof.Proof.RefMid
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.ValueP Idealize.ShloMosaic.ValueIdx

/-- THE REFERENCE'S RESULT VECTOR, from any launch contents `L`. -/
theorem ref_result (L : Valuation τ sig (Elt Ideal)) :
    after (ops (F := Ideal)) L (Proc.devRef .tc main_v116)
      = tailR (after (opsA (F := Ideal)) L (Proc.devRef .tc main_v39))
          (fun _ => Cert.Spec.typeLoss (fun R k => after (opsA (F := Ideal)) L (Proc.devRef .tc main_v42) (ix2 R k))
            (fun R => after (opsA (F := Ideal)) L (Proc.devRef .tc main_arg3) (ix1 R)))
          (after (opsA (F := Ideal)) L (Proc.devRef .tc main_v16))
          (after (opsA (F := Ideal)) L (Proc.devRef .tc main_arg5)) (after (opsA (F := Ideal)) L (Proc.devRef .tc main_arg6)) := by
  rw [after_split, tail_v116, mid_v39, mid_v84, mid_v16, mid_arg5, mid_arg6, refTypeLoss_eq]

end Cert.ReferenceIdeal.RefValue

end
-- ==== Proof.KGlueX.lean ====
/-
  The two programs compute the same values before the type loss.

  The reference's first 60 operations are, operation for operation, the kernel program's operations before its region
  (the gather of the node rows, the two scatter-adds, the divisions, the intra loss, the norm and the normalised table):
  read at the edge embeddings, the intra loss and the normalised table they give the same named functions of the
  argument arrays. So from equal argument arrays the two programs hold equal edge embeddings, equal intra losses and
  equal normalised tables. No gather, scatter-add, reduction or square root is opened: the two readings are one term
  up to the names the two programs give their shapes and dimension records. The last seven of the 60 (the norm and the
  division by it) are read over an arbitrary valuation and then placed after the first 53.
-/
import proofs.«135812_j48799418417343_1_alg».proof.Proof.RefSplit
import proofs.«135812_j48799418417343_1_alg».proof.Proof.KGluePre

set_option maxRecDepth 4000

noncomputable section

namespace Cert.Glue

open Idealize.ShloMosaic Idealize.ShloMosaic.TcCoe Idealize.SL.Sem

/-! ## The reference's first part read over an arbitrary valuation -/

section RefPart

open Cert.ReferenceIdeal Cert.ReferenceIdeal.Gen Cert.ReferenceIdeal.ValueP

variable (W : Valuation τ sig (Elt Ideal))

/-- The reference's first part at the edge embeddings. -/
theorem refA_v16 : StableHlo.after (opsA (F := Ideal)) W (Proc.devRef .tc main_v16)
    = embK (W (Proc.devRef .tc main_arg0)) (W (Proc.devRef .tc main_arg1)) (W (Proc.devRef .tc main_arg2)) := by
  simp only [opsA, ops, List.take]
  after_results_simp
  rfl

/-- The reference's first part at the intra loss. -/
theorem refA_v39 : StableHlo.after (opsA (F := Ideal)) W (Proc.devRef .tc main_v39)
    = intraK (W (Proc.devRef .tc main_arg0)) (W (Proc.devRef .tc main_arg1)) (W (Proc.devRef .tc main_arg2))
        (W (Proc.devRef .tc main_arg4)) := by
  simp only [opsA, ops, List.take]
  after_results_simp
  rfl

/-- The first part is its first 53 operations followed by the next seven. -/
theorem opsA_cut : opsA (F := Ideal) = (ops (F := Ideal)).take 53 ++ ((ops (F := Ideal)).drop 53).take 7 := by
  show (ops (F := Ideal)).take (53 + 7) = _
  exact List.take_add

/-- The seven operations of the norm and the division, at the normalised table: the edge embeddings found, each row
    over its norm. -/
theorem norm7_v42 : StableHlo.after (((ops (F := Ideal)).drop 53).take 7) W (Proc.devRef .tc main_v42)
    = zK (W (Proc.devRef .tc main_v16)) := by
  simp only [ops, List.drop, List.take]
  after_results_simp
  rfl

/-- The seven operations leave the edge embeddings alone. -/
theorem norm7_v16 : StableHlo.after (((ops (F := Ideal)).drop 53).take 7) W (Proc.devRef .tc main_v16)
    = W (Proc.devRef .tc main_v16) := by
  simp only [ops, List.drop, List.take]
  after_results_simp

/-- The reference's first part at the normalised table: the edge embeddings it has computed, each row over its norm. -/
theorem refA_v42 : StableHlo.after (opsA (F := Ideal)) W (Proc.devRef .tc main_v42)
    = zK (StableHlo.after (opsA (F := Ideal)) W (Proc.devRef .tc main_v16)) := by
  rw [opsA_cut, after_append, norm7_v42, norm7_v16]

/-- The reference's first part writes no argument array: the edges' types … -/
theorem refA_arg3 : StableHlo.after (opsA (F := Ideal)) W (Proc.devRef .tc main_arg3) = W (Proc.devRef .tc main_arg3) := by
  simp only [opsA, ops, List.take]
  after_results_simp

/-- … the first vector of 500 row numbers … -/
theorem refA_arg5 : StableHlo.after (opsA (F := Ideal)) W (Proc.devRef .tc main_arg5) = W (Proc.devRef .tc main_arg5) := by
  simp only [opsA, ops, List.take]
  after_results_simp

/-- … and the second. -/
theorem refA_arg6 : StableHlo.after (opsA (F := Ideal)) W (Proc.devRef .tc main_arg6) = W (Proc.devRef .tc main_arg6) := by
  simp only [opsA, ops, List.take]
  after_results_simp

end RefPart

/-! ## From equal argument arrays, equal values -/

section Cross

variable (m' : (ℓ : Loc Cert.ReferenceIdeal.nD Cert.ReferenceIdeal.τ Cert.ReferenceIdeal.sig) → Buf (Elt Ideal) ℓ)
variable (c' : Dev Cert.ReferenceIdeal.nD)
variable (m : (ℓ : Loc Cert.KernelIdeal.nD Cert.KernelIdeal.τ Cert.KernelIdeal.sig) → Buf (Elt Ideal) ℓ)
variable (c : Dev Cert.KernelIdeal.nD)

open Cert.KernelIdeal.Hand.Run in
/-- Equal node tables, node rows and edge numbers give equal edge embeddings. -/
theorem X_v16
    (h0 : (m' (c', Proc.devRef .tc Cert.ReferenceIdeal.main_arg0) : FVec Ideal Cert.KernelIdeal.S200000x256 .f32)
      = m (c, Proc.devRef .tc Cert.KernelIdeal.main_arg0))
    (h1 : (m' (c', Proc.devRef .tc Cert.ReferenceIdeal.main_arg1) : IVec Cert.KernelIdeal.S262126 32)
      = m (c, Proc.devRef .tc Cert.KernelIdeal.main_arg1))
    (h2 : (m' (c', Proc.devRef .tc Cert.ReferenceIdeal.main_arg2) : IVec Cert.KernelIdeal.S262126 32)
      = m (c, Proc.devRef .tc Cert.KernelIdeal.main_arg2)) :
    (StableHlo.after (Cert.ReferenceIdeal.ValueP.opsA (F := Ideal)) (StableHlo.launchContents m' c') (Proc.devRef .tc Cert.ReferenceIdeal.main_v16)
      : FVec Ideal Cert.KernelIdeal.S8192x256 .f32)
      = V3 m c (Proc.devRef .tc Cert.KernelIdeal.main_v16) := by
  rw [refA_v16, V3_v16]
  simp only [StableHlo.launchContents]
  rw [h0, h1, h2]

open Cert.KernelIdeal.Hand.Run in
/-- Equal node tables, node rows, edge numbers and sampled edges give equal intra losses. -/
theorem X_v39
    (h0 : (m' (c', Proc.devRef .tc Cert.ReferenceIdeal.main_arg0) : FVec Ideal Cert.KernelIdeal.S200000x256 .f32)
      = m (c, Proc.devRef .tc Cert.KernelIdeal.main_arg0))
    (h1 : (m' (c', Proc.devRef .tc Cert.ReferenceIdeal.main_arg1) : IVec Cert.KernelIdeal.S262126 32)
      = m (c, Proc.devRef .tc Cert.KernelIdeal.main_arg1))
    (h2 : (m' (c', Proc.devRef .tc Cert.ReferenceIdeal.main_arg2) : IVec Cert.KernelIdeal.S262126 32)
      = m (c, Proc.devRef .tc Cert.KernelIdeal.main_arg2))
    (h4 : (m' (c', Proc.devRef .tc Cert.ReferenceIdeal.main_arg4) : IVec Cert.KernelIdeal.S400 32)
      = m (c, Proc.devRef .tc Cert.KernelIdeal.main_arg4)) :
    (StableHlo.after (Cert.ReferenceIdeal.ValueP.opsA (F := Ideal)) (StableHlo.launchContents m' c') (Proc.devRef .tc Cert.ReferenceIdeal.main_v39)
      : FVec Ideal Cert.KernelIdeal.S_ .f32)
      = V3 m c (Proc.devRef .tc Cert.KernelIdeal.main_v39) := by
  rw [refA_v39, V3_v39]
  simp only [StableHlo.launchContents]
  rw [h0, h1, h2, h4]

open Cert.KernelIdeal.Hand.Run in
/-- Equal node tables, node rows and edge numbers give equal normalised tables. -/
theorem X_v42
    (h0 : (m' (c', Proc.devRef .tc Cert.ReferenceIdeal.main_arg0) : FVec Ideal Cert.KernelIdeal.S200000x256 .f32)
      = m (c, Proc.devRef .tc Cert.KernelIdeal.main_arg0))
    (h1 : (m' (c', Proc.devRef .tc Cert.ReferenceIdeal.main_arg1) : IVec Cert.KernelIdeal.S262126 32)
      = m (c, Proc.devRef .tc Cert.KernelIdeal.main_arg1))
    (h2 : (m' (c', Proc.devRef .tc Cert.ReferenceIdeal.main_arg2) : IVec Cert.KernelIdeal.S262126 32)
      = m (c, Proc.devRef .tc Cert.KernelIdeal.main_arg2)) :
    (StableHlo.after (Cert.ReferenceIdeal.ValueP.opsA (F := Ideal)) (StableHlo.launchContents m' c') (Proc.devRef .tc Cert.ReferenceIdeal.main_v42)
      : FVec Ideal Cert.KernelIdeal.S8192x256 .f32)
      = V3 m c (Proc.devRef .tc Cert.KernelIdeal.main_v42) := by
  rw [refA_v42, V3_v42, X_v16 m' c' m c h0 h1 h2]

end Cross

end Cert.Glue

end
-- ==== Proof.KGlueXTail.lean ====
/-
  The two programs' tails are one function.

  After their type losses both programs gather the rows of the edge embeddings that two vectors of 500 row numbers
  name, take the differences' norms, one minus the norm, its positive part, the mean of the squares, the weighted total
  with the intra and the type loss, and pack the four numbers. The two tails are written over the two programs' own
  names for the shapes and the dimension records; those names stand for the same literals, so the tails are equal as
  functions, and so are the pieces they are made of.
-/
import proofs.«135812_j48799418417343_1_alg».proof.Proof.RefTail
import proofs.«135812_j48799418417343_1_alg».proof.Proof.KGlueTail

noncomputable section

namespace Cert.Glue

open Idealize.ShloMosaic
open Cert.ReferenceIdeal.RefValue (rowsR diffR normR oneMinusR reluR meanSqR interR totalR packR tailR)

/-- The inter losses are one function of the edge embeddings and the two vectors of row numbers. -/
theorem inter_eq : interK = interR := rfl

/-- The packings are one function of the three losses. -/
theorem pack_eq : packK = packR := rfl

/-- **The tails are one function** of the intra loss, the type loss, the edge embeddings and the two vectors of row
    numbers. -/
theorem tail_eq : tailK = tailR := rfl

end Cert.Glue

end
-- ==== Proof.KGlueFinal.lean ====
/-
  The two programs' result vectors agree.

  The kernel program's result vector is the tail of the intra loss and the edge embeddings it computes before its
  region, of the specification's type loss of its normalised table and the edges' types, and of the two vectors of row
  numbers. The reference's result vector is the same tail (the two tails are one function) of the same things as the
  reference computes or finds them. From equal argument arrays the two programs compute equal edge embeddings, intra
  losses and normalised tables, and the reference's first operations leave the types and the row numbers as launched.
-/
import proofs.«135812_j48799418417343_1_alg».proof.Proof.KResult
import proofs.«135812_j48799418417343_1_alg».proof.Proof.RefResult
import proofs.«135812_j48799418417343_1_alg».proof.Proof.KGlueX
import proofs.«135812_j48799418417343_1_alg».proof.Proof.KGlueXTail

noncomputable section

namespace Cert.Glue

open Idealize.ShloMosaic Idealize.ShloMosaic.TcCoe Idealize.ShloMosaic.ValueIdx Idealize.SL.Sem
open Idealize.SL Idealize.SL.RA
open Cert.KernelIdeal.Hand Cert.KernelIdeal.Hand.Run

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)
variable (c : Dev Cert.KernelIdeal.nD)

/-- **From memories that agree on the seven argument arrays, the two programs end with equal result vectors.** -/
theorem results_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    V9 m (fun c => (dat (Ix := Unit) (UA := UR Cert.KernelIdeal.sig Cert.KernelIdeal.nD Cert.KernelIdeal.τ) (Lvl := ℕ) m c).arrAt 4 Cert.KernelIdeal.cfg0.N)
        (fun c => (dat (Ix := Unit) (UA := UR Cert.KernelIdeal.sig Cert.KernelIdeal.nD Cert.KernelIdeal.τ) (Lvl := ℕ) m c).arrAt 5 Cert.KernelIdeal.cfg0.N) c
        (Proc.devRef .tc Cert.KernelIdeal.main_v81)
      = StableHlo.after (Cert.ReferenceIdeal.ValueP.ops (F := Ideal)) (StableHlo.launchContents m' c)
          (Proc.devRef .tc Cert.ReferenceIdeal.main_v116) := by
  have e16 := X_v16 m' c m c h0 h1 h2
  have e39 := X_v39 m' c m c h0 h1 h2 h4
  have e42 := X_v42 m' c m c h0 h1 h2
  have e3 : StableHlo.after (Cert.ReferenceIdeal.ValueP.opsA (F := Ideal)) (StableHlo.launchContents m' c) (Proc.devRef .tc Cert.ReferenceIdeal.main_arg3)
      = m (c, Proc.devRef .tc Cert.KernelIdeal.main_arg3) := (refA_arg3 _).trans h3
  have e5 : StableHlo.after (Cert.ReferenceIdeal.ValueP.opsA (F := Ideal)) (StableHlo.launchContents m' c) (Proc.devRef .tc Cert.ReferenceIdeal.main_arg5)
      = m (c, Proc.devRef .tc Cert.KernelIdeal.main_arg5) := (refA_arg5 _).trans h5
  have e6 : StableHlo.after (Cert.ReferenceIdeal.ValueP.opsA (F := Ideal)) (StableHlo.launchContents m' c) (Proc.devRef .tc Cert.ReferenceIdeal.main_arg6)
      = m (c, Proc.devRef .tc Cert.KernelIdeal.main_arg6) := (refA_arg6 _).trans h6
  rw [Cert.KernelIdeal.KVal.kernel_result, Cert.ReferenceIdeal.RefValue.ref_result, ← tail_eq, e16, e39, e42, e3, e5, e6]

end Cert.Glue

end
-- ==== Proof.KAssemble.lean ====
/-
  The two programs' result vectors agree, and the value claim.

  With the argument arrays agreeing, the reference's first stretch of operations leaves the same intra loss, edge
  embeddings and normalised table as the kernel program's host stretches before its region (the same operations of
  the same arguments), the types are the same argument array, the two tails are one function, and both type losses
  are the specification's loss of that table and those types. So the two result vectors are equal.
-/
import proofs.«135812_j48799418417343_1_alg».proof.Defs
import proofs.«135812_j48799418417343_1_alg».proof.Proof.Gen.Pre_finite_inputs
import proofs.«135812_j48799418417343_1_alg».proof.Proof.Gen.ReferenceIdeal
import proofs.«135812_j48799418417343_1_alg».proof.Proof.KRunMain
import proofs.«135812_j48799418417343_1_alg».proof.Proof.KResult
import proofs.«135812_j48799418417343_1_alg».proof.Proof.RefResult
import proofs.«135812_j48799418417343_1_alg».proof.Proof.RefFrame
import proofs.«135812_j48799418417343_1_alg».proof.Proof.KGlueFinal

noncomputable section

namespace Cert.Assemble

open Idealize.ShloMosaic Idealize.ShloMosaic.TcCoe Idealize.ShloMosaic.ValueIdx Idealize.SL.Sem Idealize.ShloMosaic.StableHlo
open Idealize.SL Idealize.SL.RA

/-- The value claim: both idealized programs run, to equal result vectors, their arguments unchanged. -/
theorem algebraic : Cert.algebraic_KernelIdeal_ReferenceIdeal := by
  intro m ρ m' ρ' _ hagree
  refine ⟨fun c => Cert.KernelIdeal.Hand.Vfin m c Cert.KernelIdeal.main_v81, Cert.KernelIdeal.Hand.run_main (F := Ideal) m ρ, ?_⟩
  refine (θ_run (Cert.ReferenceIdeal.defs (F := Ideal)) _ _).mono (fun r h c => ?_) (Cert.ReferenceIdeal.ValueP.run_raw (F := Ideal) m' ρ')
  obtain ⟨h0, h1, h2, h3, h4, h5, h6⟩ := hagree c
  refine ⟨(h c Cert.ReferenceIdeal.main_v116).trans ?_,
    (h c Cert.ReferenceIdeal.main_arg0).trans (Cert.ReferenceIdeal.ValueP.kept_arg0 m' c),
    (h c Cert.ReferenceIdeal.main_arg1).trans (Cert.ReferenceIdeal.ValueP.kept_arg1 m' c),
    (h c Cert.ReferenceIdeal.main_arg2).trans (Cert.ReferenceIdeal.ValueP.kept_arg2 m' c),
    (h c Cert.ReferenceIdeal.main_arg3).trans (Cert.ReferenceIdeal.ValueP.kept_arg3 m' c),
    (h c Cert.ReferenceIdeal.main_arg4).trans (Cert.ReferenceIdeal.ValueP.kept_arg4 m' c),
    (h c Cert.ReferenceIdeal.main_arg5).trans (Cert.ReferenceIdeal.ValueP.kept_arg5 m' c),
    (h c Cert.ReferenceIdeal.main_arg6).trans (Cert.ReferenceIdeal.ValueP.kept_arg6 m' c)⟩
  exact (Cert.Glue.results_agree m m' c h0 h1 h2 h3 h4 h5 h6).symm

end Cert.Assemble

end
-- ==== Proof.lean ====
/-
  The type-contrastive hyperedge loss: a Pallas kernel for the dense similarity block against the plain host
  computation, equal over the extended reals.

  Both programs compute, by the same host operations, the hyperedge embeddings (a ragged segment mean), the
  intra-hyperedge loss, the row-normalised embedding table `z` and the inter-hyperedge margin loss, and pack
  (intra, type, inter, intra + ½·type + ½·inter). They differ in the type loss. The reference forms the whole
  8192 × 8192 matrix `exp (⟨z_R, z_C⟩ / τ)` off the diagonal, sums each row over all columns and over the columns of
  the row's type, and averages `−log ((positives + ε) / (all + ε))` over the rows that have a positive. The kernel
  does the same 128 rows at a time: a grid of 64 points, each reading its 128 rows of `z` (in the shorter float
  format, which is the identity on the extended reals) beside all of `z`, and its 128 types beside all the types, and
  writing back 128 row losses and 128 row indicators; the host then totals the two columns and divides. Where the
  reference divides a similarity by the temperature's word — the binary fraction 13421773 / 2^27 nearest one tenth —
  the kernel multiplies by a constant NAMED as exactly that fraction's reciprocal; a quotient by a nonzero real is the
  product with its reciprocal on every extended real, so the similarities, the weights, the row sums and the losses
  agree index by index, and no input need be finite for that.

  The three frames: each program runs to its end, faults nowhere and leaves its argument arrays as launched — for the
  two kernel programs by the pipeline's launch rule over the region's proof data (each input window's buffer holds
  its block of the array, the two result buffers what the body stores; the two windows on one array hold it at the
  two halves of the full share), for the reference by the host run. The idealization's one rewrite is the named
  constant. The value claim: both runs end with the result vector at one function of the arguments.
-/
import proofs.«135812_j48799418417343_1_alg».proof.Defs
import proofs.«135812_j48799418417343_1_alg».proof.Proof.Gen.Kernel
import proofs.«135812_j48799418417343_1_alg».proof.Proof.Gen.KernelIdeal
import proofs.«135812_j48799418417343_1_alg».proof.Proof.Gen.ReferenceIdeal
import proofs.«135812_j48799418417343_1_alg».proof.Proof.Gen.Pre_finite_inputs
import proofs.«135812_j48799418417343_1_alg».proof.Proof.KRunMain
import proofs.«135812_j48799418417343_1_alg».proof.Proof.KRunMainBits
import proofs.«135812_j48799418417343_1_alg».proof.Proof.RefFrame
import proofs.«135812_j48799418417343_1_alg».proof.Proof.KAssemble

noncomputable section

namespace Cert.Proof

open Idealize.ShloMosaic Idealize.SL.Sem

/-- The word-level kernel program runs and leaves its arguments unchanged. -/
theorem frame_p : Cert.frame_Kernel := fun m ρ _ =>
  (θ_run (Cert.Kernel.defs (F := Bits)) _ _).mono (fun _ h c => (h c).2) (Cert.Kernel.Hand.run_main (F := Bits) m ρ)

/-- The idealized kernel program runs and leaves its arguments unchanged. -/
theorem frame_pi : Cert.frame_KernelIdeal := fun m ρ _ =>
  (θ_run (Cert.KernelIdeal.defs (F := Ideal)) _ _).mono (fun _ h c => (h c).2) (Cert.KernelIdeal.Hand.run_main (F := Ideal) m ρ)

/-- The reference runs and leaves its arguments unchanged. -/
theorem frame_ri : Cert.frame_ReferenceIdeal := fun m ρ _ => Cert.ReferenceIdeal.ValueP.run_args m ρ

/-- The idealization's one rewrite: the constant 10.0 named as the reciprocal of the temperature's fraction. -/
theorem preserves : Cert.preserves_Kernel_KernelIdeal :=
  IdealRules.named_const.statement Cert.KernelIdeal.κ "inv_tau" .f32 0x41200000#32 ((134217728 / 13421773 : ℝ) : EReal) rfl

/-- Everything claimed. -/
theorem claim : Cert.Claim :=
  ⟨Cert.Kernel.Gen.facts, Cert.KernelIdeal.Gen.facts, Cert.ReferenceIdeal.Gen.facts, Cert.Pre_finite_inputs.Gen.facts,
    frame_p, frame_pi, frame_ri, preserves, Cert.Assemble.algebraic⟩

end Cert.Proof

end
